-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S8192x256 .f32) (main_arg1 : FVec F S8192x8192 .f32) (main_arg2 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S8192x256 : Shape := ⟨2, ![8192, 256]⟩
abbrev S8192x8192 : Shape := ⟨2, ![8192, 8192]⟩
abbrev S256x256 : Shape := ⟨2, ![256, 256]⟩
abbrev S8192x1 : Shape := ⟨2, ![8192, 1]⟩
abbrev S1024x2048 : Shape := ⟨2, ![1024, 2048]⟩
abbrev S1024x256 : Shape := ⟨2, ![1024, 256]⟩
abbrev S1024x1 : Shape := ⟨2, ![1024, 1]⟩
abbrev S1024 : Shape := ⟨1, ![1024]⟩
abbrev S2048x256 : Shape := ⟨2, ![2048, 256]⟩

abbrev nBuf : Space → Nat
  | .hbm => 7
  | .vmem => 22
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S8192x256, .bf16⟩
  | .hbm, ⟨4, _⟩ => ⟨S8192x1, .f32⟩
  | .hbm, ⟨5, _⟩ => ⟨S8192x256, .f32⟩
  | .hbm, ⟨6, _⟩ => ⟨S8192x256, .f32⟩
  | .local _ .vmem, ⟨0, _⟩ => ⟨S1024x2048, .f32⟩
  | .local _ .vmem, ⟨1, _⟩ => ⟨S1024x2048, .f32⟩
  | .local _ .vmem, ⟨2, _⟩ => ⟨S1024x256, .f32⟩
  | .local _ .vmem, ⟨3, _⟩ => ⟨S1024x256, .f32⟩
  | .local _ .vmem, ⟨4, _⟩ => ⟨S256x256, .f32⟩
  | .local _ .vmem, ⟨5, _⟩ => ⟨S1024x256, .bf16⟩
  | .local _ .vmem, ⟨6, _⟩ => ⟨S1024x256, .bf16⟩
  | .local _ .vmem, ⟨7, _⟩ => ⟨S1024x1, .f32⟩
  | .local _ .vmem, ⟨8, _⟩ => ⟨S1024x1, .f32⟩
  | .local _ .vmem, ⟨9, _⟩ => ⟨S1024x256, .f32⟩
  | .local _ .vmem, ⟨10, _⟩ => ⟨S1024x256, .f32⟩
  | .local _ .vmem, ⟨11, _⟩ => ⟨S1024x1, .f32⟩
  | .local _ .vmem, ⟨12, _⟩ => ⟨S1024x2048, .f32⟩
  | .local _ .vmem, ⟨13, _⟩ => ⟨S1024x2048, .f32⟩
  | .local _ .vmem, ⟨14, _⟩ => ⟨S8192x256, .bf16⟩
  | .local _ .vmem, ⟨15, _⟩ => ⟨S1024x256, .f32⟩
  | .local _ .vmem, ⟨16, _⟩ => ⟨S1024x256, .f32⟩
  | .local _ .vmem, ⟨17, _⟩ => ⟨S1024x1, .f32⟩
  | .local _ .vmem, ⟨18, _⟩ => ⟨S1024x1, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  natLt_1_32 : 1 < 32
  reduces_S1024x2048_S1024 : S1024x2048.Reduces [1] S1024
  shapeCasts_S1024_S1024x1 : S1024.ShapeCasts S1024x1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  broadcasts_S1024x1_S1024x256 : S1024x1.Broadcasts S1024x256
  packedbf16_S1024x256_S1024x256_0_0 : (Rect.unit (s := S1024x256) ![0, 0] S1024x256.size inb_S1024x256_S1024x256_0_0).PackedRows (EltTy.packing .bf16)
  shapeCasts_S1024x256_S1024x256 : S1024x256.ShapeCasts S1024x256
  h_S2048x256 : 0 < S2048x256.numel
  shapeCasts_S2048x256_S2048x256 : S2048x256.ShapeCasts S2048x256
  dot_S1024x256_S256x256_S1024x256_1_0_0_1_n_n_wf : DotDims.WF S1024x256 S256x256 S1024x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .bf16 = 32 ∨ (Rect.block (s := S8192x256) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .f32 = 32 ∨ (Rect.block (s := S8192x256) S1024x256.size (cc0_transform_5 i) (hinb0_5 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S8192x8192, .f32⟩
  | .hbm, ⟨25, _⟩ => ⟨S8192x8192, .f32⟩
  | .hbm, ⟨26, _⟩ => ⟨S256x256, .f32⟩
  | .hbm, ⟨27, _⟩ => ⟨S8192x256, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S1x8192, .f32⟩
  | .hbm, ⟨32, _⟩ => ⟨S8192x8192, .f32⟩
  | .hbm, ⟨33, _⟩ => ⟨S8192x8192, .f32⟩
  | .hbm, ⟨34, _⟩ => ⟨S8192x256, .f32⟩
  | .hbm, ⟨35, _⟩ => ⟨S_, .f32⟩
  | .hbm, ⟨36, _⟩ => ⟨S8192x256, .f32⟩
  | .hbm, ⟨37, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_cst : Ref sig .tc := ⟨.hbm, 35, rfl⟩
abbrev main_call1_v0 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  transposes_S256x256_S256x256_1_0 : S256x256.Transposes [1, 0] S256x256
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x256 : S_.BroadcastsInDim S8192x256 (![] : Fin 0 → Fin S8192x256.rank)
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.BitsR0Base.lean ====
/-
# The degree pass: what its body is run on

The first launch walks a grid of 8 row blocks by 4 column tiles.  At a grid point the body sees one
1024 by 2048 tile of the adjacency matrix, the row block of the features, the whole weight matrix, its
three output blocks, and a 1024 by 1 running count that it keeps from one column tile to the next.
This module names those pieces: the block of each input at a point, where the two branches of the
body are taken (first and last column tile), where the outputs are left alone, and the class
invariant with the running count split off.
-/
import proofs.«130060_j40785009443054_2_alg».proof.Proof.Gen.Kernel.Launch
import proofs.«130060_j40785009443054_2_alg».proof.Proof.Gen.Kernel.Skeleton
import proofs.«130060_j40785009443054_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branches of the body, over the grid -/

/-- The first branch is taken on the first column tile. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second branch is taken on the last column tile. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are left alone -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called on -/

abbrev VO0_3 : View sig .tc .vmem S1024x256 .bf16 := (Memref.whole cc0_stg3_0 : Memref sig .tc .vmem S1024x256 .bf16).view
abbrev VO0_4 : View sig .tc .vmem S1024x1 .f32 := (Memref.whole cc0_stg4_0 : Memref sig .tc .vmem S1024x1 .f32).view
abbrev VO0_5 : View sig .tc .vmem S1024x256 .f32 := (Memref.whole cc0_stg5_0 : Memref sig .tc .vmem S1024x256 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .f32 := win0_5.stage (cfg0.slots t 5)
abbrev hs0_5 (t : Fin cfg0.N) : (ms0_5 t).IsWhole := hstage0_5 ((cfg0.slots t 5).cast nbuf0_5)
/-- The running count's buffer. -/
abbrev scM0_0 : Memref sig .tc .vmem S1024x1 .f32 := Memref.whole cc0_scratch0
abbrev VS0_0 : View sig .tc .vmem S1024x1 .f32 := scM0_0.view

/-- The scoped buffers the degree pass never touches (the second launch's), each at some contents. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the running count's buffer split off the other scoped buffers. -/
theorem PhiA0_eq (c : Dev nD) :
    (Pipeline.ΦA (U := Pipeline.UD sig nD τ) spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.Kernel.Hand

end
-- ==== Proof.BitsR0RunA.lean ====
/-
# The degree pass on a first column tile

On the first column tile of a row block the body clears the running count and adds the tile's
edge count to it; it touches nothing else.  The run below says so as a triple: the tile is handed back
as found, the count's buffer ends holding the pieces the two stores wrote.
-/
import proofs.«130060_j40785009443054_2_alg».proof.Proof.BitsR0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body on a first column tile: from the tile at `x0` and the count's buffer at anything, to the tile as
    found and the count's buffer with the found pieces written. -/
noncomputable def kernelRun0_A (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : cond0_0 i) (hc1 : ¬cond0_1 i)
    (x0 : Vec F S1024x2048 .f32) :
    { LS0 : List (View.Piece (Elt F) S1024x1 .f32) //
      ∀ (E : Set ℕ) (K : PUnit → sProp 𝕄),
        iprop(owns (c : Thread nD τ) arg2 fullShare x0 ∗ (∃ d, owns (c : Thread nD τ) arg8 fullShare d)
            ∗ (iprop(owns (c : Thread nD τ) arg2 fullShare x0 ∗ (∃ f, arg8.view.loc (c : Thread nD τ) ↦[arg8.view.set]{fullShare} arg8.view.writes (Elt F) f LS0)) -∗ K ⟨⟩))
          ⊢ wp frame (wpE (defs₀ (F := F)) Variants.none c none) E (cc0__degree_hs_linear_kernel i arg2 harg2 arg3 harg3 arg4 harg4 arg5 harg5 arg6 harg6 arg7 harg7 arg8 harg8) K } := by
  refine ⟨?_, fun E K => ?run⟩
  case run =>
    simp only [cc0__degree_hs_linear_kernel_eq_skeleton]; unfold cc0__degree_hs_linear_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

end Cert.Kernel.Hand

end
-- ==== Proof.BitsR0RunB.lean ====
/-
# The degree pass on a middle column tile

On a column tile that is neither the first nor the last of its row block the body adds the tile's edge
count to the running count and touches nothing else.
-/
import proofs.«130060_j40785009443054_2_alg».proof.Proof.BitsR0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body on a middle column tile: from the tile at `x0` and the running count at `xs0`, to the tile as found
    and the count's buffer with the found pieces written. -/
noncomputable def kernelRun0_B (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : ¬cond0_0 i) (hc1 : ¬cond0_1 i)
    (x0 : Vec F S1024x2048 .f32) (xs0 : Vec F S1024x1 .f32) :
    { LS0 : List (View.Piece (Elt F) S1024x1 .f32) //
      ∀ (E : Set ℕ) (K : PUnit → sProp 𝕄),
        iprop(owns (c : Thread nD τ) arg2 fullShare x0 ∗ owns (c : Thread nD τ) arg8 fullShare xs0
            ∗ (iprop(owns (c : Thread nD τ) arg2 fullShare x0 ∗ (∃ f, arg8.view.loc (c : Thread nD τ) ↦[arg8.view.set]{fullShare} arg8.view.writes (Elt F) f LS0)) -∗ K ⟨⟩))
          ⊢ wp frame (wpE (defs₀ (F := F)) Variants.none c none) E (cc0__degree_hs_linear_kernel i arg2 harg2 arg3 harg3 arg4 harg4 arg5 harg5 arg6 harg6 arg7 harg7 arg8 harg8) K } := by
  refine ⟨?_, fun E K => ?run⟩
  case run =>
    simp only [cc0__degree_hs_linear_kernel_eq_skeleton]; unfold cc0__degree_hs_linear_kernel_skel
    unfold owns
    iintro ⟨⟨%f0, %hf0, H0⟩, ⟨%fs0, %hfs0, HS0⟩, Hk⟩
    obtain rfl := harg2.eq_unread hf0; obtain rfl := harg8.eq_unread hfs0
    sl_exec (disch := first | exact hc0 | exact hc1)
    sl_step
    iapply Hk
    isplitl [H0]
    · iexists _; isplitr; · ipureintro; exact harg2.read_unread _
      iexact H0
    iexists _; iexact HS0

end Cert.Kernel.Hand

end
-- ==== Proof.BitsR0RunC.lean ====
/-
# The degree pass on a last column tile

On the last column tile of a row block the body adds the tile's edge count to the running count, turns
the count into the degree scale, multiplies the feature block by the transposed weights, and writes
the three output blocks: the scaled features, the degree scale and the features.
-/
import proofs.«130060_j40785009443054_2_alg».proof.Proof.BitsR0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body on a last column tile: from the three input blocks at `x0`, `x1`, `x2`, the outputs' buffers at
    anything and the running count at `xs0`, to the inputs as found and each output's buffer and the count's
    buffer with the found pieces written. -/
noncomputable def kernelRun0_C (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : ¬cond0_0 i) (hc1 : cond0_1 i)
    (x0 : Vec F S1024x2048 .f32) (x1 : Vec F S1024x256 .f32) (x2 : Vec F S256x256 .f32) (xs0 : Vec F S1024x1 .f32) :
    Σ' (L3 : List (View.Piece (Elt F) S1024x256 .bf16)), Σ' (L4 : List (View.Piece (Elt F) S1024x1 .f32)), Σ' (L5 : List (View.Piece (Elt F) S1024x256 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc0__degree_hs_linear_kernel i arg2 harg2 arg3 harg3 arg4 harg4 arg5 harg5 arg6 harg6 arg7 harg7 arg8 harg8) K } := by
  refine ⟨?_, ?_, ?_, ?_, fun E K => ?run⟩
  case run =>
    simp only [cc0__degree_hs_linear_kernel_eq_skeleton]; unfold cc0__degree_hs_linear_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact HS0

end Cert.Kernel.Hand

end
-- ==== Proof.BitsR0Frame.lean ====
/-
# The degree pass: what every grid point leaves, and the body's obligation

What the running count holds after each grid point is defined by recursion along the grid: on a first
column tile the count restarts, on the others it continues from the point before.  On a last column tile
the three output blocks are written from that count and the input blocks.  With these contents named,
the launch invariant (the running count at its named contents, every other scoped buffer at anything) is
kept by the body at every point.
-/
import proofs.«130060_j40785009443054_2_alg».proof.Proof.BitsR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

theorem scover0_A (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : cond0_0 i) (hc1 : ¬cond0_1 i) (x0 : Vec F S1024x2048 .f32) (y : S1024x1.Idx) :
    ∃ pc ∈ (kernelRun0_A c i arg2 harg2 arg3 harg3 arg4 harg4 arg5 harg5 arg6 harg6 arg7 harg7 arg8 harg8 hc0 hc1 x0).1, y ∈ pc.1.set :=
  View.cover_of_tiledL (kernelRun0_A c i arg2 harg2 arg3 harg3 arg4 harg4 arg5 harg5 arg6 harg6 arg7 harg7 arg8 harg8 hc0 hc1 x0).1 S1024x1.size (by sl_kernel_rfl) y

/-- The running count after a first column tile. -/
def sout0_A (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : cond0_0 i) (hc1 : ¬cond0_1 i) (x0 : Vec F S1024x2048 .f32) : Vec F S1024x1 .f32 :=
  VS0_0.read (Elt F) (VS0_0.writes (Elt F) VS0_0.junk (kernelRun0_A c i arg2 harg2 arg3 harg3 arg4 harg4 arg5 harg5 arg6 harg6 arg7 harg7 arg8 harg8 hc0 hc1 x0).1)

theorem scover0_B (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : ¬cond0_0 i) (hc1 : ¬cond0_1 i) (x0 : Vec F S1024x2048 .f32) (xs0 : Vec F S1024x1 .f32) (y : S1024x1.Idx) :
    ∃ pc ∈ (kernelRun0_B c i arg2 harg2 arg3 harg3 arg4 harg4 arg5 harg5 arg6 harg6 arg7 harg7 arg8 harg8 hc0 hc1 x0 xs0).1, y ∈ pc.1.set :=
  View.cover_of_tiledL (kernelRun0_B c i arg2 harg2 arg3 harg3 arg4 harg4 arg5 harg5 arg6 harg6 arg7 harg7 arg8 harg8 hc0 hc1 x0 xs0).1 S1024x1.size (by sl_kernel_rfl) y

/-- The running count after a middle column tile, from the count before it. -/
def sout0_B (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : ¬cond0_0 i) (hc1 : ¬cond0_1 i) (x0 : Vec F S1024x2048 .f32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 xs0).1)

section CaseC
variable (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : ¬cond0_0 i) (hc1 : cond0_1 i)
  (x0 : Vec F S1024x2048 .f32) (x1 : Vec F S1024x256 .f32) (x2 : Vec F S256x256 .f32) (xs0 : Vec F S1024x1 .f32)

theorem cover0_C_3 (y : S1024x256.Idx) : ∃ pc ∈ (kernelRun0_C c i arg2 harg2 arg3 harg3 arg4 harg4 arg5 harg5 arg6 harg6 arg7 harg7 arg8 harg8 hc0 hc1 x0 x1 x2 xs0).1, y ∈ pc.1.set :=
  View.cover_of_tiledL (kernelRun0_C c i arg2 harg2 arg3 harg3 arg4 harg4 arg5 harg5 arg6 harg6 arg7 harg7 arg8 harg8 hc0 hc1 x0 x1 x2 xs0).1 S1024x256.size (by sl_kernel_rfl) y
theorem cover0_C_4 (y : S1024x1.Idx) : ∃ pc ∈ (kernelRun0_C c i arg2 harg2 arg3 harg3 arg4 harg4 arg5 harg5 arg6 harg6 arg7 harg7 arg8 harg8 hc0 hc1 x0 x1 x2 xs0).2.1, y ∈ pc.1.set :=
  View.cover_of_tiledL (kernelRun0_C c i arg2 harg2 arg3 harg3 arg4 harg4 arg5 harg5 arg6 harg6 arg7 harg7 arg8 harg8 hc0 hc1 x0 x1 x2 xs0).2.1 S1024x1.size (by sl_kernel_rfl) y
theorem cover0_C_5 (y : S1024x256.Idx) : ∃ pc ∈ (kernelRun0_C c i arg2 harg2 arg3 harg3 arg4 harg4 arg5 harg5 arg6 harg6 arg7 harg7 arg8 harg8 hc0 hc1 x0 x1 x2 xs0).2.2.1, y ∈ pc.1.set :=
  View.cover_of_tiledL (kernelRun0_C c i arg2 harg2 arg3 harg3 arg4 harg4 arg5 harg5 arg6 harg6 arg7 harg7 arg8 harg8 hc0 hc1 x0 x1 x2 xs0).2.2.1 S1024x256.size (by sl_kernel_rfl) y
theorem scover0_C (y : S1024x1.Idx) : ∃ pc ∈ (kernelRun0_C c i arg2 harg2 arg3 harg3 arg4 harg4 arg5 harg5 arg6 harg6 arg7 harg7 arg8 harg8 hc0 hc1 x0 x1 x2 xs0).2.2.2.1, y ∈ pc.1.set :=
  View.cover_of_tiledL (kernelRun0_C c i arg2 harg2 arg3 harg3 arg4 harg4 arg5 harg5 arg6 harg6 arg7 harg7 arg8 harg8 hc0 hc1 x0 x1 x2 xs0).2.2.2.1 S1024x1.size (by sl_kernel_rfl) y

/-- The scaled-features block a last column tile writes. -/
def out0_C_3 : Vec F S1024x256 .bf16 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0).1)
/-- The degree-scale block a last column tile writes. -/
def out0_C_4 : Vec F S1024x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0).2.1)
/-- The features block a last column tile writes. -/
def out0_C_5 : Vec F S1024x256 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 xs0).2.2.1)
/-- The running count after a last column tile. -/
def sout0_C : Vec F S1024x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0).2.2.2.1)
end CaseC

/-- Contents standing for an output block at a point where nothing is stored into it (never consulted). -/
def ph0_3 : Vec F S1024x256 .bf16 := VO0_3.read (Elt F) (VO0_3.writes (Elt F) VO0_3.junk [])
def ph0_4 : Vec F S1024x1 .f32 := VO0_4.read (Elt F) (VO0_4.writes (Elt F) VO0_4.junk [])
def ph0_5 : Vec F S1024x256 .f32 := VO0_5.read (Elt F) (VO0_5.writes (Elt F) VO0_5.junk [])

section
variable (V : (c : Dev nD) → (b : Ref sig .tc) → Buf (Elt F) ((c : Thread nD τ).loc b))

/-! ## Along the grid -/

/-- What the three output buffers and the running count hold after the body at position `n`: the case the
    position is in, run on the point's blocks, the count continued from the position before. -/
def outsAt0 (c : Dev nD) : (n : ℕ) → n < cfg0.N → Vec F S1024x256 .bf16 × Vec F S1024x1 .f32 × Vec F S1024x256 .f32 × Vec F S1024x1 .f32
  | 0, hn => (ph0_3, ph0_4, ph0_5, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 4 = 0 then
      (ph0_3, ph0_4, ph0_5, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2,
         out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2,
         out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2)
      else
        (ph0_3, ph0_4, ph0_5, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.2)

/-- At a first column tile. -/
theorem outsAt0_A (c : Dev nD) (t : Fin cfg0.N) (h0 : t.val % 4 = 0) (h1 : ¬t.val % 4 = 3) :
    outsAt0 V c t.val t.isLt = (ph0_3, ph0_4, ph0_5, sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans rfl

/-- At a middle column tile. -/
theorem outsAt0_B (c : Dev nD) (t : Fin cfg0.N) (h0 : ¬t.val % 4 = 0) (h1 : ¬t.val % 4 = 3) :
    outsAt0 V c t.val t.isLt = (ph0_3, ph0_4, ph0_5, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a last column tile. -/
theorem outsAt0_C (c : Dev nD) (t : Fin cfg0.N) (h0 : ¬t.val % 4 = 0) (h1 : t.val % 4 = 3) :
    outsAt0 V c t.val t.isLt =
      (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2,
       out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2,
       out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2,
       sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The launch invariant -/

/-- Before position `n`: at the start the class's invariant; afterwards the running count at what the position
    before left, every other scoped buffer at anything, the generator register at some state. -/
def PhiS0 (c : Dev nD) : (n : ℕ) → n ≤ cfg0.N → sProp 𝕄
  | 0, _ => Pipeline.ΦA (U := Pipeline.UD sig nD τ) spec0 c
  | n + 1, hn => iprop(iprop(owns (c : Thread nD τ) scM0_0 fullShare ((outsAt0 V c n hn).2.2.2) ∗ rest0 (F := F) c) ∗ (∃ r, prngReg c r))

theorem PhiS0_zero (c : Dev nD) (n : ℕ) (h : n ≤ cfg0.N) (hz : n = 0) : PhiS0 V c n h = Pipeline.ΦA (U := Pipeline.UD sig nD τ) spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2) ∗ rest0 (F := F) c) ∗ (∃ r, prngReg c r)) := by
  cases n with
  | zero => exact absurd rfl hz
  | succ n => rfl

/-! ## The proof data -/

/-- The degree pass's proof data on core `c`: the arrays as the launch finds them; after the body each input's
    buffer at its block, each output's at `outsAt0`'s component; the invariant `PhiS0`; nothing owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point: the inputs' buffers hold their blocks; the closed forms say which case the point is
    in; the invariant hands the body the running count at what the point before left (at anything at the very
    first point) and takes it back at this point's contents; where nothing is stored into the outputs their
    buffers pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h1 : t.val % 4 = 3
  · have h0 : ¬t.val % 4 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [show (dat0 V c).leavesExact 4 t = owns (c : Thread nD τ) (ms0_4 t) fullShare ((dat0 V c).after 4 t) from by
      unfold Dat.leavesExact; rw [liveAt0_4 t ((hcond0_1 t).mpr h1)], after0_4]
    rw [show (dat0 V c).leavesExact 5 t = owns (c : Thread nD τ) (ms0_5 t) fullShare ((dat0 V c).after 5 t) from by
      unfold Dat.leavesExact; rw [liveAt0_5 t ((hcond0_1 t).mpr h1)], after0_5]
    rw [outsAt0_C V c t h0 h1]
    unfold out0_C_3 out0_C_4 out0_C_5 sout0_C; (try dsimp only)
    rw [PhiS0_castSucc V c t, PhiS0_pos V c _ _ hz]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) _).2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, ⟨%e3, H3⟩, ⟨%e4, H4⟩, ⟨%e5, H5⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C c _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_C_3 c _ _ _ _ _ _ _ _ _ _ _ _ _ _ _ _ _ _ _ _ _)
    isplitl [H4]
    · unfold owns; iexists _; isplitr
      swap; · iexact H4
      ipureintro; exact View.read_writes_of_cover _ _ _ _ _ (cover0_C_4 c _ _ _ _ _ _ _ _ _ _ _ _ _ _ _ _ _ _ _ _ _)
    unfold owns; iexists _; isplitr
    swap; · iexact H5
    ipureintro; exact View.read_writes_of_cover _ _ _ _ _ (cover0_C_5 c _ _ _ _ _ _ _ _ _ _ _ _ _ _ _ _ _ _ _ _ _)
  · rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    by_cases h0 : t.val % 4 = 0
    · rw [outsAt0_A V c t h0 h1]
      unfold sout0_A; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, H3, H4, H5⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t)).2 Set.univ _)
        isplitl [H0]; · iexact H0
        isplitl [HS0]; · iexact HS0
        iintro ⟨H0, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [PhiS0_castSucc V c t, PhiS0_pos V c _ _ hz]
        iintro ⟨⟨⟨HS0, HR⟩, Hg⟩, Ho, ⟨%d0, H0⟩, ⟨%d1, H1⟩, ⟨%d2, H2⟩, H3, H4, H5⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t)).2 Set.univ _)
        isplitl [H0]; · iexact H0
        isplitl [HS0]; · iexists _; iexact HS0
        iintro ⟨H0, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexact H5
    · have hz : t.val ≠ 0 := by omega
      rw [outsAt0_B V c t h0 h1]
      unfold sout0_B; (try dsimp only)
      rw [PhiS0_castSucc V c t, PhiS0_pos V c _ _ hz]
      iintro ⟨⟨⟨HS0, HR⟩, Hg⟩, Ho, ⟨%d0, H0⟩, ⟨%d1, H1⟩, ⟨%d2, H2⟩, H3, H4, H5⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the pass is the invariant before the first point. -/
theorem hin0 (c : Dev nD) : Pipeline.ΦA (U := Pipeline.UD sig nD τ) spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the count's named contents are forgotten. -/
theorem hout0 (c : Dev nD) : (dat0 V c).Φ (Fin.last cfg0.N) ⊢ Pipeline.ΦA (U := Pipeline.UD sig nD τ) spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, HR⟩, Hg⟩
  isplitl [HS0 HR]
  · isplitl [HS0]
    · iexists _; iexact HS0
    iexact HR
  iexact Hg

end

end Cert.Kernel.Hand

end
-- ==== Proof.BitsR1Base.lean ====
/-
# The product pass: what its body is run on

The second launch walks the same grid of 8 row blocks by 4 column tiles.  At a grid point the body sees one
1024 by 2048 tile of the adjacency matrix, the whole array of scaled features (resident for the whole
launch), the row block of the features and of the degree scale, its output block, and a 1024 by 256
running product that it keeps from one column tile to the next.  This module names those pieces.
-/
import proofs.«130060_j40785009443054_2_alg».proof.Proof.Gen.Kernel.Launch
import proofs.«130060_j40785009443054_2_alg».proof.Proof.Gen.Kernel.Skeleton
import proofs.«130060_j40785009443054_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branches of the body, over the grid -/

/-- The first branch is taken on the first column tile. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second branch is taken on the last column tile. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are left alone -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called on -/

abbrev VO1_4 : View sig .tc .vmem S1024x256 .f32 := (Memref.whole cc1_stg4_0 : Memref sig .tc .vmem S1024x256 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The running product's buffer. -/
abbrev scM1_0 : Memref sig .tc .vmem S1024x256 .f32 := Memref.whole cc1_scratch0
abbrev VS1_0 : View sig .tc .vmem S1024x256 .f32 := scM1_0.view

/-- The class invariant with the running product's buffer named among the scoped buffers. -/
theorem PhiA1_eq (c : Dev nD) :
    (Pipeline.ΦA (U := Pipeline.UD sig nD τ) spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.BitsR1RunA.lean ====
/-
# The product pass on a first column tile

On the first column tile of a row block the body clears the running product and adds to it the tile times
the matching 2048 rows of the scaled features; it touches nothing else.
-/
import proofs.«130060_j40785009443054_2_alg».proof.Proof.BitsR1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body on a first column tile: from the tile at `x0`, the scaled features at `x1` and the product's buffer at
    anything, to the inputs as found and the product's buffer with the found pieces written. -/
noncomputable def kernelRun1_A (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i)
    (x0 : Vec F S1024x2048 .f32) (x1 : Vec F S8192x256 .bf16) :
    { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_matmul_kernel i arg2 harg2 arg3 harg3 arg4 harg4 arg5 harg5 arg6 harg6 arg7 harg7) K } := by
  refine ⟨?_, fun E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.BitsR1RunB.lean ====
/-
# The product pass on a middle column tile

On a column tile that is neither the first nor the last of its row block the body adds to the running
product the tile times the matching 2048 rows of the scaled features and touches nothing else.
-/
import proofs.«130060_j40785009443054_2_alg».proof.Proof.BitsR1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body on a middle column tile: from the tile at `x0`, the scaled features at `x1` and the running product
    at `xs0`, to the inputs as found and the product's buffer with the found pieces written. -/
noncomputable def kernelRun1_B (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i)
    (x0 : Vec F S1024x2048 .f32) (x1 : Vec F S8192x256 .bf16) (xs0 : Vec F S1024x256 .f32) :
    { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg7 fullShare xs0
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_matmul_kernel i arg2 harg2 arg3 harg3 arg4 harg4 arg5 harg5 arg6 harg6 arg7 harg7) K } := by
  refine ⟨?_, fun E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.BitsR1RunC.lean ====
/-
# The product pass on a last column tile

On the last column tile of a row block the body adds the last partial product, adds the node's own scaled
features, scales the row by the degree scale, clamps at zero and writes the output block.
-/
import proofs.«130060_j40785009443054_2_alg».proof.Proof.BitsR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body on a last column tile: from the four input blocks, the output's buffer at anything and the running
    product at `xs0`, to the inputs as found and the output's buffer and the product's buffer with the found
    pieces written. -/
noncomputable def kernelRun1_C (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i)
    (x0 : Vec F S1024x2048 .f32) (x1 : Vec F S8192x256 .bf16) (x2 : Vec F S1024x256 .f32) (x3 : Vec F S1024x1 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_matmul_kernel i arg2 harg2 arg3 harg3 arg4 harg4 arg5 harg5 arg6 harg6 arg7 harg7) K } := by
  refine ⟨?_, ?_, fun E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.BitsR1Frame.lean ====
/-
# The product pass: what every grid point leaves, and the body's obligation

What the running product holds after each grid point is defined by recursion along the grid: on a first
column tile it restarts, on the others it continues from the point before.  On a last column tile the
output block is written from that product and the row's features and degree scale.  With these contents
named, the launch invariant (the running product at its named contents, every other scoped buffer at
anything) is kept by the body at every point.
-/
import proofs.«130060_j40785009443054_2_alg».proof.Proof.BitsR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

theorem scover1_A (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x2048 .f32) (x1 : Vec F S8192x256 .bf16) (y : S1024x256.Idx) :
    ∃ pc ∈ (kernelRun1_A c i arg2 harg2 arg3 harg3 arg4 harg4 arg5 harg5 arg6 harg6 arg7 harg7 hc0 hc1 x0 x1).1, y ∈ pc.1.set :=
  View.cover_of_tiledL (kernelRun1_A c i arg2 harg2 arg3 harg3 arg4 harg4 arg5 harg5 arg6 harg6 arg7 harg7 hc0 hc1 x0 x1).1 S1024x256.size (by sl_kernel_rfl) y

/-- The running product after a first column tile. -/
def sout1_A (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x2048 .f32) (x1 : Vec F S8192x256 .bf16) : Vec F S1024x256 .f32 :=
  VS1_0.read (Elt F) (VS1_0.writes (Elt F) VS1_0.junk (kernelRun1_A c i arg2 harg2 arg3 harg3 arg4 harg4 arg5 harg5 arg6 harg6 arg7 harg7 hc0 hc1 x0 x1).1)

theorem scover1_B (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x2048 .f32) (x1 : Vec F S8192x256 .bf16) (xs0 : Vec F S1024x256 .f32) (y : S1024x256.Idx) :
    ∃ pc ∈ (kernelRun1_B c i arg2 harg2 arg3 harg3 arg4 harg4 arg5 harg5 arg6 harg6 arg7 harg7 hc0 hc1 x0 x1 xs0).1, y ∈ pc.1.set :=
  View.cover_of_tiledL (kernelRun1_B c i arg2 harg2 arg3 harg3 arg4 harg4 arg5 harg5 arg6 harg6 arg7 harg7 hc0 hc1 x0 x1 xs0).1 S1024x256.size (by sl_kernel_rfl) y

/-- The running product after a middle column tile, from the product before it. -/
def sout1_B (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x2048 .f32) (x1 : Vec F S8192x256 .bf16) (xs0 : Vec F S1024x256 .f32) : Vec F S1024x256 .f32 :=
  VS1_0.read (Elt F) (VS1_0.writes (Elt F) VS1_0.junk (kernelRun1_B c i arg2 harg2 arg3 harg3 arg4 harg4 arg5 harg5 arg6 harg6 arg7 harg7 hc0 hc1 x0 x1 xs0).1)

section CaseC
variable (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i)
  (x0 : Vec F S1024x2048 .f32) (x1 : Vec F S8192x256 .bf16) (x2 : Vec F S1024x256 .f32) (x3 : Vec F S1024x1 .f32) (xs0 : Vec F S1024x256 .f32)

theorem cover1_C_4 (y : S1024x256.Idx) : ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x256.size (by sl_kernel_rfl) y
theorem scover1_C (y : S1024x256.Idx) : ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x256.size (by sl_kernel_rfl) y

/-- The output block a last column tile writes. -/
def out1_C_4 : Vec F S1024x256 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)
/-- The running product after a last column tile. -/
def sout1_C : Vec F S1024x256 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)
end CaseC

/-- Contents standing for the output block at a point where nothing is stored into it (never consulted). -/
def ph1_4 : Vec F S1024x256 .f32 := VO1_4.read (Elt F) (VO1_4.writes (Elt F) VO1_4.junk [])

section
variable (V : (c : Dev nD) → (b : Ref sig .tc) → Buf (Elt F) ((c : Thread nD τ).loc b))

/-! ## Along the grid -/

/-- What the output buffer and the running product hold after the body at position `n`. -/
def outsAt1 (c : Dev nD) : (n : ℕ) → n < cfg1.N → Vec F S1024x256 .f32 × Vec F S1024x256 .f32
  | 0, hn => (ph1_4, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      (ph1_4, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (ph1_4, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first column tile. -/
theorem outsAt1_A (c : Dev nD) (t : Fin cfg1.N) (h0 : t.val % 4 = 0) (h1 : ¬t.val % 4 = 3) :
    outsAt1 V c t.val t.isLt = (ph1_4, sout1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

/-- At a middle column tile. -/
theorem outsAt1_B (c : Dev nD) (t : Fin cfg1.N) (h0 : ¬t.val % 4 = 0) (h1 : ¬t.val % 4 = 3) :
    outsAt1 V c t.val t.isLt = (ph1_4, sout1_B c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last column tile. -/
theorem outsAt1_C (c : Dev nD) (t : Fin cfg1.N) (h0 : ¬t.val % 4 = 0) (h1 : t.val % 4 = 3) :
    outsAt1 V c t.val t.isLt =
      (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
       sout1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The launch invariant -/

/-- Before position `n`: at the start the class's invariant; afterwards the running product at what the
    position before left, every other scoped buffer at anything, the generator register at some state. -/
def PhiS1 (c : Dev nD) : (n : ℕ) → n ≤ cfg1.N → sProp 𝕄
  | 0, _ => Pipeline.ΦA (U := Pipeline.UD sig nD τ) spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA (U := Pipeline.UD sig nD τ) spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The product pass's proof data on core `c`: the arrays as the launch finds them; after the body each input's
    buffer at its block, the output's at `outsAt1`'s component; the invariant `PhiS1`; nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point: the inputs' buffers hold their blocks; the closed forms say which case the point is
    in; the invariant hands the body the running product at what the point before left (at anything at the very
    first point) and takes it back at this point's contents; where nothing is stored into the output its
    buffer passes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h1 : t.val % 4 = 3
  · have h0 : ¬t.val % 4 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [outsAt1_C V c t h0 h1]
    unfold out1_C_4 sout1_C; (try dsimp only)
    rw [PhiS1_castSucc V c t, PhiS1_pos V c _ _ hz]
    iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, ⟨%d4, H4⟩⟩
    iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HR0 HR1 HR2 HR3 HR4 HR5 HR6 HR7 HR8 HR9 HR10 HR11 HS0 Hg]
    · isplitl [HR0 HR1 HR2 HR3 HR4 HR5 HR6 HR7 HR8 HR9 HR10 HR11 HS0]
      ·
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        unfold owns; iexists _; isplitr
        swap; · iexact HS0
        ipureintro; exact View.read_writes_of_cover _ _ _ _ _ (scover1_C c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_C_4 c _ _ _ _ _ _ _ _ _ _ _ _ _ _ _ _ _ _ _ _)
  · rw [Dat.leavesExact_idle (dat1 V c) 4 t (idleAt1_4 t (fun h => h1 ((hcond1_1 t).mp h))) (noFlush1_4 t (fun h => h1 ((hcond1_1 t).mp h)))]
    by_cases h0 : t.val % 4 = 0
    · rw [outsAt1_A V c t h0 h1]
      unfold sout1_A; (try dsimp only)
      by_cases hz : t.val = 0
      · rw [PhiS1_castSucc V c t, PhiS1_zero V c _ _ hz, PhiA1_eq]
        iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, H4⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t)).2 Set.univ _)
        isplitl [H0]; · iexact H0
        isplitl [H1]; · iexact H1
        isplitl [HS0]; · iexact HS0
        iintro ⟨H0, H1, ⟨%es0, HS0⟩⟩
        isplitl [HR0 HR1 HR2 HR3 HR4 HR5 HR6 HR7 HR8 HR9 HR10 HR11 HS0 Hg]
        · isplitl [HR0 HR1 HR2 HR3 HR4 HR5 HR6 HR7 HR8 HR9 HR10 HR11 HS0]
          ·
            isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            unfold owns; iexists _; isplitr
            swap; · iexact HS0
            ipureintro; exact View.read_writes_of_cover _ _ _ _ _ (scover1_A c _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexact H4
      · rw [PhiS1_castSucc V c t, PhiS1_pos V c _ _ hz]
        iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, H4⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t)).2 Set.univ _)
        isplitl [H0]; · iexact H0
        isplitl [H1]; · iexact H1
        isplitl [HS0]; · iexists _; iexact HS0
        iintro ⟨H0, H1, ⟨%es0, HS0⟩⟩
        isplitl [HR0 HR1 HR2 HR3 HR4 HR5 HR6 HR7 HR8 HR9 HR10 HR11 HS0 Hg]
        · isplitl [HR0 HR1 HR2 HR3 HR4 HR5 HR6 HR7 HR8 HR9 HR10 HR11 HS0]
          ·
            isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            unfold owns; iexists _; isplitr
            swap; · iexact HS0
            ipureintro; exact View.read_writes_of_cover _ _ _ _ _ (scover1_A c _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexact H4
    · have hz : t.val ≠ 0 := by omega
      rw [outsAt1_B V c t h0 h1]
      unfold sout1_B; (try dsimp only)
      rw [PhiS1_castSucc V c t, PhiS1_pos V c _ _ hz]
      iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, H4⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HR0 HR1 HR2 HR3 HR4 HR5 HR6 HR7 HR8 HR9 HR10 HR11 HS0 Hg]
      · isplitl [HR0 HR1 HR2 HR3 HR4 HR5 HR6 HR7 HR8 HR9 HR10 HR11 HS0]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          unfold owns; iexists _; isplitr
          swap; · iexact HS0
          ipureintro; exact View.read_writes_of_cover _ _ _ _ _ (scover1_B c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the pass is the invariant before the first point. -/
theorem hin1 (c : Dev nD) : Pipeline.ΦA (U := Pipeline.UD sig nD τ) spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the product's named contents are forgotten. -/
theorem hout1 (c : Dev nD) : (dat1 V c).Φ (Fin.last cfg1.N) ⊢ Pipeline.ΦA (U := Pipeline.UD sig nD τ) spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HR0, HR1, HR2, HR3, HR4, HR5, HR6, HR7, HR8, HR9, HR10, HR11, HS0⟩, Hg⟩
  isplitl [HR0 HR1 HR2 HR3 HR4 HR5 HR6 HR7 HR8 HR9 HR10 HR11 HS0]
  ·
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    iexists _; iexact HS0
  iexact Hg

end

end Cert.Kernel.Hand

end
-- ==== Proof.BitsRun.lean ====
/-
# The two launches in sequence

The program is the degree pass followed by the product pass.  Between launches a core holds every
unscoped buffer at known contents: at the start the launch memory; after the degree pass its three
result arrays at what its write-backs leave and everything else unchanged; after the product pass its
result array likewise.  Each pass is entered from the contents the one before left, and at the end
every unscoped buffer is read back at the last contents.  The argument arrays are never written, so
they read back as launched; the result array reads back as the product pass's write-backs.
-/
import proofs.«130060_j40785009443054_2_alg».proof.Proof.BitsR0Frame
import proofs.«130060_j40785009443054_2_alg».proof.Proof.BitsR1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffer contents between the launches -/

/-- Core `c`'s buffers at the start. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the degree pass: its arrays at what the pass leaves, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the product pass: its arrays at what the pass leaves, every other buffer as before. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ### The arguments are never written -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 1).trans (((dat0 (V0 m) c).arrAt_in 1 rfl _).trans (A_eq0 (V0 m) c 1))
    _ = m ((c : Thread nD τ).loc main_arg0) := rfl
theorem W1_main_arg1 (c : Dev nD) : W1 m c (Proc.devRef .tc main_arg1) = m ((c : Thread nD τ).loc main_arg1) :=
  (W1_arr m c 0).trans (((dat0 (V0 m) c).arrAt_in 0 rfl _).trans (A_eq0 (V0 m) c 0))
theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 0).trans (((dat1 (V1 m) c).arrAt_in 0 rfl _).trans (A_eq1 (V1 m) c 0))
    _ = m ((c : Thread nD τ).loc main_arg1) := W1_main_arg1 m c
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 2).trans (((dat0 (V0 m) c).arrAt_in 2 rfl _).trans (A_eq0 (V0 m) c 2))
    _ = m ((c : Thread nD τ).loc main_arg2) := rfl
/-- The result array at the end is what the product pass's write-backs leave. -/
theorem W2_main_v1 (c : Dev nD) : W2 m c (Proc.devRef .tc main_v1) = (dat1 (V1 m) c).arrAt 4 cfg1.N := W2_arr m c 4

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The launches as segments -/

set_option backward.isDefEq.respectTransparency.types false in
/-- The degree pass: entered from every unscoped buffer at the start contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0 m) c).Φ 0 from rfl]
    refine BIBase.Entails.trans ?_ (hin0 (V0 m) c)
    unfold Pipeline.ΦA
    iintro ⟨Hp, -, Hr⟩
    isplitl [Hr]; · iexact Hr
    iexact Hp
  hout c := by
    rw [Pipeline.ownSems0_none, show (pdats m 0 c).Φ (Fin.last _) = (dat0 (V0 m) c).Φ (Fin.last cfg0.N) from rfl]
    refine BIBase.Entails.trans (hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product pass: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V1 m) c).Φ 0 from rfl]
    refine BIBase.Entails.trans ?_ (hin1 (V1 m) c)
    unfold Pipeline.ΦA
    iintro ⟨Hp, -, Hr⟩
    isplitl [Hr]; · iexact Hr
    iexact Hp
  hout c := by
    rw [Pipeline.ownSems0_none, show (pdats m 1 c).Φ (Fin.last _) = (dat1 (V1 m) c).Φ (Fin.last cfg1.N) from rfl]
    refine BIBase.Entails.trans (hout1 (V1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two segments, and the run -/

abbrev segs : List (Pipeline.Seg (pcfgs (F := F)) adm (pdats m) () defs₀ 𝒱₀ L lv) :=
  [ .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of the program terminates without a fault,
    and at the end every unscoped buffer holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- The frame: the program runs to the end and its three argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

/-- The run with the result array named: it ends at the product pass's write-backs, the arguments as launched. -/
theorem run_value (ρ : Dev nD → PrngReg) : θ_run defs (onTc (τ := τ) (main (F := F))) ⟨m, fun _ => 0, ρ⟩ (fun r => ∀ c : Dev nD,
      r.2.mem ((c.tc : Thread nD τ).loc main_v1) = (dat1 (V1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

end Cert.Kernel.Hand

end
-- ==== Proof.IdealR0Base.lean ====
/-
# The degree pass: what its body is run on

The first launch walks a grid of 8 row blocks by 4 column tiles.  At a grid point the body sees one
1024 by 2048 tile of the adjacency matrix, the row block of the features, the whole weight matrix, its
three output blocks, and a 1024 by 1 running count that it keeps from one column tile to the next.
This module names those pieces: the block of each input at a point, where the two branches of the
body are taken (first and last column tile), where the outputs are left alone, and the class
invariant with the running count split off.
-/
import proofs.«130060_j40785009443054_2_alg».proof.Proof.Gen.KernelIdeal.Launch
import proofs.«130060_j40785009443054_2_alg».proof.Proof.Gen.KernelIdeal.Skeleton
import proofs.«130060_j40785009443054_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branches of the body, over the grid -/

/-- The first branch is taken on the first column tile. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second branch is taken on the last column tile. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are left alone -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called on -/

abbrev VO0_3 : View sig .tc .vmem S1024x256 .bf16 := (Memref.whole cc0_stg3_0 : Memref sig .tc .vmem S1024x256 .bf16).view
abbrev VO0_4 : View sig .tc .vmem S1024x1 .f32 := (Memref.whole cc0_stg4_0 : Memref sig .tc .vmem S1024x1 .f32).view
abbrev VO0_5 : View sig .tc .vmem S1024x256 .f32 := (Memref.whole cc0_stg5_0 : Memref sig .tc .vmem S1024x256 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .f32 := win0_5.stage (cfg0.slots t 5)
abbrev hs0_5 (t : Fin cfg0.N) : (ms0_5 t).IsWhole := hstage0_5 ((cfg0.slots t 5).cast nbuf0_5)
/-- The running count's buffer. -/
abbrev scM0_0 : Memref sig .tc .vmem S1024x1 .f32 := Memref.whole cc0_scratch0
abbrev VS0_0 : View sig .tc .vmem S1024x1 .f32 := scM0_0.view

/-- The scoped buffers the degree pass never touches (the second launch's), each at some contents. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the running count's buffer split off the other scoped buffers. -/
theorem PhiA0_eq (c : Dev nD) :
    (Pipeline.ΦA (U := Pipeline.UD sig nD τ) spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.KernelIdeal.Hand

end
-- ==== Proof.IdealR0RunA.lean ====
/-
# The degree pass on a first column tile

On the first column tile of a row block the body clears the running count and adds the tile's
edge count to it; it touches nothing else.  The run below says so as a triple: the tile is handed back
as found, the count's buffer ends holding the pieces the two stores wrote.
-/
import proofs.«130060_j40785009443054_2_alg».proof.Proof.IdealR0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body on a first column tile: from the tile at `x0` and the count's buffer at anything, to the tile as
    found and the count's buffer with the found pieces written. -/
noncomputable def kernelRun0_A (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : cond0_0 i) (hc1 : ¬cond0_1 i)
    (x0 : Vec F S1024x2048 .f32) :
    { LS0 : List (View.Piece (Elt F) S1024x1 .f32) //
      ∀ (E : Set ℕ) (K : PUnit → sProp 𝕄),
        iprop(owns (c : Thread nD τ) arg2 fullShare x0 ∗ (∃ d, owns (c : Thread nD τ) arg8 fullShare d)
            ∗ (iprop(owns (c : Thread nD τ) arg2 fullShare x0 ∗ (∃ f, arg8.view.loc (c : Thread nD τ) ↦[arg8.view.set]{fullShare} arg8.view.writes (Elt F) f LS0)) -∗ K ⟨⟩))
          ⊢ wp frame (wpE (defs₀ (F := F)) Variants.none c none) E (cc0__degree_hs_linear_kernel i arg2 harg2 arg3 harg3 arg4 harg4 arg5 harg5 arg6 harg6 arg7 harg7 arg8 harg8) K } := by
  refine ⟨?_, fun E K => ?run⟩
  case run =>
    simp only [cc0__degree_hs_linear_kernel_eq_skeleton]; unfold cc0__degree_hs_linear_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

end Cert.KernelIdeal.Hand

end
-- ==== Proof.IdealR0RunB.lean ====
/-
# The degree pass on a middle column tile

On a column tile that is neither the first nor the last of its row block the body adds the tile's edge
count to the running count and touches nothing else.
-/
import proofs.«130060_j40785009443054_2_alg».proof.Proof.IdealR0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body on a middle column tile: from the tile at `x0` and the running count at `xs0`, to the tile as found
    and the count's buffer with the found pieces written. -/
noncomputable def kernelRun0_B (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : ¬cond0_0 i) (hc1 : ¬cond0_1 i)
    (x0 : Vec F S1024x2048 .f32) (xs0 : Vec F S1024x1 .f32) :
    { LS0 : List (View.Piece (Elt F) S1024x1 .f32) //
      ∀ (E : Set ℕ) (K : PUnit → sProp 𝕄),
        iprop(owns (c : Thread nD τ) arg2 fullShare x0 ∗ owns (c : Thread nD τ) arg8 fullShare xs0
            ∗ (iprop(owns (c : Thread nD τ) arg2 fullShare x0 ∗ (∃ f, arg8.view.loc (c : Thread nD τ) ↦[arg8.view.set]{fullShare} arg8.view.writes (Elt F) f LS0)) -∗ K ⟨⟩))
          ⊢ wp frame (wpE (defs₀ (F := F)) Variants.none c none) E (cc0__degree_hs_linear_kernel i arg2 harg2 arg3 harg3 arg4 harg4 arg5 harg5 arg6 harg6 arg7 harg7 arg8 harg8) K } := by
  refine ⟨?_, fun E K => ?run⟩
  case run =>
    simp only [cc0__degree_hs_linear_kernel_eq_skeleton]; unfold cc0__degree_hs_linear_kernel_skel
    unfold owns
    iintro ⟨⟨%f0, %hf0, H0⟩, ⟨%fs0, %hfs0, HS0⟩, Hk⟩
    obtain rfl := harg2.eq_unread hf0; obtain rfl := harg8.eq_unread hfs0
    sl_exec (disch := first | exact hc0 | exact hc1)
    sl_step
    iapply Hk
    isplitl [H0]
    · iexists _; isplitr; · ipureintro; exact harg2.read_unread _
      iexact H0
    iexists _; iexact HS0

end Cert.KernelIdeal.Hand

end
-- ==== Proof.IdealR0RunC.lean ====
/-
# The degree pass on a last column tile

On the last column tile of a row block the body adds the tile's edge count to the running count, turns
the count into the degree scale, multiplies the feature block by the transposed weights, and writes
the three output blocks: the scaled features, the degree scale and the features.
-/
import proofs.«130060_j40785009443054_2_alg».proof.Proof.IdealR0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body on a last column tile: from the three input blocks at `x0`, `x1`, `x2`, the outputs' buffers at
    anything and the running count at `xs0`, to the inputs as found and each output's buffer and the count's
    buffer with the found pieces written. -/
noncomputable def kernelRun0_C (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : ¬cond0_0 i) (hc1 : cond0_1 i)
    (x0 : Vec F S1024x2048 .f32) (x1 : Vec F S1024x256 .f32) (x2 : Vec F S256x256 .f32) (xs0 : Vec F S1024x1 .f32) :
    Σ' (L3 : List (View.Piece (Elt F) S1024x256 .bf16)), Σ' (L4 : List (View.Piece (Elt F) S1024x1 .f32)), Σ' (L5 : List (View.Piece (Elt F) S1024x256 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc0__degree_hs_linear_kernel i arg2 harg2 arg3 harg3 arg4 harg4 arg5 harg5 arg6 harg6 arg7 harg7 arg8 harg8) K } := by
  refine ⟨?_, ?_, ?_, ?_, fun E K => ?run⟩
  case run =>
    simp only [cc0__degree_hs_linear_kernel_eq_skeleton]; unfold cc0__degree_hs_linear_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact HS0

end Cert.KernelIdeal.Hand

end
-- ==== Proof.IdealR0Frame.lean ====
/-
# The degree pass: what every grid point leaves, and the body's obligation

What the running count holds after each grid point is defined by recursion along the grid: on a first
column tile the count restarts, on the others it continues from the point before.  On a last column tile
the three output blocks are written from that count and the input blocks.  With these contents named,
the launch invariant (the running count at its named contents, every other scoped buffer at anything) is
kept by the body at every point.
-/
import proofs.«130060_j40785009443054_2_alg».proof.Proof.IdealR0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

theorem scover0_A (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : cond0_0 i) (hc1 : ¬cond0_1 i) (x0 : Vec F S1024x2048 .f32) (y : S1024x1.Idx) :
    ∃ pc ∈ (kernelRun0_A c i arg2 harg2 arg3 harg3 arg4 harg4 arg5 harg5 arg6 harg6 arg7 harg7 arg8 harg8 hc0 hc1 x0).1, y ∈ pc.1.set :=
  View.cover_of_tiledL (kernelRun0_A c i arg2 harg2 arg3 harg3 arg4 harg4 arg5 harg5 arg6 harg6 arg7 harg7 arg8 harg8 hc0 hc1 x0).1 S1024x1.size (by sl_kernel_rfl) y

/-- The running count after a first column tile. -/
def sout0_A (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : cond0_0 i) (hc1 : ¬cond0_1 i) (x0 : Vec F S1024x2048 .f32) : Vec F S1024x1 .f32 :=
  VS0_0.read (Elt F) (VS0_0.writes (Elt F) VS0_0.junk (kernelRun0_A c i arg2 harg2 arg3 harg3 arg4 harg4 arg5 harg5 arg6 harg6 arg7 harg7 arg8 harg8 hc0 hc1 x0).1)

theorem scover0_B (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : ¬cond0_0 i) (hc1 : ¬cond0_1 i) (x0 : Vec F S1024x2048 .f32) (xs0 : Vec F S1024x1 .f32) (y : S1024x1.Idx) :
    ∃ pc ∈ (kernelRun0_B c i arg2 harg2 arg3 harg3 arg4 harg4 arg5 harg5 arg6 harg6 arg7 harg7 arg8 harg8 hc0 hc1 x0 xs0).1, y ∈ pc.1.set :=
  View.cover_of_tiledL (kernelRun0_B c i arg2 harg2 arg3 harg3 arg4 harg4 arg5 harg5 arg6 harg6 arg7 harg7 arg8 harg8 hc0 hc1 x0 xs0).1 S1024x1.size (by sl_kernel_rfl) y

/-- The running count after a middle column tile, from the count before it. -/
def sout0_B (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : ¬cond0_0 i) (hc1 : ¬cond0_1 i) (x0 : Vec F S1024x2048 .f32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 xs0).1)

section CaseC
variable (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : ¬cond0_0 i) (hc1 : cond0_1 i)
  (x0 : Vec F S1024x2048 .f32) (x1 : Vec F S1024x256 .f32) (x2 : Vec F S256x256 .f32) (xs0 : Vec F S1024x1 .f32)

theorem cover0_C_3 (y : S1024x256.Idx) : ∃ pc ∈ (kernelRun0_C c i arg2 harg2 arg3 harg3 arg4 harg4 arg5 harg5 arg6 harg6 arg7 harg7 arg8 harg8 hc0 hc1 x0 x1 x2 xs0).1, y ∈ pc.1.set :=
  View.cover_of_tiledL (kernelRun0_C c i arg2 harg2 arg3 harg3 arg4 harg4 arg5 harg5 arg6 harg6 arg7 harg7 arg8 harg8 hc0 hc1 x0 x1 x2 xs0).1 S1024x256.size (by sl_kernel_rfl) y
theorem cover0_C_4 (y : S1024x1.Idx) : ∃ pc ∈ (kernelRun0_C c i arg2 harg2 arg3 harg3 arg4 harg4 arg5 harg5 arg6 harg6 arg7 harg7 arg8 harg8 hc0 hc1 x0 x1 x2 xs0).2.1, y ∈ pc.1.set :=
  View.cover_of_tiledL (kernelRun0_C c i arg2 harg2 arg3 harg3 arg4 harg4 arg5 harg5 arg6 harg6 arg7 harg7 arg8 harg8 hc0 hc1 x0 x1 x2 xs0).2.1 S1024x1.size (by sl_kernel_rfl) y
theorem cover0_C_5 (y : S1024x256.Idx) : ∃ pc ∈ (kernelRun0_C c i arg2 harg2 arg3 harg3 arg4 harg4 arg5 harg5 arg6 harg6 arg7 harg7 arg8 harg8 hc0 hc1 x0 x1 x2 xs0).2.2.1, y ∈ pc.1.set :=
  View.cover_of_tiledL (kernelRun0_C c i arg2 harg2 arg3 harg3 arg4 harg4 arg5 harg5 arg6 harg6 arg7 harg7 arg8 harg8 hc0 hc1 x0 x1 x2 xs0).2.2.1 S1024x256.size (by sl_kernel_rfl) y
theorem scover0_C (y : S1024x1.Idx) : ∃ pc ∈ (kernelRun0_C c i arg2 harg2 arg3 harg3 arg4 harg4 arg5 harg5 arg6 harg6 arg7 harg7 arg8 harg8 hc0 hc1 x0 x1 x2 xs0).2.2.2.1, y ∈ pc.1.set :=
  View.cover_of_tiledL (kernelRun0_C c i arg2 harg2 arg3 harg3 arg4 harg4 arg5 harg5 arg6 harg6 arg7 harg7 arg8 harg8 hc0 hc1 x0 x1 x2 xs0).2.2.2.1 S1024x1.size (by sl_kernel_rfl) y

/-- The scaled-features block a last column tile writes. -/
def out0_C_3 : Vec F S1024x256 .bf16 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0).1)
/-- The degree-scale block a last column tile writes. -/
def out0_C_4 : Vec F S1024x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0).2.1)
/-- The features block a last column tile writes. -/
def out0_C_5 : Vec F S1024x256 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 xs0).2.2.1)
/-- The running count after a last column tile. -/
def sout0_C : Vec F S1024x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0).2.2.2.1)
end CaseC

/-- Contents standing for an output block at a point where nothing is stored into it (never consulted). -/
def ph0_3 : Vec F S1024x256 .bf16 := VO0_3.read (Elt F) (VO0_3.writes (Elt F) VO0_3.junk [])
def ph0_4 : Vec F S1024x1 .f32 := VO0_4.read (Elt F) (VO0_4.writes (Elt F) VO0_4.junk [])
def ph0_5 : Vec F S1024x256 .f32 := VO0_5.read (Elt F) (VO0_5.writes (Elt F) VO0_5.junk [])

section
variable (V : (c : Dev nD) → (b : Ref sig .tc) → Buf (Elt F) ((c : Thread nD τ).loc b))

/-! ## Along the grid -/

/-- What the three output buffers and the running count hold after the body at position `n`: the case the
    position is in, run on the point's blocks, the count continued from the position before. -/
def outsAt0 (c : Dev nD) : (n : ℕ) → n < cfg0.N → Vec F S1024x256 .bf16 × Vec F S1024x1 .f32 × Vec F S1024x256 .f32 × Vec F S1024x1 .f32
  | 0, hn => (ph0_3, ph0_4, ph0_5, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 4 = 0 then
      (ph0_3, ph0_4, ph0_5, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2,
         out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2,
         out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2)
      else
        (ph0_3, ph0_4, ph0_5, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.2)

/-- At a first column tile. -/
theorem outsAt0_A (c : Dev nD) (t : Fin cfg0.N) (h0 : t.val % 4 = 0) (h1 : ¬t.val % 4 = 3) :
    outsAt0 V c t.val t.isLt = (ph0_3, ph0_4, ph0_5, sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans rfl

/-- At a middle column tile. -/
theorem outsAt0_B (c : Dev nD) (t : Fin cfg0.N) (h0 : ¬t.val % 4 = 0) (h1 : ¬t.val % 4 = 3) :
    outsAt0 V c t.val t.isLt = (ph0_3, ph0_4, ph0_5, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a last column tile. -/
theorem outsAt0_C (c : Dev nD) (t : Fin cfg0.N) (h0 : ¬t.val % 4 = 0) (h1 : t.val % 4 = 3) :
    outsAt0 V c t.val t.isLt =
      (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2,
       out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2,
       out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2,
       sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The launch invariant -/

/-- Before position `n`: at the start the class's invariant; afterwards the running count at what the position
    before left, every other scoped buffer at anything, the generator register at some state. -/
def PhiS0 (c : Dev nD) : (n : ℕ) → n ≤ cfg0.N → sProp 𝕄
  | 0, _ => Pipeline.ΦA (U := Pipeline.UD sig nD τ) spec0 c
  | n + 1, hn => iprop(iprop(owns (c : Thread nD τ) scM0_0 fullShare ((outsAt0 V c n hn).2.2.2) ∗ rest0 (F := F) c) ∗ (∃ r, prngReg c r))

theorem PhiS0_zero (c : Dev nD) (n : ℕ) (h : n ≤ cfg0.N) (hz : n = 0) : PhiS0 V c n h = Pipeline.ΦA (U := Pipeline.UD sig nD τ) spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2) ∗ rest0 (F := F) c) ∗ (∃ r, prngReg c r)) := by
  cases n with
  | zero => exact absurd rfl hz
  | succ n => rfl

/-! ## The proof data -/

/-- The degree pass's proof data on core `c`: the arrays as the launch finds them; after the body each input's
    buffer at its block, each output's at `outsAt0`'s component; the invariant `PhiS0`; nothing owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point: the inputs' buffers hold their blocks; the closed forms say which case the point is
    in; the invariant hands the body the running count at what the point before left (at anything at the very
    first point) and takes it back at this point's contents; where nothing is stored into the outputs their
    buffers pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h1 : t.val % 4 = 3
  · have h0 : ¬t.val % 4 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [show (dat0 V c).leavesExact 4 t = owns (c : Thread nD τ) (ms0_4 t) fullShare ((dat0 V c).after 4 t) from by
      unfold Dat.leavesExact; rw [liveAt0_4 t ((hcond0_1 t).mpr h1)], after0_4]
    rw [show (dat0 V c).leavesExact 5 t = owns (c : Thread nD τ) (ms0_5 t) fullShare ((dat0 V c).after 5 t) from by
      unfold Dat.leavesExact; rw [liveAt0_5 t ((hcond0_1 t).mpr h1)], after0_5]
    rw [outsAt0_C V c t h0 h1]
    unfold out0_C_3 out0_C_4 out0_C_5 sout0_C; (try dsimp only)
    rw [PhiS0_castSucc V c t, PhiS0_pos V c _ _ hz]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) _).2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, ⟨%e3, H3⟩, ⟨%e4, H4⟩, ⟨%e5, H5⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C c _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_C_3 c _ _ _ _ _ _ _ _ _ _ _ _ _ _ _ _ _ _ _ _ _)
    isplitl [H4]
    · unfold owns; iexists _; isplitr
      swap; · iexact H4
      ipureintro; exact View.read_writes_of_cover _ _ _ _ _ (cover0_C_4 c _ _ _ _ _ _ _ _ _ _ _ _ _ _ _ _ _ _ _ _ _)
    unfold owns; iexists _; isplitr
    swap; · iexact H5
    ipureintro; exact View.read_writes_of_cover _ _ _ _ _ (cover0_C_5 c _ _ _ _ _ _ _ _ _ _ _ _ _ _ _ _ _ _ _ _ _)
  · rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    by_cases h0 : t.val % 4 = 0
    · rw [outsAt0_A V c t h0 h1]
      unfold sout0_A; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, H3, H4, H5⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t)).2 Set.univ _)
        isplitl [H0]; · iexact H0
        isplitl [HS0]; · iexact HS0
        iintro ⟨H0, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [PhiS0_castSucc V c t, PhiS0_pos V c _ _ hz]
        iintro ⟨⟨⟨HS0, HR⟩, Hg⟩, Ho, ⟨%d0, H0⟩, ⟨%d1, H1⟩, ⟨%d2, H2⟩, H3, H4, H5⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t)).2 Set.univ _)
        isplitl [H0]; · iexact H0
        isplitl [HS0]; · iexists _; iexact HS0
        iintro ⟨H0, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexact H5
    · have hz : t.val ≠ 0 := by omega
      rw [outsAt0_B V c t h0 h1]
      unfold sout0_B; (try dsimp only)
      rw [PhiS0_castSucc V c t, PhiS0_pos V c _ _ hz]
      iintro ⟨⟨⟨HS0, HR⟩, Hg⟩, Ho, ⟨%d0, H0⟩, ⟨%d1, H1⟩, ⟨%d2, H2⟩, H3, H4, H5⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the pass is the invariant before the first point. -/
theorem hin0 (c : Dev nD) : Pipeline.ΦA (U := Pipeline.UD sig nD τ) spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the count's named contents are forgotten. -/
theorem hout0 (c : Dev nD) : (dat0 V c).Φ (Fin.last cfg0.N) ⊢ Pipeline.ΦA (U := Pipeline.UD sig nD τ) spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, HR⟩, Hg⟩
  isplitl [HS0 HR]
  · isplitl [HS0]
    · iexists _; iexact HS0
    iexact HR
  iexact Hg

end

end Cert.KernelIdeal.Hand

end
-- ==== Proof.IdealR1Base.lean ====
/-
# The product pass: what its body is run on

The second launch walks the same grid of 8 row blocks by 4 column tiles.  At a grid point the body sees one
1024 by 2048 tile of the adjacency matrix, the whole array of scaled features (resident for the whole
launch), the row block of the features and of the degree scale, its output block, and a 1024 by 256
running product that it keeps from one column tile to the next.  This module names those pieces.
-/
import proofs.«130060_j40785009443054_2_alg».proof.Proof.Gen.KernelIdeal.Launch
import proofs.«130060_j40785009443054_2_alg».proof.Proof.Gen.KernelIdeal.Skeleton
import proofs.«130060_j40785009443054_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branches of the body, over the grid -/

/-- The first branch is taken on the first column tile. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second branch is taken on the last column tile. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are left alone -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called on -/

abbrev VO1_4 : View sig .tc .vmem S1024x256 .f32 := (Memref.whole cc1_stg4_0 : Memref sig .tc .vmem S1024x256 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The running product's buffer. -/
abbrev scM1_0 : Memref sig .tc .vmem S1024x256 .f32 := Memref.whole cc1_scratch0
abbrev VS1_0 : View sig .tc .vmem S1024x256 .f32 := scM1_0.view

/-- The class invariant with the running product's buffer named among the scoped buffers. -/
theorem PhiA1_eq (c : Dev nD) :
    (Pipeline.ΦA (U := Pipeline.UD sig nD τ) spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.IdealR1RunA.lean ====
/-
# The product pass on a first column tile

On the first column tile of a row block the body clears the running product and adds to it the tile times
the matching 2048 rows of the scaled features; it touches nothing else.
-/
import proofs.«130060_j40785009443054_2_alg».proof.Proof.IdealR1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body on a first column tile: from the tile at `x0`, the scaled features at `x1` and the product's buffer at
    anything, to the inputs as found and the product's buffer with the found pieces written. -/
noncomputable def kernelRun1_A (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i)
    (x0 : Vec F S1024x2048 .f32) (x1 : Vec F S8192x256 .bf16) :
    { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_matmul_kernel i arg2 harg2 arg3 harg3 arg4 harg4 arg5 harg5 arg6 harg6 arg7 harg7) K } := by
  refine ⟨?_, fun E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.IdealR1RunB.lean ====
/-
# The product pass on a middle column tile

On a column tile that is neither the first nor the last of its row block the body adds to the running
product the tile times the matching 2048 rows of the scaled features and touches nothing else.
-/
import proofs.«130060_j40785009443054_2_alg».proof.Proof.IdealR1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body on a middle column tile: from the tile at `x0`, the scaled features at `x1` and the running product
    at `xs0`, to the inputs as found and the product's buffer with the found pieces written. -/
noncomputable def kernelRun1_B (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i)
    (x0 : Vec F S1024x2048 .f32) (x1 : Vec F S8192x256 .bf16) (xs0 : Vec F S1024x256 .f32) :
    { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg7 fullShare xs0
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_matmul_kernel i arg2 harg2 arg3 harg3 arg4 harg4 arg5 harg5 arg6 harg6 arg7 harg7) K } := by
  refine ⟨?_, fun E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.IdealR1RunC.lean ====
/-
# The product pass on a last column tile

On the last column tile of a row block the body adds the last partial product, adds the node's own scaled
features, scales the row by the degree scale, clamps at zero and writes the output block.
-/
import proofs.«130060_j40785009443054_2_alg».proof.Proof.IdealR1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body on a last column tile: from the four input blocks, the output's buffer at anything and the running
    product at `xs0`, to the inputs as found and the output's buffer and the product's buffer with the found
    pieces written. -/
noncomputable def kernelRun1_C (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i)
    (x0 : Vec F S1024x2048 .f32) (x1 : Vec F S8192x256 .bf16) (x2 : Vec F S1024x256 .f32) (x3 : Vec F S1024x1 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_matmul_kernel i arg2 harg2 arg3 harg3 arg4 harg4 arg5 harg5 arg6 harg6 arg7 harg7) K } := by
  refine ⟨?_, ?_, fun E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.IdealR1Frame.lean ====
/-
# The product pass: what every grid point leaves, and the body's obligation

What the running product holds after each grid point is defined by recursion along the grid: on a first
column tile it restarts, on the others it continues from the point before.  On a last column tile the
output block is written from that product and the row's features and degree scale.  With these contents
named, the launch invariant (the running product at its named contents, every other scoped buffer at
anything) is kept by the body at every point.
-/
import proofs.«130060_j40785009443054_2_alg».proof.Proof.IdealR1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

theorem scover1_A (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x2048 .f32) (x1 : Vec F S8192x256 .bf16) (y : S1024x256.Idx) :
    ∃ pc ∈ (kernelRun1_A c i arg2 harg2 arg3 harg3 arg4 harg4 arg5 harg5 arg6 harg6 arg7 harg7 hc0 hc1 x0 x1).1, y ∈ pc.1.set :=
  View.cover_of_tiledL (kernelRun1_A c i arg2 harg2 arg3 harg3 arg4 harg4 arg5 harg5 arg6 harg6 arg7 harg7 hc0 hc1 x0 x1).1 S1024x256.size (by sl_kernel_rfl) y

/-- The running product after a first column tile. -/
def sout1_A (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x2048 .f32) (x1 : Vec F S8192x256 .bf16) : Vec F S1024x256 .f32 :=
  VS1_0.read (Elt F) (VS1_0.writes (Elt F) VS1_0.junk (kernelRun1_A c i arg2 harg2 arg3 harg3 arg4 harg4 arg5 harg5 arg6 harg6 arg7 harg7 hc0 hc1 x0 x1).1)

theorem scover1_B (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x2048 .f32) (x1 : Vec F S8192x256 .bf16) (xs0 : Vec F S1024x256 .f32) (y : S1024x256.Idx) :
    ∃ pc ∈ (kernelRun1_B c i arg2 harg2 arg3 harg3 arg4 harg4 arg5 harg5 arg6 harg6 arg7 harg7 hc0 hc1 x0 x1 xs0).1, y ∈ pc.1.set :=
  View.cover_of_tiledL (kernelRun1_B c i arg2 harg2 arg3 harg3 arg4 harg4 arg5 harg5 arg6 harg6 arg7 harg7 hc0 hc1 x0 x1 xs0).1 S1024x256.size (by sl_kernel_rfl) y

/-- The running product after a middle column tile, from the product before it. -/
def sout1_B (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x2048 .f32) (x1 : Vec F S8192x256 .bf16) (xs0 : Vec F S1024x256 .f32) : Vec F S1024x256 .f32 :=
  VS1_0.read (Elt F) (VS1_0.writes (Elt F) VS1_0.junk (kernelRun1_B c i arg2 harg2 arg3 harg3 arg4 harg4 arg5 harg5 arg6 harg6 arg7 harg7 hc0 hc1 x0 x1 xs0).1)

section CaseC
variable (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i)
  (x0 : Vec F S1024x2048 .f32) (x1 : Vec F S8192x256 .bf16) (x2 : Vec F S1024x256 .f32) (x3 : Vec F S1024x1 .f32) (xs0 : Vec F S1024x256 .f32)

theorem cover1_C_4 (y : S1024x256.Idx) : ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x256.size (by sl_kernel_rfl) y
theorem scover1_C (y : S1024x256.Idx) : ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x256.size (by sl_kernel_rfl) y

/-- The output block a last column tile writes. -/
def out1_C_4 : Vec F S1024x256 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)
/-- The running product after a last column tile. -/
def sout1_C : Vec F S1024x256 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)
end CaseC

/-- Contents standing for the output block at a point where nothing is stored into it (never consulted). -/
def ph1_4 : Vec F S1024x256 .f32 := VO1_4.read (Elt F) (VO1_4.writes (Elt F) VO1_4.junk [])

section
variable (V : (c : Dev nD) → (b : Ref sig .tc) → Buf (Elt F) ((c : Thread nD τ).loc b))

/-! ## Along the grid -/

/-- What the output buffer and the running product hold after the body at position `n`. -/
def outsAt1 (c : Dev nD) : (n : ℕ) → n < cfg1.N → Vec F S1024x256 .f32 × Vec F S1024x256 .f32
  | 0, hn => (ph1_4, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      (ph1_4, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (ph1_4, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first column tile. -/
theorem outsAt1_A (c : Dev nD) (t : Fin cfg1.N) (h0 : t.val % 4 = 0) (h1 : ¬t.val % 4 = 3) :
    outsAt1 V c t.val t.isLt = (ph1_4, sout1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

/-- At a middle column tile. -/
theorem outsAt1_B (c : Dev nD) (t : Fin cfg1.N) (h0 : ¬t.val % 4 = 0) (h1 : ¬t.val % 4 = 3) :
    outsAt1 V c t.val t.isLt = (ph1_4, sout1_B c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last column tile. -/
theorem outsAt1_C (c : Dev nD) (t : Fin cfg1.N) (h0 : ¬t.val % 4 = 0) (h1 : t.val % 4 = 3) :
    outsAt1 V c t.val t.isLt =
      (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
       sout1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The launch invariant -/

/-- Before position `n`: at the start the class's invariant; afterwards the running product at what the
    position before left, every other scoped buffer at anything, the generator register at some state. -/
def PhiS1 (c : Dev nD) : (n : ℕ) → n ≤ cfg1.N → sProp 𝕄
  | 0, _ => Pipeline.ΦA (U := Pipeline.UD sig nD τ) spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA (U := Pipeline.UD sig nD τ) spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The product pass's proof data on core `c`: the arrays as the launch finds them; after the body each input's
    buffer at its block, the output's at `outsAt1`'s component; the invariant `PhiS1`; nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point: the inputs' buffers hold their blocks; the closed forms say which case the point is
    in; the invariant hands the body the running product at what the point before left (at anything at the very
    first point) and takes it back at this point's contents; where nothing is stored into the output its
    buffer passes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h1 : t.val % 4 = 3
  · have h0 : ¬t.val % 4 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [outsAt1_C V c t h0 h1]
    unfold out1_C_4 sout1_C; (try dsimp only)
    rw [PhiS1_castSucc V c t, PhiS1_pos V c _ _ hz]
    iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, ⟨%d4, H4⟩⟩
    iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HR0 HR1 HR2 HR3 HR4 HR5 HR6 HR7 HR8 HR9 HR10 HR11 HS0 Hg]
    · isplitl [HR0 HR1 HR2 HR3 HR4 HR5 HR6 HR7 HR8 HR9 HR10 HR11 HS0]
      ·
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        unfold owns; iexists _; isplitr
        swap; · iexact HS0
        ipureintro; exact View.read_writes_of_cover _ _ _ _ _ (scover1_C c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_C_4 c _ _ _ _ _ _ _ _ _ _ _ _ _ _ _ _ _ _ _ _)
  · rw [Dat.leavesExact_idle (dat1 V c) 4 t (idleAt1_4 t (fun h => h1 ((hcond1_1 t).mp h))) (noFlush1_4 t (fun h => h1 ((hcond1_1 t).mp h)))]
    by_cases h0 : t.val % 4 = 0
    · rw [outsAt1_A V c t h0 h1]
      unfold sout1_A; (try dsimp only)
      by_cases hz : t.val = 0
      · rw [PhiS1_castSucc V c t, PhiS1_zero V c _ _ hz, PhiA1_eq]
        iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, H4⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t)).2 Set.univ _)
        isplitl [H0]; · iexact H0
        isplitl [H1]; · iexact H1
        isplitl [HS0]; · iexact HS0
        iintro ⟨H0, H1, ⟨%es0, HS0⟩⟩
        isplitl [HR0 HR1 HR2 HR3 HR4 HR5 HR6 HR7 HR8 HR9 HR10 HR11 HS0 Hg]
        · isplitl [HR0 HR1 HR2 HR3 HR4 HR5 HR6 HR7 HR8 HR9 HR10 HR11 HS0]
          ·
            isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            unfold owns; iexists _; isplitr
            swap; · iexact HS0
            ipureintro; exact View.read_writes_of_cover _ _ _ _ _ (scover1_A c _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexact H4
      · rw [PhiS1_castSucc V c t, PhiS1_pos V c _ _ hz]
        iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, H4⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t)).2 Set.univ _)
        isplitl [H0]; · iexact H0
        isplitl [H1]; · iexact H1
        isplitl [HS0]; · iexists _; iexact HS0
        iintro ⟨H0, H1, ⟨%es0, HS0⟩⟩
        isplitl [HR0 HR1 HR2 HR3 HR4 HR5 HR6 HR7 HR8 HR9 HR10 HR11 HS0 Hg]
        · isplitl [HR0 HR1 HR2 HR3 HR4 HR5 HR6 HR7 HR8 HR9 HR10 HR11 HS0]
          ·
            isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            unfold owns; iexists _; isplitr
            swap; · iexact HS0
            ipureintro; exact View.read_writes_of_cover _ _ _ _ _ (scover1_A c _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexact H4
    · have hz : t.val ≠ 0 := by omega
      rw [outsAt1_B V c t h0 h1]
      unfold sout1_B; (try dsimp only)
      rw [PhiS1_castSucc V c t, PhiS1_pos V c _ _ hz]
      iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, H4⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HR0 HR1 HR2 HR3 HR4 HR5 HR6 HR7 HR8 HR9 HR10 HR11 HS0 Hg]
      · isplitl [HR0 HR1 HR2 HR3 HR4 HR5 HR6 HR7 HR8 HR9 HR10 HR11 HS0]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          unfold owns; iexists _; isplitr
          swap; · iexact HS0
          ipureintro; exact View.read_writes_of_cover _ _ _ _ _ (scover1_B c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the pass is the invariant before the first point. -/
theorem hin1 (c : Dev nD) : Pipeline.ΦA (U := Pipeline.UD sig nD τ) spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the product's named contents are forgotten. -/
theorem hout1 (c : Dev nD) : (dat1 V c).Φ (Fin.last cfg1.N) ⊢ Pipeline.ΦA (U := Pipeline.UD sig nD τ) spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HR0, HR1, HR2, HR3, HR4, HR5, HR6, HR7, HR8, HR9, HR10, HR11, HS0⟩, Hg⟩
  isplitl [HR0 HR1 HR2 HR3 HR4 HR5 HR6 HR7 HR8 HR9 HR10 HR11 HS0]
  ·
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    iexists _; iexact HS0
  iexact Hg

end

end Cert.KernelIdeal.Hand

end
-- ==== Proof.IdealRun.lean ====
/-
# The two launches in sequence

The program is the degree pass followed by the product pass.  Between launches a core holds every
unscoped buffer at known contents: at the start the launch memory; after the degree pass its three
result arrays at what its write-backs leave and everything else unchanged; after the product pass its
result array likewise.  Each pass is entered from the contents the one before left, and at the end
every unscoped buffer is read back at the last contents.  The argument arrays are never written, so
they read back as launched; the result array reads back as the product pass's write-backs.
-/
import proofs.«130060_j40785009443054_2_alg».proof.Proof.IdealR0Frame
import proofs.«130060_j40785009443054_2_alg».proof.Proof.IdealR1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffer contents between the launches -/

/-- Core `c`'s buffers at the start. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the degree pass: its arrays at what the pass leaves, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the product pass: its arrays at what the pass leaves, every other buffer as before. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ### The arguments are never written -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 1).trans (((dat0 (V0 m) c).arrAt_in 1 rfl _).trans (A_eq0 (V0 m) c 1))
    _ = m ((c : Thread nD τ).loc main_arg0) := rfl
theorem W1_main_arg1 (c : Dev nD) : W1 m c (Proc.devRef .tc main_arg1) = m ((c : Thread nD τ).loc main_arg1) :=
  (W1_arr m c 0).trans (((dat0 (V0 m) c).arrAt_in 0 rfl _).trans (A_eq0 (V0 m) c 0))
theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 0).trans (((dat1 (V1 m) c).arrAt_in 0 rfl _).trans (A_eq1 (V1 m) c 0))
    _ = m ((c : Thread nD τ).loc main_arg1) := W1_main_arg1 m c
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 2).trans (((dat0 (V0 m) c).arrAt_in 2 rfl _).trans (A_eq0 (V0 m) c 2))
    _ = m ((c : Thread nD τ).loc main_arg2) := rfl
/-- The result array at the end is what the product pass's write-backs leave. -/
theorem W2_main_v1 (c : Dev nD) : W2 m c (Proc.devRef .tc main_v1) = (dat1 (V1 m) c).arrAt 4 cfg1.N := W2_arr m c 4

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The launches as segments -/

set_option backward.isDefEq.respectTransparency.types false in
/-- The degree pass: entered from every unscoped buffer at the start contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0 m) c).Φ 0 from rfl]
    refine BIBase.Entails.trans ?_ (hin0 (V0 m) c)
    unfold Pipeline.ΦA
    iintro ⟨Hp, -, Hr⟩
    isplitl [Hr]; · iexact Hr
    iexact Hp
  hout c := by
    rw [Pipeline.ownSems0_none, show (pdats m 0 c).Φ (Fin.last _) = (dat0 (V0 m) c).Φ (Fin.last cfg0.N) from rfl]
    refine BIBase.Entails.trans (hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product pass: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V1 m) c).Φ 0 from rfl]
    refine BIBase.Entails.trans ?_ (hin1 (V1 m) c)
    unfold Pipeline.ΦA
    iintro ⟨Hp, -, Hr⟩
    isplitl [Hr]; · iexact Hr
    iexact Hp
  hout c := by
    rw [Pipeline.ownSems0_none, show (pdats m 1 c).Φ (Fin.last _) = (dat1 (V1 m) c).Φ (Fin.last cfg1.N) from rfl]
    refine BIBase.Entails.trans (hout1 (V1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two segments, and the run -/

abbrev segs : List (Pipeline.Seg (pcfgs (F := F)) adm (pdats m) () defs₀ 𝒱₀ L lv) :=
  [ .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of the program terminates without a fault,
    and at the end every unscoped buffer holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- The frame: the program runs to the end and its three argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

/-- The run with the result array named: it ends at the product pass's write-backs, the arguments as launched. -/
theorem run_value (ρ : Dev nD → PrngReg) : θ_run defs (onTc (τ := τ) (main (F := F))) ⟨m, fun _ => 0, ρ⟩ (fun r => ∀ c : Dev nD,
      r.2.mem ((c.tc : Thread nD τ).loc main_v1) = (dat1 (V1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

end Cert.KernelIdeal.Hand

end
-- ==== Proof.IdealR0Pieces.lean ====
/-
# The degree pass: each case's contents as the body's arithmetic

What a case of the body leaves in a buffer is the value its last covering store wrote, with every
load replaced by what the loaded buffer held: the tile, the running count before the point, or —
on a first column tile — the zero block the body has just stored.
-/
import proofs.«130060_j40785009443054_2_alg».proof.Proof.IdealR0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl

/-- After a first column tile the running count is the tile's edge count added to the zero block. -/
theorem sout0_A_eq (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : cond0_0 i) (hc1 : ¬cond0_1 i) (x0 : Vec F S1024x2048 .f32) :
    sout0_A c i arg2 harg2 arg3 harg3 arg4 harg4 arg5 harg5 arg6 harg6 arg7 harg7 arg8 harg8 hc0 hc1 x0 = k0_pay2 x0 (k0_pay1 (F := F)) := by
  unfold sout0_A
  rw [View.read_writes_eq_canon _ _ _ (scover0_A c i arg2 harg2 arg3 harg3 arg4 harg4 arg5 harg5 arg6 harg6 arg7 harg7 arg8 harg8 hc0 hc1 x0)]
  unfold kernelRun0_A
  dsimp only
  sl_unfold_words
  rw [View.canon_cons_unit_zero (S := S1024x1) hz2, View.readCov_unit_zero (S := S1024x1) _ hz2]
  simp only [View.readAt_eq_ld, harg2.read_unread, View.ld_unit_zero (S := S1024x2048) hz2, View.ld_unit_zero (S := S1024x1) hz2]

/-- After a middle column tile the running count is the tile's edge count added to the count before. -/
theorem sout0_B_eq (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : ¬cond0_0 i) (hc1 : ¬cond0_1 i) (x0 : Vec F S1024x2048 .f32) (xs0 : Vec F S1024x1 .f32) :
    sout0_B c i arg2 harg2 arg3 harg3 arg4 harg4 arg5 harg5 arg6 harg6 arg7 harg7 arg8 harg8 hc0 hc1 x0 xs0 = k0_pay2 x0 xs0 := by
  unfold sout0_B
  rw [View.read_writes_eq_canon _ _ _ (scover0_B c i arg2 harg2 arg3 harg3 arg4 harg4 arg5 harg5 arg6 harg6 arg7 harg7 arg8 harg8 hc0 hc1 x0 xs0)]
  unfold kernelRun0_B
  dsimp only
  sl_unfold_words
  rw [View.canon_unit_zero hz2]
  simp only [View.readAt_eq_ld, harg2.read_unread, harg8.read_unread, View.ld_unit_zero (S := S1024x2048) hz2, View.ld_unit_zero (S := S1024x1) hz2]

section CaseC
variable (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x1 .f32) (harg8 : arg8.IsWhole) (hc0 : ¬cond0_0 i) (hc1 : cond0_1 i)
  (x0 : Vec F S1024x2048 .f32) (x1 : Vec F S1024x256 .f32) (x2 : Vec F S256x256 .f32) (xs0 : Vec F S1024x1 .f32)

/-- After a last column tile the running count is the tile's edge count added to the count before. -/
theorem sout0_C_eq : sout0_C c i arg2 harg2 arg3 harg3 arg4 harg4 arg5 harg5 arg6 harg6 arg7 harg7 arg8 harg8 hc0 hc1 x0 x1 x2 xs0 = k0_pay2 x0 xs0 := by
  unfold sout0_C
  rw [View.read_writes_eq_canon _ _ _ (scover0_C c i arg2 harg2 arg3 harg3 arg4 harg4 arg5 harg5 arg6 harg6 arg7 harg7 arg8 harg8 hc0 hc1 x0 x1 x2 xs0)]
  unfold kernelRun0_C
  dsimp only
  sl_unfold_words
  rw [View.canon_unit_zero hz2]
  simp only [View.readAt_eq_ld, harg2.read_unread, harg8.read_unread, View.ld_unit_zero (S := S1024x2048) hz2, View.ld_unit_zero (S := S1024x1) hz2]

/-- The degree-scale block is the degree scale of the finished count. -/
theorem out0_C_4_eq : out0_C_4 c i arg2 harg2 arg3 harg3 arg4 harg4 arg5 harg5 arg6 harg6 arg7 harg7 arg8 harg8 hc0 hc1 x0 x1 x2 xs0 = k0_pay3 (k0_pay2 x0 xs0) := by
  unfold out0_C_4
  rw [View.read_writes_eq_canon _ _ _ (cover0_C_4 c i arg2 harg2 arg3 harg3 arg4 harg4 arg5 harg5 arg6 harg6 arg7 harg7 arg8 harg8 hc0 hc1 x0 x1 x2 xs0)]
  unfold kernelRun0_C
  dsimp only
  sl_unfold_words
  rw [View.canon_unit_zero hz2]
  simp only [View.readCov_unit_zero (S := S1024x1) _ hz2, View.readAt_eq_ld, harg2.read_unread, harg8.read_unread, View.ld_unit_zero (S := S1024x2048) hz2, View.ld_unit_zero (S := S1024x1) hz2]

/-- The features block is the feature block times the transposed weights. -/
theorem out0_C_5_eq : out0_C_5 c i arg2 harg2 arg3 harg3 arg4 harg4 arg5 harg5 arg6 harg6 arg7 harg7 arg8 harg8 hc0 hc1 x0 x1 x2 xs0 = k0_pay4 x1 x2 := by
  unfold out0_C_5
  rw [View.read_writes_eq_canon _ _ _ (cover0_C_5 c i arg2 harg2 arg3 harg3 arg4 harg4 arg5 harg5 arg6 harg6 arg7 harg7 arg8 harg8 hc0 hc1 x0 x1 x2 xs0)]
  unfold kernelRun0_C
  dsimp only
  sl_unfold_words
  rw [View.canon_unit_zero hz2]
  simp only [View.readAt_eq_ld, harg3.read_unread, harg4.read_unread, View.ld_unit_zero (S := S1024x256) hz2, View.ld_unit_zero (S := S256x256) hz2]

/-- The scaled-features block is the features block scaled row by row by the degree scale. -/
theorem out0_C_3_eq : out0_C_3 c i arg2 harg2 arg3 harg3 arg4 harg4 arg5 harg5 arg6 harg6 arg7 harg7 arg8 harg8 hc0 hc1 x0 x1 x2 xs0 = k0_pay5 (k0_pay2 x0 xs0) x1 x2 := by
  unfold out0_C_3
  rw [View.read_writes_eq_canon _ _ _ (cover0_C_3 c i arg2 harg2 arg3 harg3 arg4 harg4 arg5 harg5 arg6 harg6 arg7 harg7 arg8 harg8 hc0 hc1 x0 x1 x2 xs0)]
  unfold kernelRun0_C
  dsimp only
  sl_unfold_words
  rw [View.canon_unit_zero hz2]
  simp only [View.readCov_unit_zero (S := S1024x1) _ hz2, View.readAt_eq_ld, harg2.read_unread, harg3.read_unread, harg4.read_unread, harg8.read_unread, View.ld_unit_zero (S := S1024x2048) hz2, View.ld_unit_zero (S := S1024x1) hz2, View.ld_unit_zero (S := S1024x256) hz2, View.ld_unit_zero (S := S256x256) hz2]
end CaseC

end Cert.KernelIdeal.Hand

end
-- ==== Proof.Spec.lean ====
import Idealize.ShloMosaic.PureOps.Ideal
import Mathlib

/-!
# The result as one function of the three argument arrays

Degree-normalised message passing over a dense graph of 8192 nodes with 256 features.
For an adjacency matrix `A`, node features `x` and a weight matrix `W`:

* an edge counts when its weight exceeds the threshold `ε` (the float `1e-15`): `mask a` is `1` or `0`;
* the count of row `r` is collected four column tiles of 2048 at a time, from zero: `cnt A r`;
* the degree scale is `deg A r = (1 + cnt A r)^(-1/2)`;
* the linear layer is `lin x W r q = ∑ e, x r e · W q e` (that is `x · Wᵀ`);
* the scaled features are `hs k q = lin k q · deg k`;
* row `r` of `A · hs` is collected four column tiles at a time, from zero: `acc`;
* the result is `max ((acc r q + deg r · lin r q) · deg r) 0`.

All of it is stated on the extended reals, index by index, over plain coordinates.
-/

noncomputable section

namespace Cert.Spec

open Idealize.ShloMosaic

/-- The threshold above which an entry of the adjacency matrix counts as an edge. -/
def epsV : EReal := Ideal.ofBits .f32 0x26901D7D#32

/-- The indicator of an edge. -/
def mask (a : EReal) : EReal := if epsV < a then 1 else 0

/-- Column `j·2048 + c` of the adjacency matrix: the `c`-th column of tile `j`. -/
def col (j : Fin 4) (c : Fin 2048) : Fin 8192 := ⟨j.val * 2048 + c.val, by have := j.isLt; have := c.isLt; omega⟩

/-- The number of edges of row `r` inside column tile `j`. -/
def tileCount (A : Fin 8192 → Fin 8192 → EReal) (r : Fin 8192) (j : Fin 4) : EReal :=
  ∑ c : Fin 2048, mask (A r (col j c))

/-- The number of edges of row `r`, collected tile after tile from zero. -/
def cnt (A : Fin 8192 → Fin 8192 → EReal) (r : Fin 8192) : EReal :=
  (((0 + tileCount A r 0) + tileCount A r 1) + tileCount A r 2) + tileCount A r 3

/-- The degree scale `(1 + count)^(-1/2)`. -/
def deg (A : Fin 8192 → Fin 8192 → EReal) (r : Fin 8192) : EReal := Ideal.rsqrt (1 + cnt A r)

/-- The linear layer `x · Wᵀ`. -/
def lin (x : Fin 8192 → Fin 256 → EReal) (W : Fin 256 → Fin 256 → EReal) (r : Fin 8192) (q : Fin 256) : EReal :=
  ∑ e : Fin 256, x r e * W q e

/-- The features scaled by their node's degree scale. -/
def hs (x : Fin 8192 → Fin 256 → EReal) (A : Fin 8192 → Fin 8192 → EReal) (W : Fin 256 → Fin 256 → EReal)
    (k : Fin 8192) (q : Fin 256) : EReal := lin x W k q * deg A k

/-- The part of row `r` of `A · hs` that column tile `j` contributes. -/
def tileDot (x : Fin 8192 → Fin 256 → EReal) (A : Fin 8192 → Fin 8192 → EReal) (W : Fin 256 → Fin 256 → EReal)
    (r : Fin 8192) (q : Fin 256) (j : Fin 4) : EReal :=
  ∑ c : Fin 2048, A r (col j c) * hs x A W (col j c) q

/-- Row `r` of `A · hs`, collected tile after tile from zero. -/
def acc (x : Fin 8192 → Fin 256 → EReal) (A : Fin 8192 → Fin 8192 → EReal) (W : Fin 256 → Fin 256 → EReal)
    (r : Fin 8192) (q : Fin 256) : EReal :=
  (((0 + tileDot x A W r q 0) + tileDot x A W r q 1) + tileDot x A W r q 2) + tileDot x A W r q 3

/-- The result: `relu (deg r · ((A · hs) r q + deg r · lin r q))`. -/
def K (x : Fin 8192 → Fin 256 → EReal) (A : Fin 8192 → Fin 8192 → EReal) (W : Fin 256 → Fin 256 → EReal)
    (r : Fin 8192) (q : Fin 256) : EReal :=
  max ((acc x A W r q + deg A r * lin x W r q) * deg A r) 0

end Cert.Spec

end
-- ==== Proof.Consts.lean ====
import proofs.«130060_j40785009443054_2_alg».proof.Proof.Spec
import Idealize.ShloMosaic.PureOps.Ideal.Laws

/-!
# The float literals of the reference, as extended reals

The reference writes four constants: the threshold `ε`, `0`, `1` and the exponent `-1/2`.
The word `0x3F800000` is `2^23 · 2^(127-127-23) = 1`; the word `0xBF000000` has its sign bit set,
exponent field `126` and an empty fraction, so it is `-(2^23 · 2^(126-127-23)) = -1/2`; the threshold's
word has exponent field `77`, neither all ones nor zero, so it denotes a real number.
-/

namespace Cert.RefSide

open Idealize.ShloMosaic

/-- The word `0x3F800000` is one. -/
theorem one_word : Ideal.ofBits .f32 0x3F800000#32 = 1 := by
  simp [Ideal.ofBits, Ideal.ieee]
  rw [← EReal.coe_mul, EReal.coe_eq_one]
  norm_num

/-- The word `0xBF000000` is minus one half. -/
theorem neg_half_word : Ideal.ofBits .f32 0xBF000000#32 = ((-(1 / 2) : ℝ) : EReal) := by
  simp [Ideal.ofBits, Ideal.ieee]
  rw [← EReal.coe_mul, EReal.coe_eq_coe_iff]
  norm_num

/-- The threshold is a real number. -/
theorem eps_real : ∃ e : ℝ, Cert.Spec.epsV = (e : EReal) := by
  unfold Cert.Spec.epsV Ideal.ofBits Ideal.ieee
  simp only []
  rw [if_neg (by decide), if_neg (by decide)]
  exact ⟨_, rfl⟩

end Cert.RefSide
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«130060_j40785009443054_2_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.IdealPay0.lean ====
/-
# The degree pass's arithmetic, entry by entry, on the extended reals

Each value the body stores is read at a row `p` (and a column `q`): the zero block is zero; the count
update adds to the old count the number of entries of row `p` of the tile above the threshold; the degree
scale is the inverse square root of one plus the count; the features are the row of the feature block
against the row of the weights (the product with the transposed weights); the scaled features are the
features times the row's degree scale.  Changes of float format do nothing on the extended reals.
-/
import proofs.«130060_j40785009443054_2_alg».proof.Proof.Gen.KernelIdeal.Skeleton
import proofs.«130060_j40785009443054_2_alg».proof.Proof.Spec
import proofs.«130060_j40785009443054_2_alg».proof.Proof.Consts
import proofs.«130060_j40785009443054_2_alg».proof.Proof.LibRowSum
import proofs.«130060_j40785009443054_2_alg».proof.Proof.LibPlainDot
import proofs.«130060_j40785009443054_2_alg».proof.Proof.LibVecIx2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pay

open Cert.KernelIdeal Cert.KernelIdeal.Gen
open Idealize.ShloMosaic Idealize.ShloMosaic.ValueIdx

/-- A one-bit comparison result widened to 32 bits and read as a signed integer is `1` or `0`. -/
theorem indicator_word (d : Bool) :
    FloatOps.sitofp (F := Ideal) .f32 ((BitVec.ofBool d).setWidth 32) = if d then (1 : EReal) else 0 := by
  cases d
  · show ((((BitVec.ofBool false).setWidth 32).toInt : ℝ) : EReal) = 0
    rw [show ((BitVec.ofBool false).setWidth 32).toInt = 0 from by decide]; simp
  · show ((((BitVec.ofBool true).setWidth 32).toInt : ℝ) : EReal) = 1
    rw [show ((BitVec.ofBool true).setWidth 32).toInt = 1 from by decide]; simp

/-- The zero block. -/
theorem pay1_apply (y : S1024x1.Idx) : k0_pay1 (F := Ideal) y = 0 := by
  unfold k0_pay1
  rw [shapeCast_self]
  exact Ideal.ofBits_zero_f32

/-- The count update at row `p`: the old count plus the number of the tile's entries above the threshold. -/
theorem pay2_apply (x0 : Vec Ideal S1024x2048 .f32) (xs : Vec Ideal S1024x1 .f32) (p : Fin 1024) (u : Fin 1) :
    k0_pay2 x0 xs (ix2 p u) = xs (ix2 p u) + ∑ k : Fin 2048, Cert.Spec.mask (x0 (ix2 p k)) := by
  unfold k0_pay2
  rw [shapeCast_self, addf_apply]
  refine congrArg (xs (ix2 p u) + ·) ?_
  refine (Cert.Lib.RowSum.rowsum_column _ _ _ _ _ p u).trans ?_
  refine Finset.sum_congr rfl fun k _ => ?_
  show FloatOps.sitofp (F := Ideal) .f32 ((BitVec.ofBool (decide (Ideal.ofBits .f32 0x26901D7D#32 < x0 (ix2 p k)))).setWidth 32) = _
  rw [indicator_word]
  unfold Cert.Spec.mask Cert.Spec.epsV
  by_cases h : Ideal.ofBits .f32 0x26901D7D#32 < x0 (ix2 p k)
  · rw [if_pos h]; simp [h]
  · rw [if_neg h]; simp [h]

/-- The degree scale at row `p`. -/
theorem pay3_apply (v : Vec Ideal S1024x1 .f32) (y : S1024x1.Idx) :
    k0_pay3 v y = Ideal.rsqrt (1 + v y) := by
  unfold k0_pay3
  show Ideal.rsqrt (Ideal.ofBits .f32 0x3F800000#32 + v y) = _
  rw [Cert.RefSide.one_word]

/-- The features at `(p, q)`: row `p` of the feature block against row `q` of the weights. -/
theorem pay4_apply (x1 : Vec Ideal S1024x256 .f32) (x2 : Vec Ideal S256x256 .f32) (p : Fin 1024) (q : Fin 256) :
    k0_pay4 x1 x2 (ix2 p q) = ∑ e : Fin 256, x1 (ix2 p e) * x2 (ix2 q e) := by
  unfold k0_pay4
  refine (Cert.PlainDot.matmul_zero_plain_apply (M := 1024) (K := 256) (N := 256) none _ _ p q).trans ?_
  refine Finset.sum_congr rfl fun e _ => ?_
  rw [transpose_ix2_apply]
  rfl

/-- The scaled features at `(p, q)`: the features there times row `p`'s degree scale. -/
theorem pay5_apply (v : Vec Ideal S1024x1 .f32) (x1 : Vec Ideal S1024x256 .f32) (x2 : Vec Ideal S256x256 .f32) (p : Fin 1024) (q : Fin 256) :
    k0_pay5 v x1 x2 (ix2 p q) = k0_pay4 x1 x2 (ix2 p q) * k0_pay3 v (ix2 p (0 : Fin 1)) := by
  unfold k0_pay5
  show (mulf (k0_pay4 x1 x2) (broadcastTo S1024x256 (k0_pay3 v) broadcasts_S1024x1_S1024x256)) (ix2 p q) = _
  rw [mulf_apply, Cert.Lib.VecIx2.bcast_col]

end Cert.KernelIdeal.Pay

end
-- ==== Proof.IdealR0Value.lean ====
/-
# The degree pass: its three result arrays as functions of the argument arrays

Along one row block the running count is restarted on the first column tile and continued on the next
three, so after the last column tile it is the four tile counts added in order from zero: the row's
edge count.  The pass then writes, for each row block, the degree scale `(1 + count)^(-1/2)`, the
features `x · Wᵀ` and their product row by row.  The eight row blocks cover the three result arrays.
-/
import proofs.«130060_j40785009443054_2_alg».proof.Proof.IdealR0Pieces
import proofs.«130060_j40785009443054_2_alg».proof.Proof.IdealPay0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx Cert.KernelIdeal.Pay

/-- Row `p` of row block `i`. -/
def rowF (i : Fin 8) (p : Fin 1024) : Fin 8192 := ⟨i.val * 1024 + p.val, by have := i.isLt; have := p.isLt; omega⟩

/-- The windows' block indices over the grid: row block `t / 4`, column tile `t % 4`. -/
theorem idx0 : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0
    ∧ win0_4.index t (0 : Fin 2) = t.val / 4 ∧ win0_4.index t (1 : Fin 2) = 0
    ∧ win0_5.index t (0 : Fin 2) = t.val / 4 ∧ win0_5.index t (1 : Fin 2) = 0 :=
  (by decide +kernel : ∀ t : Fin grid0.N, _)

section
variable (V : (c : Dev nD) → (b : Ref sig .tc) → Buf (Elt F) ((c : Thread nD τ).loc b))

/-! ## The blocks the body sees -/

/-- The adjacency tile at a point of row block `i`, column tile `j`. -/
theorem tile_entry (c : Dev nD) (t : Fin cfg0.N) (i : Fin 8) (j : Fin 4) (hi : t.val / 4 = i.val) (hj : t.val % 4 = j.val)
    (p : Fin 1024) (k : Fin 2048) :
    (iblk0 V c 0 t : Vec F S1024x2048 .f32) (ix2 p k) = V c main_arg1 (ix2 (rowF i p) (Cert.Spec.col j k)) := by
  unfold iblk0
  rw [View.read_apply]
  show V c main_arg1 (((cfg0.win 0).blk t).view.emb (ix2 p k)) = _
  refine congrArg (V c main_arg1) (funext fun a => Fin.ext ?_)
  obtain ⟨e0, e1, -⟩ := idx0 t
  match a with
  | ⟨0, _⟩ => show win0_0.index t (0 : Fin 2) * 1024 + 1 * p.val = i.val * 1024 + p.val; rw [e0, hi]; omega
  | ⟨1, _⟩ => show win0_0.index t (1 : Fin 2) * 2048 + 1 * k.val = j.val * 2048 + k.val; rw [e1, hj]; omega

/-- The feature block at a point of row block `i`. -/
theorem feat_entry (c : Dev nD) (t : Fin cfg0.N) (i : Fin 8) (hi : t.val / 4 = i.val) (p : Fin 1024) (e : Fin 256) :
    (iblk0 V c 1 t : Vec F S1024x256 .f32) (ix2 p e) = V c main_arg0 (ix2 (rowF i p) e) := by
  unfold iblk0
  rw [View.read_apply]
  show V c main_arg0 (((cfg0.win 1).blk t).view.emb (ix2 p e)) = _
  refine congrArg (V c main_arg0) (funext fun a => Fin.ext ?_)
  obtain ⟨-, -, e0, e1, -⟩ := idx0 t
  match a with
  | ⟨0, _⟩ => show win0_1.index t (0 : Fin 2) * 1024 + 1 * p.val = i.val * 1024 + p.val; rw [e0, hi]; omega
  | ⟨1, _⟩ => show win0_1.index t (1 : Fin 2) * 256 + 1 * e.val = e.val; rw [e1]; omega

/-- The weight matrix, whole at every point. -/
theorem weight_entry (c : Dev nD) (t : Fin cfg0.N) (q : Fin 256) (e : Fin 256) :
    (iblk0 V c 2 t : Vec F S256x256 .f32) (ix2 q e) = V c main_arg2 (ix2 q e) := by
  unfold iblk0
  rw [View.read_apply]
  show V c main_arg2 (((cfg0.win 2).blk t).view.emb (ix2 q e)) = _
  refine congrArg (V c main_arg2) (funext fun a => Fin.ext ?_)
  obtain ⟨-, -, -, -, e0, e1, -⟩ := idx0 t
  match a with
  | ⟨0, _⟩ => show win0_2.index t (0 : Fin 2) * 256 + 1 * q.val = q.val; rw [e0]; omega
  | ⟨1, _⟩ => show win0_2.index t (1 : Fin 2) * 256 + 1 * e.val = e.val; rw [e1]; omega

/-! ## The running count along a row block -/

/-- The running count after position `n`. -/
abbrev scr0 (c : Dev nD) (n : ℕ) (h : n < cfg0.N) : Vec F S1024x1 .f32 := (outsAt0 V c n h).2.2.2

/-- On a first column tile the count restarts from the zero block. -/
theorem scr0_first (c : Dev nD) (n : ℕ) (h : n < cfg0.N) (h0 : n % 4 = 0) :
    scr0 V c n h = k0_pay2 (iblk0 V c 0 ⟨n, h⟩) (k0_pay1 (F := F)) := by
  have h1 : ¬ n % 4 = 3 := by omega
  show (outsAt0 V c n h).2.2.2 = _
  rw [show outsAt0 V c n h = _ from outsAt0_A V c ⟨n, h⟩ h0 h1]
  dsimp only
  exact sout0_A_eq c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) ((hcond0_0 ⟨n, h⟩).mpr h0) (fun hh => h1 ((hcond0_1 ⟨n, h⟩).mp hh)) (iblk0 V c 0 ⟨n, h⟩)

/-- On every other column tile it continues from the position before. -/
theorem scr0_next (c : Dev nD) (n : ℕ) (h : n + 1 < cfg0.N) (h0 : ¬(n + 1) % 4 = 0) :
    scr0 V c (n + 1) h = k0_pay2 (iblk0 V c 0 ⟨n + 1, h⟩) (scr0 V c n (Nat.lt_of_succ_lt h)) := by
  show (outsAt0 V c (n + 1) h).2.2.2 = k0_pay2 (iblk0 V c 0 ⟨n + 1, h⟩) (outsAt0 V c n (Nat.lt_of_succ_lt h)).2.2.2
  by_cases h1 : (n + 1) % 4 = 3
  · rw [show outsAt0 V c (n + 1) h = _ from outsAt0_C V c ⟨n + 1, h⟩ h0 h1]
    dsimp only
    exact sout0_C_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) ((hcond0_1 ⟨n + 1, h⟩).mpr h1) (iblk0 V c 0 ⟨n + 1, h⟩) (iblk0 V c 1 ⟨n + 1, h⟩) (iblk0 V c 2 ⟨n + 1, h⟩) _
  · rw [show outsAt0 V c (n + 1) h = _ from outsAt0_B V c ⟨n + 1, h⟩ h0 h1]
    dsimp only
    exact sout0_B_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) (fun hh => h1 ((hcond0_1 ⟨n + 1, h⟩).mp hh)) (iblk0 V c 0 ⟨n + 1, h⟩) _

/-- The three blocks a last column tile writes, over the finished count. -/
theorem outs0_last (c : Dev nD) (n : ℕ) (h : n + 1 < cfg0.N) (h1 : (n + 1) % 4 = 3) :
    (outsAt0 V c (n + 1) h).1 = k0_pay5 (scr0 V c (n + 1) h) (iblk0 V c 1 ⟨n + 1, h⟩) (iblk0 V c 2 ⟨n + 1, h⟩)
    ∧ (outsAt0 V c (n + 1) h).2.1 = k0_pay3 (scr0 V c (n + 1) h)
    ∧ (outsAt0 V c (n + 1) h).2.2.1 = k0_pay4 (iblk0 V c 1 ⟨n + 1, h⟩) (iblk0 V c 2 ⟨n + 1, h⟩) := by
  have h0 : ¬(n + 1) % 4 = 0 := by omega
  rw [scr0_next V c n h h0]
  show (outsAt0 V c (n + 1) h).1 = k0_pay5 (k0_pay2 (iblk0 V c 0 ⟨n + 1, h⟩) (outsAt0 V c n (Nat.lt_of_succ_lt h)).2.2.2) _ _
    ∧ (outsAt0 V c (n + 1) h).2.1 = k0_pay3 (k0_pay2 (iblk0 V c 0 ⟨n + 1, h⟩) (outsAt0 V c n (Nat.lt_of_succ_lt h)).2.2.2)
    ∧ (outsAt0 V c (n + 1) h).2.2.1 = _
  rw [show outsAt0 V c (n + 1) h = _ from outsAt0_C V c ⟨n + 1, h⟩ h0 h1]
  dsimp only
  refine ⟨?_, ?_, ?_⟩
  · exact out0_C_3_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) ((hcond0_1 ⟨n + 1, h⟩).mpr h1) (iblk0 V c 0 ⟨n + 1, h⟩) (iblk0 V c 1 ⟨n + 1, h⟩) (iblk0 V c 2 ⟨n + 1, h⟩) _
  · exact out0_C_4_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) ((hcond0_1 ⟨n + 1, h⟩).mpr h1) (iblk0 V c 0 ⟨n + 1, h⟩) (iblk0 V c 1 ⟨n + 1, h⟩) (iblk0 V c 2 ⟨n + 1, h⟩) _
  · exact out0_C_5_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) ((hcond0_1 ⟨n + 1, h⟩).mpr h1) (iblk0 V c 0 ⟨n + 1, h⟩) (iblk0 V c 1 ⟨n + 1, h⟩) (iblk0 V c 2 ⟨n + 1, h⟩) _

end

/-! ## On the extended reals -/

section
variable (V : (c : Dev nD) → (b : Ref sig .tc) → Buf (Elt Ideal) ((c : Thread nD τ).loc b))

/-- The adjacency matrix, the features and the weights as the pass finds them, over plain coordinates. -/
abbrev adjOf (c : Dev nD) : Fin 8192 → Fin 8192 → EReal := fun r k => V c main_arg1 (ix2 r k)
abbrev featOf (c : Dev nD) : Fin 8192 → Fin 256 → EReal := fun r e => V c main_arg0 (ix2 r e)
abbrev wgtOf (c : Dev nD) : Fin 256 → Fin 256 → EReal := fun q e => V c main_arg2 (ix2 q e)

/-- One tile's contribution to the count of row `p` of row block `i`. -/
theorem tile_count (c : Dev nD) (t : Fin cfg0.N) (i : Fin 8) (j : Fin 4) (hi : t.val / 4 = i.val) (hj : t.val % 4 = j.val) (p : Fin 1024) :
    (∑ k : Fin 2048, Cert.Spec.mask ((iblk0 V c 0 t : Vec Ideal S1024x2048 .f32) (ix2 p k)))
      = Cert.Spec.tileCount (adjOf V c) (rowF i p) j := by
  unfold Cert.Spec.tileCount
  exact Finset.sum_congr rfl fun k _ => congrArg Cert.Spec.mask (tile_entry V c t i j hi hj p k)

/-- After the last column tile of row block `i` the running count of row `p` is the row's edge count. -/
theorem count_at (c : Dev nD) (i : Fin 8) (h : 4 * i.val + 1 + 1 + 1 < cfg0.N) (p : Fin 1024) (u : Fin 1) :
    scr0 V c (4 * i.val + 1 + 1 + 1) h (ix2 p u) = Cert.Spec.cnt (adjOf V c) (rowF i p) := by
  have h2 : 4 * i.val + 1 + 1 < cfg0.N := Nat.lt_of_succ_lt h
  have h1 : 4 * i.val + 1 < cfg0.N := Nat.lt_of_succ_lt h2
  have h0 : 4 * i.val < cfg0.N := Nat.lt_of_succ_lt h1
  have e0 : scr0 V c (4 * i.val) h0 (ix2 p u) = 0 + Cert.Spec.tileCount (adjOf V c) (rowF i p) 0 := by
    rw [scr0_first V c (4 * i.val) h0 (by omega)]
    refine (pay2_apply (iblk0 V c 0 ⟨4 * i.val, h0⟩) (k0_pay1 (F := Ideal)) p u).trans ?_
    rw [pay1_apply, tile_count V c ⟨4 * i.val, h0⟩ i 0 (by show 4 * i.val / 4 = i.val; omega) (by show 4 * i.val % 4 = 0; omega) p]
  have e1 : scr0 V c (4 * i.val + 1) h1 (ix2 p u) = 0 + Cert.Spec.tileCount (adjOf V c) (rowF i p) 0 + Cert.Spec.tileCount (adjOf V c) (rowF i p) 1 := by
    rw [scr0_next V c (4 * i.val) h1 (by omega)]
    refine (pay2_apply (iblk0 V c 0 ⟨4 * i.val + 1, h1⟩) (scr0 V c (4 * i.val) h0) p u).trans ?_
    rw [e0, tile_count V c ⟨4 * i.val + 1, h1⟩ i 1 (by show (4 * i.val + 1) / 4 = i.val; omega) (by show (4 * i.val + 1) % 4 = 1; omega) p]
  have e2 : scr0 V c (4 * i.val + 1 + 1) h2 (ix2 p u) = 0 + Cert.Spec.tileCount (adjOf V c) (rowF i p) 0 + Cert.Spec.tileCount (adjOf V c) (rowF i p) 1 + Cert.Spec.tileCount (adjOf V c) (rowF i p) 2 := by
    rw [scr0_next V c (4 * i.val + 1) h2 (by omega)]
    refine (pay2_apply (iblk0 V c 0 ⟨4 * i.val + 1 + 1, h2⟩) (scr0 V c (4 * i.val + 1) h1) p u).trans ?_
    rw [e1, tile_count V c ⟨4 * i.val + 1 + 1, h2⟩ i 2 (by show (4 * i.val + 1 + 1) / 4 = i.val; omega) (by show (4 * i.val + 1 + 1) % 4 = 2; omega) p]
  rw [scr0_next V c (4 * i.val + 1 + 1) h (by omega)]
  refine (pay2_apply (iblk0 V c 0 ⟨4 * i.val + 1 + 1 + 1, h⟩) (scr0 V c (4 * i.val + 1 + 1) h2) p u).trans ?_
  rw [e2, tile_count V c ⟨4 * i.val + 1 + 1 + 1, h⟩ i 3 (by show (4 * i.val + 1 + 1 + 1) / 4 = i.val; omega) (by show (4 * i.val + 1 + 1 + 1) % 4 = 3; omega) p]
  rfl

/-! ## The three result arrays -/

/-- The degree scale of every node, as contents of its array. -/
def degArr (c : Dev nD) : Buf (Elt Ideal) ((c : Thread nD τ).loc main_v0_1) := fun i => Cert.Spec.deg (adjOf V c) ⟨(i 0).val, (i 0).isLt⟩
/-- The features of every node, as contents of their array. -/
def linArr (c : Dev nD) : Buf (Elt Ideal) ((c : Thread nD τ).loc main_v0_2) := fun i => Cert.Spec.lin (featOf V c) (wgtOf V c) ⟨(i 0).val, (i 0).isLt⟩ ⟨(i 1).val, (i 1).isLt⟩
/-- The scaled features of every node, as contents of their array. -/
def hsArr (c : Dev nD) : Buf (Elt Ideal) ((c : Thread nD τ).loc main_v0_0) := fun i => Cert.Spec.hs (featOf V c) (adjOf V c) (wgtOf V c) ⟨(i 0).val, (i 0).isLt⟩ ⟨(i 1).val, (i 1).isLt⟩

/-- A point that writes back is the last column tile of its row block. -/
theorem flush_point (t : Fin cfg0.N) (h3 : t.val % 4 = 3) : ∃ (i : Fin 8) (h : 4 * i.val + 1 + 1 + 1 < cfg0.N), t = ⟨4 * i.val + 1 + 1 + 1, h⟩ := by
  have hN : cfg0.N = 32 := N_0
  have ht := t.isLt
  refine ⟨⟨t.val / 4, by omega⟩, by show 4 * (t.val / 4) + 1 + 1 + 1 < cfg0.N; omega, Fin.ext ?_⟩
  show t.val = 4 * (t.val / 4) + 1 + 1 + 1
  omega

theorem lin_at (c : Dev nD) (t : Fin cfg0.N) (i : Fin 8) (hi : t.val / 4 = i.val) (p : Fin 1024) (q : Fin 256) :
    k0_pay4 (iblk0 V c 1 t) (iblk0 V c 2 t) (ix2 p q) = Cert.Spec.lin (featOf V c) (wgtOf V c) (rowF i p) q := by
  refine (pay4_apply (iblk0 V c 1 t) (iblk0 V c 2 t) p q).trans ?_
  unfold Cert.Spec.lin
  refine Finset.sum_congr rfl fun e _ => ?_
  rw [feat_entry V c t i hi p e, weight_entry V c t q e]

theorem deg_at (c : Dev nD) (i : Fin 8) (h : 4 * i.val + 1 + 1 + 1 < cfg0.N) (p : Fin 1024) (u : Fin 1) :
    k0_pay3 (scr0 V c (4 * i.val + 1 + 1 + 1) h) (ix2 p u) = Cert.Spec.deg (adjOf V c) (rowF i p) := by
  rw [pay3_apply, count_at V c i h p u]
  rfl

/-- What a write-back of the degree-scale window writes is its block of `degArr`. -/
theorem flushed4_eq (c : Dev nD) (t : Fin cfg0.N) (hf : (cfg0.win 4).flush t = true) :
    (dat0 V c).flushed 4 t = ((cfg0.win 4).blk t).view.read (Elt Ideal) (degArr V c) := by
  obtain ⟨i, h, rfl⟩ := flush_point t ((flush0_4 t).mp hf)
  show (cfg0.win 4).cut (grid0.coords _) ((dat0 V c).after 4 _) = _
  rw [after0_4]
  rw [(outs0_last V c (4 * i.val + 1 + 1) h (by show (4 * i.val + 1 + 1 + 1) % 4 = 3; omega)).2.1]
  funext y
  obtain ⟨p, u, rfl⟩ : ∃ (p : Fin 1024) (u : Fin 1), y = ix2 p u := ⟨y 0, y 1, eq_ix2 y⟩
  refine (deg_at V c i h p u).trans ?_
  rw [View.read_apply]
  unfold degArr
  obtain ⟨-, -, -, -, -, -, -, -, e0, -⟩ := idx0 ⟨4 * i.val + 1 + 1 + 1, h⟩
  refine congrArg (Cert.Spec.deg (adjOf V c)) (Fin.ext ?_)
  show i.val * 1024 + p.val = win0_4.index ⟨4 * i.val + 1 + 1 + 1, h⟩ (0 : Fin 2) * 1024 + 1 * p.val
  rw [e0]; show i.val * 1024 + p.val = (4 * i.val + 1 + 1 + 1) / 4 * 1024 + 1 * p.val; omega

/-- What a write-back of the features window writes is its block of `linArr`. -/
theorem flushed5_eq (c : Dev nD) (t : Fin cfg0.N) (hf : (cfg0.win 5).flush t = true) :
    (dat0 V c).flushed 5 t = ((cfg0.win 5).blk t).view.read (Elt Ideal) (linArr V c) := by
  obtain ⟨i, h, rfl⟩ := flush_point t ((flush0_5 t).mp hf)
  show (cfg0.win 5).cut (grid0.coords _) ((dat0 V c).after 5 _) = _
  rw [after0_5]
  rw [(outs0_last V c (4 * i.val + 1 + 1) h (by show (4 * i.val + 1 + 1 + 1) % 4 = 3; omega)).2.2]
  funext y
  obtain ⟨p, q, rfl⟩ : ∃ (p : Fin 1024) (q : Fin 256), y = ix2 p q := ⟨y 0, y 1, eq_ix2 y⟩
  refine (lin_at V c ⟨4 * i.val + 1 + 1 + 1, h⟩ i (by show (4 * i.val + 1 + 1 + 1) / 4 = i.val; omega) p q).trans ?_
  rw [View.read_apply]
  unfold linArr
  obtain ⟨-, -, -, -, -, -, -, -, -, -, e0, e1⟩ := idx0 ⟨4 * i.val + 1 + 1 + 1, h⟩
  refine congrArg₂ (Cert.Spec.lin (featOf V c) (wgtOf V c)) (Fin.ext ?_) (Fin.ext ?_)
  · show i.val * 1024 + p.val = win0_5.index ⟨4 * i.val + 1 + 1 + 1, h⟩ (0 : Fin 2) * 1024 + 1 * p.val
    rw [e0]; show i.val * 1024 + p.val = (4 * i.val + 1 + 1 + 1) / 4 * 1024 + 1 * p.val; omega
  · show q.val = win0_5.index ⟨4 * i.val + 1 + 1 + 1, h⟩ (1 : Fin 2) * 256 + 1 * q.val
    rw [e1]; omega

/-- What a write-back of the scaled-features window writes is its block of `hsArr`. -/
theorem flushed3_eq (c : Dev nD) (t : Fin cfg0.N) (hf : (cfg0.win 3).flush t = true) :
    (dat0 V c).flushed 3 t = ((cfg0.win 3).blk t).view.read (Elt Ideal) (hsArr V c) := by
  obtain ⟨i, h, rfl⟩ := flush_point t ((flush0_3 t).mp hf)
  show (cfg0.win 3).cut (grid0.coords _) ((dat0 V c).after 3 _) = _
  rw [after0_3]
  rw [(outs0_last V c (4 * i.val + 1 + 1) h (by show (4 * i.val + 1 + 1 + 1) % 4 = 3; omega)).1]
  funext y
  obtain ⟨p, q, rfl⟩ : ∃ (p : Fin 1024) (q : Fin 256), y = ix2 p q := ⟨y 0, y 1, eq_ix2 y⟩
  refine (pay5_apply (scr0 V c (4 * i.val + 1 + 1 + 1) h) (iblk0 V c 1 ⟨4 * i.val + 1 + 1 + 1, h⟩) (iblk0 V c 2 ⟨4 * i.val + 1 + 1 + 1, h⟩) p q).trans ?_
  rw [lin_at V c ⟨4 * i.val + 1 + 1 + 1, h⟩ i (by show (4 * i.val + 1 + 1 + 1) / 4 = i.val; omega) p q, deg_at V c i h p 0]
  rw [View.read_apply]
  unfold hsArr
  obtain ⟨-, -, -, -, -, -, e0, e1, -⟩ := idx0 ⟨4 * i.val + 1 + 1 + 1, h⟩
  show Cert.Spec.hs (featOf V c) (adjOf V c) (wgtOf V c) (rowF i p) q = _
  refine congrArg₂ (Cert.Spec.hs (featOf V c) (adjOf V c) (wgtOf V c)) (Fin.ext ?_) (Fin.ext ?_)
  · show i.val * 1024 + p.val = win0_3.index ⟨4 * i.val + 1 + 1 + 1, h⟩ (0 : Fin 2) * 1024 + 1 * p.val
    rw [e0]; show i.val * 1024 + p.val = (4 * i.val + 1 + 1 + 1) / 4 * 1024 + 1 * p.val; omega
  · show q.val = win0_3.index ⟨4 * i.val + 1 + 1 + 1, h⟩ (1 : Fin 2) * 256 + 1 * q.val
    rw [e1]; omega

theorem mem_blk0_4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v0_1).slice (win0_4.rect t)).set ↔ _
  rw [View.set_slice_whole, Rect.mem_set_unit]
  exact Iff.rfl

/-- The eight row blocks cover the array, so it ends holding `degArr`. -/
theorem final0_4 (c : Dev nD) : (dat0 V c).arrAt 4 cfg0.N = degArr V c :=
  (dat0 V c).arrAt_eq_of_cover 4 (degArr V c) (flushed4_eq V c) fun i => by
    have hN : cfg0.N = 32 := N_0
    have hi0 : (i 0).val < 8192 := (i 0).isLt
    have hi1 : (i 1).val < 1 := (i 1).isLt
    have ht : 4 * ((i 0).val / 1024) + 3 < cfg0.N := by omega
    obtain ⟨-, -, -, -, -, -, -, -, e0, e1, -⟩ := idx0 ⟨4 * ((i 0).val / 1024) + 3, ht⟩
    refine ⟨⟨4 * ((i 0).val / 1024) + 3, ht⟩, (flush0_4 _).mpr (by show (4 * ((i 0).val / 1024) + 3) % 4 = 3; omega), ?_⟩
    rw [mem_blk0_4]
    intro a
    match a with
    | ⟨0, _⟩ =>
      show win0_4.index ⟨4 * ((i 0).val / 1024) + 3, ht⟩ (0 : Fin 2) * 1024 ≤ (i 0).val ∧ (i 0).val < win0_4.index ⟨4 * ((i 0).val / 1024) + 3, ht⟩ (0 : Fin 2) * 1024 + 1024
      rw [e0]; show (4 * ((i 0).val / 1024) + 3) / 4 * 1024 ≤ (i 0).val ∧ (i 0).val < (4 * ((i 0).val / 1024) + 3) / 4 * 1024 + 1024; omega
    | ⟨1, _⟩ =>
      show win0_4.index ⟨4 * ((i 0).val / 1024) + 3, ht⟩ (1 : Fin 2) * 1 ≤ (i 1).val ∧ (i 1).val < win0_4.index ⟨4 * ((i 0).val / 1024) + 3, ht⟩ (1 : Fin 2) * 1 + 1
      rw [e1]; omega

theorem mem_blk0_5 (t : Fin cfg0.N) (i : S8192x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v0_2).slice (win0_5.rect t)).set ↔ _
  rw [View.set_slice_whole, Rect.mem_set_unit]
  exact Iff.rfl

/-- The eight row blocks cover the array, so it ends holding `linArr`. -/
theorem final0_5 (c : Dev nD) : (dat0 V c).arrAt 5 cfg0.N = linArr V c :=
  (dat0 V c).arrAt_eq_of_cover 5 (linArr V c) (flushed5_eq V c) fun i => by
    have hN : cfg0.N = 32 := N_0
    have hi0 : (i 0).val < 8192 := (i 0).isLt
    have hi1 : (i 1).val < 256 := (i 1).isLt
    have ht : 4 * ((i 0).val / 1024) + 3 < cfg0.N := by omega
    obtain ⟨-, -, -, -, -, -, -, -, -, -, e0, e1⟩ := idx0 ⟨4 * ((i 0).val / 1024) + 3, ht⟩
    refine ⟨⟨4 * ((i 0).val / 1024) + 3, ht⟩, (flush0_5 _).mpr (by show (4 * ((i 0).val / 1024) + 3) % 4 = 3; omega), ?_⟩
    rw [mem_blk0_5]
    intro a
    match a with
    | ⟨0, _⟩ =>
      show win0_5.index ⟨4 * ((i 0).val / 1024) + 3, ht⟩ (0 : Fin 2) * 1024 ≤ (i 0).val ∧ (i 0).val < win0_5.index ⟨4 * ((i 0).val / 1024) + 3, ht⟩ (0 : Fin 2) * 1024 + 1024
      rw [e0]; show (4 * ((i 0).val / 1024) + 3) / 4 * 1024 ≤ (i 0).val ∧ (i 0).val < (4 * ((i 0).val / 1024) + 3) / 4 * 1024 + 1024; omega
    | ⟨1, _⟩ =>
      show win0_5.index ⟨4 * ((i 0).val / 1024) + 3, ht⟩ (1 : Fin 2) * 256 ≤ (i 1).val ∧ (i 1).val < win0_5.index ⟨4 * ((i 0).val / 1024) + 3, ht⟩ (1 : Fin 2) * 256 + 256
      rw [e1]; omega

theorem mem_blk0_3 (t : Fin cfg0.N) (i : S8192x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v0_0).slice (win0_3.rect t)).set ↔ _
  rw [View.set_slice_whole, Rect.mem_set_unit]
  exact Iff.rfl

/-- The eight row blocks cover the array, so it ends holding `hsArr`. -/
theorem final0_3 (c : Dev nD) : (dat0 V c).arrAt 3 cfg0.N = hsArr V c :=
  (dat0 V c).arrAt_eq_of_cover 3 (hsArr V c) (flushed3_eq V c) fun i => by
    have hN : cfg0.N = 32 := N_0
    have hi0 : (i 0).val < 8192 := (i 0).isLt
    have hi1 : (i 1).val < 256 := (i 1).isLt
    have ht : 4 * ((i 0).val / 1024) + 3 < cfg0.N := by omega
    obtain ⟨-, -, -, -, -, -, e0, e1, -⟩ := idx0 ⟨4 * ((i 0).val / 1024) + 3, ht⟩
    refine ⟨⟨4 * ((i 0).val / 1024) + 3, ht⟩, (flush0_3 _).mpr (by show (4 * ((i 0).val / 1024) + 3) % 4 = 3; omega), ?_⟩
    rw [mem_blk0_3]
    intro a
    match a with
    | ⟨0, _⟩ =>
      show win0_3.index ⟨4 * ((i 0).val / 1024) + 3, ht⟩ (0 : Fin 2) * 1024 ≤ (i 0).val ∧ (i 0).val < win0_3.index ⟨4 * ((i 0).val / 1024) + 3, ht⟩ (0 : Fin 2) * 1024 + 1024
      rw [e0]; show (4 * ((i 0).val / 1024) + 3) / 4 * 1024 ≤ (i 0).val ∧ (i 0).val < (4 * ((i 0).val / 1024) + 3) / 4 * 1024 + 1024; omega
    | ⟨1, _⟩ =>
      show win0_3.index ⟨4 * ((i 0).val / 1024) + 3, ht⟩ (1 : Fin 2) * 256 ≤ (i 1).val ∧ (i 1).val < win0_3.index ⟨4 * ((i 0).val / 1024) + 3, ht⟩ (1 : Fin 2) * 256 + 256
      rw [e1]; omega

end

end Cert.KernelIdeal.Hand

end
-- ==== Proof.IdealR1Pieces.lean ====
/-
# The product pass: each case's contents as the body's arithmetic

What a case of the body leaves in a buffer is the value its last covering store wrote, with every
load replaced by what the loaded buffer held: the tile, the matching 2048 rows of the scaled features,
the running product before the point, or — on a first column tile — the zero block just stored.
-/
import proofs.«130060_j40785009443054_2_alg».proof.Proof.IdealR1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz2' : (![0, 0] : Fin 2 → Nat) = fun _ => 0 := funext fun a => by fin_cases a <;> rfl

/-- The 2048 rows of the scaled features that the point's column tile meets. -/
def hsRows (i : grid1.Coords) (x1 : Vec F S8192x256 .bf16) : Vec F S2048x256 .bf16 :=
  View.ld x1 (Rect.unit (s := S8192x256) (k1_off1 i) S2048x256.size (k1_off1_inb i))

/-- After a first column tile the running product is the tile's partial product added to the zero block. -/
theorem sout1_A_eq (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x2048 .f32) (x1 : Vec F S8192x256 .bf16) :
    sout1_A c i arg2 harg2 arg3 harg3 arg4 harg4 arg5 harg5 arg6 harg6 arg7 harg7 hc0 hc1 x0 x1 = k1_pay2 x0 (hsRows i x1) (k1_pay1 (F := F)) := by
  unfold sout1_A
  rw [View.read_writes_eq_canon _ _ _ (scover1_A c i arg2 harg2 arg3 harg3 arg4 harg4 arg5 harg5 arg6 harg6 arg7 harg7 hc0 hc1 x0 x1)]
  unfold kernelRun1_A
  dsimp only
  sl_unfold_words
  rw [View.canon_cons_unit_zero (S := S1024x256) hz2', View.readCov_unit_zero (S := S1024x256) _ hz2']
  simp only [View.readCov_unit_zero (S := S1024x256) _ hz2', View.readAt_eq_ld, harg2.read_unread, harg3.read_unread, harg4.read_unread, harg5.read_unread, harg7.read_unread, View.ld_unit_zero (S := S1024x2048) hz2', View.ld_unit_zero (S := S1024x256) hz2', View.ld_unit_zero (S := S1024x1) hz2']
  rfl

/-- After a middle column tile the running product is the tile's partial product added to the product before. -/
theorem sout1_B_eq (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x2048 .f32) (x1 : Vec F S8192x256 .bf16) (xs0 : Vec F S1024x256 .f32) :
    sout1_B c i arg2 harg2 arg3 harg3 arg4 harg4 arg5 harg5 arg6 harg6 arg7 harg7 hc0 hc1 x0 x1 xs0 = k1_pay2 x0 (hsRows i x1) xs0 := by
  unfold sout1_B
  rw [View.read_writes_eq_canon _ _ _ (scover1_B c i arg2 harg2 arg3 harg3 arg4 harg4 arg5 harg5 arg6 harg6 arg7 harg7 hc0 hc1 x0 x1 xs0)]
  unfold kernelRun1_B
  dsimp only
  sl_unfold_words
  rw [View.canon_unit_zero hz2']
  simp only [View.readCov_unit_zero (S := S1024x256) _ hz2', View.readAt_eq_ld, harg2.read_unread, harg3.read_unread, harg4.read_unread, harg5.read_unread, harg7.read_unread, View.ld_unit_zero (S := S1024x2048) hz2', View.ld_unit_zero (S := S1024x256) hz2', View.ld_unit_zero (S := S1024x1) hz2']
  rfl

section CaseC
variable (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i)
  (x0 : Vec F S1024x2048 .f32) (x1 : Vec F S8192x256 .bf16) (x2 : Vec F S1024x256 .f32) (x3 : Vec F S1024x1 .f32) (xs0 : Vec F S1024x256 .f32)

/-- After a last column tile the running product is the tile's partial product added to the product before. -/
theorem sout1_C_eq : sout1_C c i arg2 harg2 arg3 harg3 arg4 harg4 arg5 harg5 arg6 harg6 arg7 harg7 hc0 hc1 x0 x1 x2 x3 xs0 = k1_pay2 x0 (hsRows i x1) xs0 := by
  unfold sout1_C
  rw [View.read_writes_eq_canon _ _ _ (scover1_C c i arg2 harg2 arg3 harg3 arg4 harg4 arg5 harg5 arg6 harg6 arg7 harg7 hc0 hc1 x0 x1 x2 x3 xs0)]
  unfold kernelRun1_C
  dsimp only
  sl_unfold_words
  rw [View.canon_unit_zero hz2']
  simp only [View.readCov_unit_zero (S := S1024x256) _ hz2', View.readAt_eq_ld, harg2.read_unread, harg3.read_unread, harg4.read_unread, harg5.read_unread, harg7.read_unread, View.ld_unit_zero (S := S1024x2048) hz2', View.ld_unit_zero (S := S1024x256) hz2', View.ld_unit_zero (S := S1024x1) hz2']
  rfl

/-- The output block: the finished product plus the node's own scaled features, scaled by the degree scale and
    clamped at zero. -/
theorem out1_C_4_eq : out1_C_4 c i arg2 harg2 arg3 harg3 arg4 harg4 arg5 harg5 arg6 harg6 arg7 harg7 hc0 hc1 x0 x1 x2 x3 xs0 = k1_pay3 (k1_pay2 x0 (hsRows i x1) xs0) x3 x2 x3 := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_words
  rw [View.canon_unit_zero hz2']
  simp only [View.readCov_unit_zero (S := S1024x256) _ hz2', View.readAt_eq_ld, harg2.read_unread, harg3.read_unread, harg4.read_unread, harg5.read_unread, harg7.read_unread, View.ld_unit_zero (S := S1024x2048) hz2', View.ld_unit_zero (S := S1024x256) hz2', View.ld_unit_zero (S := S1024x1) hz2']
  rfl
end CaseC

end Cert.KernelIdeal.Hand

end
-- ==== Proof.IdealPay1.lean ====
/-
# The message-passing pass's arithmetic, entry by entry, on the extended reals

Each value the body stores is read at a row `p` and a column `q`: the zero block is zero; the accumulator
update adds to the old accumulator the product of row `p` of the adjacency tile with column `q` of the tile's
rows of the scaled features, `∑ k, A (p, k) · hs (k, q)`; the result is the positive part of
`(accumulator + d p · h (p, q)) · d p`, the column of degree scales read at row `p` whatever the column `q`.
Changes of float format and casts to the same shape do nothing on the extended reals.
-/
import proofs.«130060_j40785009443054_2_alg».proof.Proof.Gen.KernelIdeal.Skeleton
import proofs.«130060_j40785009443054_2_alg».proof.Proof.LibPlainDot
import proofs.«130060_j40785009443054_2_alg».proof.Proof.LibVecIx2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pay

open Cert.KernelIdeal Cert.KernelIdeal.Gen
open Idealize.ShloMosaic Idealize.ShloMosaic.ValueIdx

/-- The zero block. -/
theorem k1_pay1_apply (y : S1024x256.Idx) : k1_pay1 (F := Ideal) y = 0 := by
  unfold k1_pay1
  rw [shapeCast_self]
  exact Ideal.ofBits_zero_f32

/-- The accumulator update at `(p, q)`: the old accumulator plus row `p` of the adjacency tile against column `q` of
    the scaled features. -/
theorem k1_pay2_apply (x0 : Vec Ideal S1024x2048 .f32) (v8 : Vec Ideal S2048x256 .bf16) (v10 : Vec Ideal S1024x256 .f32)
    (p : Fin 1024) (q : Fin 256) :
    k1_pay2 x0 v8 v10 (ix2 p q) = v10 (ix2 p q) + ∑ k : Fin 2048, x0 (ix2 p k) * v8 (ix2 k q) := by
  unfold k1_pay2
  rw [shapeCast_self, addf_apply]
  refine congrArg (v10 (ix2 p q) + ·) ?_
  refine (Cert.PlainDot.matmul_zero_plain_apply (M := 1024) (K := 2048) (N := 256) none _ _ p q).trans ?_
  refine Finset.sum_congr rfl fun k _ => ?_
  rw [shapeCast_self]
  rfl

/-- The result at `(p, q)`: the positive part of the accumulator plus the node's own scaled features, scaled once more. -/
theorem k1_pay3_apply (v19 : Vec Ideal S1024x256 .f32) (v20 : Vec Ideal S1024x1 .f32) (v22 : Vec Ideal S1024x256 .f32)
    (v27 : Vec Ideal S1024x1 .f32) (p : Fin 1024) (q : Fin 256) :
    k1_pay3 v19 v20 v22 v27 (ix2 p q)
      = max ((v19 (ix2 p q) + v20 (ix2 p (0 : Fin 1)) * v22 (ix2 p q)) * v27 (ix2 p (0 : Fin 1))) 0 := by
  unfold k1_pay3
  rw [maximumf_apply, mulf_apply, addf_apply, mulf_apply, Cert.Lib.VecIx2.bcast_col, Cert.Lib.VecIx2.bcast_col,
    shapeCast_self, shapeCast_self, shapeCast_self]
  show max _ (Ideal.ofBits .f32 0x00000000#32) = _
  rw [Ideal.ofBits_zero_f32]

end Cert.KernelIdeal.Pay

end
-- ==== Proof.IdealR1Value.lean ====
/-
# The product pass: its result array as a function of the arrays it is entered with

Along one row block the running product is restarted on the first column tile and continued on the next
three, so after the last column tile it is the four partial products added in order from zero: the row of
the adjacency matrix against the scaled features.  The pass then adds the node's own scaled features,
scales by the degree scale and clamps at zero.  The eight row blocks cover the result array.
-/
import proofs.«130060_j40785009443054_2_alg».proof.Proof.IdealR1Pieces
import proofs.«130060_j40785009443054_2_alg».proof.Proof.IdealPay1
import proofs.«130060_j40785009443054_2_alg».proof.Proof.IdealR0Value
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx Cert.KernelIdeal.Pay

/-- One column tile's part of row `r` of a matrix against column `q` of another. -/
def tileDotG (A : Fin 8192 → Fin 8192 → EReal) (HS : Fin 8192 → Fin 256 → EReal) (r : Fin 8192) (q : Fin 256) (j : Fin 4) : EReal :=
  ∑ k : Fin 2048, A r (Cert.Spec.col j k) * HS (Cert.Spec.col j k) q
/-- The four parts added in order from zero. -/
def accG (A : Fin 8192 → Fin 8192 → EReal) (HS : Fin 8192 → Fin 256 → EReal) (r : Fin 8192) (q : Fin 256) : EReal :=
  (((0 + tileDotG A HS r q 0) + tileDotG A HS r q 1) + tileDotG A HS r q 2) + tileDotG A HS r q 3
/-- The pass's result at `(r, q)` from the adjacency matrix, the scaled features, the features and the degree scale. -/
def outG (A : Fin 8192 → Fin 8192 → EReal) (HS H : Fin 8192 → Fin 256 → EReal) (D : Fin 8192 → EReal) (r : Fin 8192) (q : Fin 256) : EReal :=
  max ((accG A HS r q + D r * H r q) * D r) 0

/-- The windows' block indices over the grid: row block `t / 4`, column tile `t % 4`. -/
theorem idx1 : ∀ t : Fin cfg1.N, win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0
    ∧ win1_4.index t (0 : Fin 2) = t.val / 4 ∧ win1_4.index t (1 : Fin 2) = 0 :=
  (by decide +kernel : ∀ t : Fin grid1.N, _)

/-- The rows of the scaled features a point's column tile meets start at `(t % 4) · 2048`. -/
theorem offs1 : ∀ t : Fin cfg1.N, k1_off1 (grid1.coords t) (0 : Fin 2) = t.val % 4 * 2048 ∧ k1_off1 (grid1.coords t) (1 : Fin 2) = 0 :=
  (by decide +kernel : ∀ t : Fin grid1.N, _)

section
variable (V : (c : Dev nD) → (b : Ref sig .tc) → Buf (Elt F) ((c : Thread nD τ).loc b))

/-! ## The blocks the body sees -/

theorem tile_entry1 (c : Dev nD) (t : Fin cfg1.N) (i : Fin 8) (j : Fin 4) (hi : t.val / 4 = i.val) (hj : t.val % 4 = j.val)
    (p : Fin 1024) (k : Fin 2048) :
    (iblk1 V c 0 t : Vec F S1024x2048 .f32) (ix2 p k) = V c main_arg1 (ix2 (rowF i p) (Cert.Spec.col j k)) := by
  unfold iblk1
  rw [View.read_apply]
  show V c main_arg1 (((cfg1.win 0).blk t).view.emb (ix2 p k)) = _
  refine congrArg (V c main_arg1) (funext fun a => Fin.ext ?_)
  obtain ⟨e0, e1, -⟩ := idx1 t
  match a with
  | ⟨0, _⟩ => show win1_0.index t (0 : Fin 2) * 1024 + 1 * p.val = i.val * 1024 + p.val; rw [e0, hi]; omega
  | ⟨1, _⟩ => show win1_0.index t (1 : Fin 2) * 2048 + 1 * k.val = j.val * 2048 + k.val; rw [e1, hj]; omega

theorem hsall_entry (c : Dev nD) (t : Fin cfg1.N) (r : Fin 8192) (q : Fin 256) :
    (iblk1 V c 1 t : Vec F S8192x256 .bf16) (ix2 r q) = V c main_v0_0 (ix2 r q) := by
  unfold iblk1
  rw [View.read_apply]
  show V c main_v0_0 (((cfg1.win 1).blk t).view.emb (ix2 r q)) = _
  refine congrArg (V c main_v0_0) (funext fun a => Fin.ext ?_)
  obtain ⟨-, -, e0, e1, -⟩ := idx1 t
  match a with
  | ⟨0, _⟩ => show win1_1.index t (0 : Fin 2) * 8192 + 1 * r.val = r.val; rw [e0]; omega
  | ⟨1, _⟩ => show win1_1.index t (1 : Fin 2) * 256 + 1 * q.val = q.val; rw [e1]; omega

theorem h_entry (c : Dev nD) (t : Fin cfg1.N) (i : Fin 8) (hi : t.val / 4 = i.val) (p : Fin 1024) (q : Fin 256) :
    (iblk1 V c 2 t : Vec F S1024x256 .f32) (ix2 p q) = V c main_v0_2 (ix2 (rowF i p) q) := by
  unfold iblk1
  rw [View.read_apply]
  show V c main_v0_2 (((cfg1.win 2).blk t).view.emb (ix2 p q)) = _
  refine congrArg (V c main_v0_2) (funext fun a => Fin.ext ?_)
  obtain ⟨-, -, -, -, e0, e1, -⟩ := idx1 t
  match a with
  | ⟨0, _⟩ => show win1_2.index t (0 : Fin 2) * 1024 + 1 * p.val = i.val * 1024 + p.val; rw [e0, hi]; omega
  | ⟨1, _⟩ => show win1_2.index t (1 : Fin 2) * 256 + 1 * q.val = q.val; rw [e1]; omega

theorem d_entry (c : Dev nD) (t : Fin cfg1.N) (i : Fin 8) (hi : t.val / 4 = i.val) (p : Fin 1024) (u : Fin 1) :
    (iblk1 V c 3 t : Vec F S1024x1 .f32) (ix2 p u) = V c main_v0_1 (ix2 (rowF i p) u) := by
  unfold iblk1
  rw [View.read_apply]
  show V c main_v0_1 (((cfg1.win 3).blk t).view.emb (ix2 p u)) = _
  refine congrArg (V c main_v0_1) (funext fun a => Fin.ext ?_)
  obtain ⟨-, -, -, -, -, -, e0, e1, -⟩ := idx1 t
  match a with
  | ⟨0, _⟩ => show win1_3.index t (0 : Fin 2) * 1024 + 1 * p.val = i.val * 1024 + p.val; rw [e0, hi]; omega
  | ⟨1, _⟩ => show win1_3.index t (1 : Fin 2) * 1 + 1 * u.val = u.val; rw [e1]; omega

theorem hsRows_entry (t : Fin cfg1.N) (j : Fin 4) (hj : t.val % 4 = j.val) (x1 : Vec F S8192x256 .bf16) (k : Fin 2048) (q : Fin 256) :
    hsRows (grid1.coords t) x1 (ix2 k q) = x1 (ix2 (Cert.Spec.col j k) q) := by
  unfold hsRows
  show x1 ((Rect.unit (s := S8192x256) (k1_off1 (grid1.coords t)) S2048x256.size (k1_off1_inb (grid1.coords t))).emb (ix2 k q)) = _
  refine congrArg x1 (funext fun a => Fin.ext ?_)
  obtain ⟨e0, e1⟩ := offs1 t
  match a with
  | ⟨0, _⟩ => show k1_off1 (grid1.coords t) (0 : Fin 2) + 1 * k.val = j.val * 2048 + k.val; rw [e0, hj]; omega
  | ⟨1, _⟩ => show k1_off1 (grid1.coords t) (1 : Fin 2) + 1 * q.val = q.val; rw [e1]; omega

/-! ## The running product along a row block -/

abbrev scr1 (c : Dev nD) (n : ℕ) (h : n < cfg1.N) : Vec F S1024x256 .f32 := (outsAt1 V c n h).2

theorem scr1_first (c : Dev nD) (n : ℕ) (h : n < cfg1.N) (h0 : n % 4 = 0) :
    scr1 V c n h = k1_pay2 (iblk1 V c 0 ⟨n, h⟩) (hsRows (grid1.coords ⟨n, h⟩) (iblk1 V c 1 ⟨n, h⟩)) (k1_pay1 (F := F)) := by
  have h1 : ¬ n % 4 = 3 := by omega
  show (outsAt1 V c n h).2 = _
  rw [show outsAt1 V c n h = _ from outsAt1_A V c ⟨n, h⟩ h0 h1]
  dsimp only
  exact sout1_A_eq c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) scM1_0 (Memref.isWhole_whole _) ((hcond1_0 ⟨n, h⟩).mpr h0) (fun hh => h1 ((hcond1_1 ⟨n, h⟩).mp hh)) (iblk1 V c 0 ⟨n, h⟩) (iblk1 V c 1 ⟨n, h⟩)

theorem scr1_next (c : Dev nD) (n : ℕ) (h : n + 1 < cfg1.N) (h0 : ¬(n + 1) % 4 = 0) :
    scr1 V c (n + 1) h = k1_pay2 (iblk1 V c 0 ⟨n + 1, h⟩) (hsRows (grid1.coords ⟨n + 1, h⟩) (iblk1 V c 1 ⟨n + 1, h⟩)) (scr1 V c n (Nat.lt_of_succ_lt h)) := by
  show (outsAt1 V c (n + 1) h).2 = k1_pay2 (iblk1 V c 0 ⟨n + 1, h⟩) (hsRows (grid1.coords ⟨n + 1, h⟩) (iblk1 V c 1 ⟨n + 1, h⟩)) (outsAt1 V c n (Nat.lt_of_succ_lt h)).2
  by_cases h1 : (n + 1) % 4 = 3
  · rw [show outsAt1 V c (n + 1) h = _ from outsAt1_C V c ⟨n + 1, h⟩ h0 h1]
    dsimp only
    exact sout1_C_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) scM1_0 (Memref.isWhole_whole _) (fun hh => h0 ((hcond1_0 ⟨n + 1, h⟩).mp hh)) ((hcond1_1 ⟨n + 1, h⟩).mpr h1) (iblk1 V c 0 ⟨n + 1, h⟩) (iblk1 V c 1 ⟨n + 1, h⟩) (iblk1 V c 2 ⟨n + 1, h⟩) (iblk1 V c 3 ⟨n + 1, h⟩) _
  · rw [show outsAt1 V c (n + 1) h = _ from outsAt1_B V c ⟨n + 1, h⟩ h0 h1]
    dsimp only
    exact sout1_B_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) scM1_0 (Memref.isWhole_whole _) (fun hh => h0 ((hcond1_0 ⟨n + 1, h⟩).mp hh)) (fun hh => h1 ((hcond1_1 ⟨n + 1, h⟩).mp hh)) (iblk1 V c 0 ⟨n + 1, h⟩) (iblk1 V c 1 ⟨n + 1, h⟩) _

theorem out1_last (c : Dev nD) (n : ℕ) (h : n + 1 < cfg1.N) (h1 : (n + 1) % 4 = 3) :
    (outsAt1 V c (n + 1) h).1 = k1_pay3 (scr1 V c (n + 1) h) (iblk1 V c 3 ⟨n + 1, h⟩) (iblk1 V c 2 ⟨n + 1, h⟩) (iblk1 V c 3 ⟨n + 1, h⟩) := by
  have h0 : ¬(n + 1) % 4 = 0 := by omega
  rw [scr1_next V c n h h0]
  show (outsAt1 V c (n + 1) h).1 = k1_pay3 (k1_pay2 (iblk1 V c 0 ⟨n + 1, h⟩) (hsRows (grid1.coords ⟨n + 1, h⟩) (iblk1 V c 1 ⟨n + 1, h⟩)) (outsAt1 V c n (Nat.lt_of_succ_lt h)).2) _ _ _
  rw [show outsAt1 V c (n + 1) h = _ from outsAt1_C V c ⟨n + 1, h⟩ h0 h1]
  dsimp only
  exact out1_C_4_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) scM1_0 (Memref.isWhole_whole _) (fun hh => h0 ((hcond1_0 ⟨n + 1, h⟩).mp hh)) ((hcond1_1 ⟨n + 1, h⟩).mpr h1) (iblk1 V c 0 ⟨n + 1, h⟩) (iblk1 V c 1 ⟨n + 1, h⟩) (iblk1 V c 2 ⟨n + 1, h⟩) (iblk1 V c 3 ⟨n + 1, h⟩) _

end

/-! ## On the extended reals -/

section
variable (V : (c : Dev nD) → (b : Ref sig .tc) → Buf (Elt Ideal) ((c : Thread nD τ).loc b))

/-- The arrays the pass is entered with, over plain coordinates. -/
abbrev adj1 (c : Dev nD) : Fin 8192 → Fin 8192 → EReal := fun r k => V c main_arg1 (ix2 r k)
abbrev hsOf (c : Dev nD) : Fin 8192 → Fin 256 → EReal := fun r q => V c main_v0_0 (ix2 r q)
abbrev hOf (c : Dev nD) : Fin 8192 → Fin 256 → EReal := fun r q => V c main_v0_2 (ix2 r q)
abbrev dOf (c : Dev nD) : Fin 8192 → EReal := fun r => V c main_v0_1 (ix2 r (0 : Fin 1))

/-- One tile's partial product at `(p, q)`, once the tile's entries and the met rows are known. -/
theorem tile_dot_gen (x0 : Vec Ideal S1024x2048 .f32) (v8 : Vec Ideal S2048x256 .bf16)
    (A : Fin 8192 → Fin 8192 → EReal) (HS : Fin 8192 → Fin 256 → EReal) (r : Fin 8192) (j : Fin 4) (p : Fin 1024) (q : Fin 256)
    (hx : ∀ k : Fin 2048, x0 (ix2 p k) = A r (Cert.Spec.col j k)) (hv : ∀ k : Fin 2048, v8 (ix2 k q) = HS (Cert.Spec.col j k) q) :
    (∑ k : Fin 2048, x0 (ix2 p k) * v8 (ix2 k q)) = tileDotG A HS r q j := by
  unfold tileDotG
  exact Finset.sum_congr rfl fun k _ => by rw [hx k, hv k]

/-- After the last column tile of row block `i` the running product at `(p, q)` is the row against the column. -/
theorem prod_at (c : Dev nD) (i : Fin 8) (h : 4 * i.val + 1 + 1 + 1 < cfg1.N) (p : Fin 1024) (q : Fin 256) :
    scr1 V c (4 * i.val + 1 + 1 + 1) h (ix2 p q) = accG (adj1 V c) (hsOf V c) (rowF i p) q := by
  have h2 : 4 * i.val + 1 + 1 < cfg1.N := Nat.lt_of_succ_lt h
  have h1 : 4 * i.val + 1 < cfg1.N := Nat.lt_of_succ_lt h2
  have h0 : 4 * i.val < cfg1.N := Nat.lt_of_succ_lt h1
  have e0 : scr1 V c (4 * i.val) h0 (ix2 p q) = 0 + tileDotG (adj1 V c) (hsOf V c) (rowF i p) q 0 := by
    rw [scr1_first V c (4 * i.val) h0 (by omega)]
    refine (k1_pay2_apply (iblk1 V c 0 ⟨4 * i.val, h0⟩) (hsRows (grid1.coords ⟨4 * i.val, h0⟩) (iblk1 V c 1 ⟨4 * i.val, h0⟩)) (k1_pay1 (F := Ideal)) p q).trans ?_
    rw [k1_pay1_apply, tile_dot_gen (iblk1 V c 0 ⟨4 * i.val, h0⟩) (hsRows (grid1.coords ⟨4 * i.val, h0⟩) (iblk1 V c 1 ⟨4 * i.val, h0⟩)) (adj1 V c) (hsOf V c) (rowF i p) 0 p q (fun k => tile_entry1 V c ⟨4 * i.val, h0⟩ i 0 (by show 4 * i.val / 4 = i.val; omega) (by show 4 * i.val % 4 = 0; omega) p k) (fun k => (hsRows_entry ⟨4 * i.val, h0⟩ 0 (by show 4 * i.val % 4 = 0; omega) (iblk1 V c 1 ⟨4 * i.val, h0⟩) k q).trans (hsall_entry V c ⟨4 * i.val, h0⟩ (Cert.Spec.col 0 k) q))]
  have e1 : scr1 V c (4 * i.val + 1) h1 (ix2 p q) = 0 + tileDotG (adj1 V c) (hsOf V c) (rowF i p) q 0 + tileDotG (adj1 V c) (hsOf V c) (rowF i p) q 1 := by
    rw [scr1_next V c (4 * i.val) h1 (by omega)]
    refine (k1_pay2_apply (iblk1 V c 0 ⟨4 * i.val + 1, h1⟩) (hsRows (grid1.coords ⟨4 * i.val + 1, h1⟩) (iblk1 V c 1 ⟨4 * i.val + 1, h1⟩)) (scr1 V c (4 * i.val) h0) p q).trans ?_
    rw [e0, tile_dot_gen (iblk1 V c 0 ⟨4 * i.val + 1, h1⟩) (hsRows (grid1.coords ⟨4 * i.val + 1, h1⟩) (iblk1 V c 1 ⟨4 * i.val + 1, h1⟩)) (adj1 V c) (hsOf V c) (rowF i p) 1 p q (fun k => tile_entry1 V c ⟨4 * i.val + 1, h1⟩ i 1 (by show (4 * i.val + 1) / 4 = i.val; omega) (by show (4 * i.val + 1) % 4 = 1; omega) p k) (fun k => (hsRows_entry ⟨4 * i.val + 1, h1⟩ 1 (by show (4 * i.val + 1) % 4 = 1; omega) (iblk1 V c 1 ⟨4 * i.val + 1, h1⟩) k q).trans (hsall_entry V c ⟨4 * i.val + 1, h1⟩ (Cert.Spec.col 1 k) q))]
  have e2 : scr1 V c (4 * i.val + 1 + 1) h2 (ix2 p q) = 0 + tileDotG (adj1 V c) (hsOf V c) (rowF i p) q 0 + tileDotG (adj1 V c) (hsOf V c) (rowF i p) q 1 + tileDotG (adj1 V c) (hsOf V c) (rowF i p) q 2 := by
    rw [scr1_next V c (4 * i.val + 1) h2 (by omega)]
    refine (k1_pay2_apply (iblk1 V c 0 ⟨4 * i.val + 1 + 1, h2⟩) (hsRows (grid1.coords ⟨4 * i.val + 1 + 1, h2⟩) (iblk1 V c 1 ⟨4 * i.val + 1 + 1, h2⟩)) (scr1 V c (4 * i.val + 1) h1) p q).trans ?_
    rw [e1, tile_dot_gen (iblk1 V c 0 ⟨4 * i.val + 1 + 1, h2⟩) (hsRows (grid1.coords ⟨4 * i.val + 1 + 1, h2⟩) (iblk1 V c 1 ⟨4 * i.val + 1 + 1, h2⟩)) (adj1 V c) (hsOf V c) (rowF i p) 2 p q (fun k => tile_entry1 V c ⟨4 * i.val + 1 + 1, h2⟩ i 2 (by show (4 * i.val + 1 + 1) / 4 = i.val; omega) (by show (4 * i.val + 1 + 1) % 4 = 2; omega) p k) (fun k => (hsRows_entry ⟨4 * i.val + 1 + 1, h2⟩ 2 (by show (4 * i.val + 1 + 1) % 4 = 2; omega) (iblk1 V c 1 ⟨4 * i.val + 1 + 1, h2⟩) k q).trans (hsall_entry V c ⟨4 * i.val + 1 + 1, h2⟩ (Cert.Spec.col 2 k) q))]
  rw [scr1_next V c (4 * i.val + 1 + 1) h (by omega)]
  refine (k1_pay2_apply (iblk1 V c 0 ⟨4 * i.val + 1 + 1 + 1, h⟩) (hsRows (grid1.coords ⟨4 * i.val + 1 + 1 + 1, h⟩) (iblk1 V c 1 ⟨4 * i.val + 1 + 1 + 1, h⟩)) (scr1 V c (4 * i.val + 1 + 1) h2) p q).trans ?_
  rw [e2, tile_dot_gen (iblk1 V c 0 ⟨4 * i.val + 1 + 1 + 1, h⟩) (hsRows (grid1.coords ⟨4 * i.val + 1 + 1 + 1, h⟩) (iblk1 V c 1 ⟨4 * i.val + 1 + 1 + 1, h⟩)) (adj1 V c) (hsOf V c) (rowF i p) 3 p q (fun k => tile_entry1 V c ⟨4 * i.val + 1 + 1 + 1, h⟩ i 3 (by show (4 * i.val + 1 + 1 + 1) / 4 = i.val; omega) (by show (4 * i.val + 1 + 1 + 1) % 4 = 3; omega) p k) (fun k => (hsRows_entry ⟨4 * i.val + 1 + 1 + 1, h⟩ 3 (by show (4 * i.val + 1 + 1 + 1) % 4 = 3; omega) (iblk1 V c 1 ⟨4 * i.val + 1 + 1 + 1, h⟩) k q).trans (hsall_entry V c ⟨4 * i.val + 1 + 1 + 1, h⟩ (Cert.Spec.col 3 k) q))]
  rfl

/-- The pass's result for every node, as contents of the result array. -/
def outArr (c : Dev nD) : Buf (Elt Ideal) ((c : Thread nD τ).loc main_v1) :=
  fun i => outG (adj1 V c) (hsOf V c) (hOf V c) (dOf V c) ⟨(i 0).val, (i 0).isLt⟩ ⟨(i 1).val, (i 1).isLt⟩

theorem flush_point1 (t : Fin cfg1.N) (h3 : t.val % 4 = 3) : ∃ (i : Fin 8) (h : 4 * i.val + 1 + 1 + 1 < cfg1.N), t = ⟨4 * i.val + 1 + 1 + 1, h⟩ := by
  have hN : cfg1.N = 32 := N_1
  have ht := t.isLt
  refine ⟨⟨t.val / 4, by omega⟩, by show 4 * (t.val / 4) + 1 + 1 + 1 < cfg1.N; omega, Fin.ext ?_⟩
  show t.val = 4 * (t.val / 4) + 1 + 1 + 1
  omega

/-- What a write-back of the output window writes is its block of `outArr`. -/
theorem flushed1_4_eq (c : Dev nD) (t : Fin cfg1.N) (hf : (cfg1.win 4).flush t = true) :
    (dat1 V c).flushed 4 t = ((cfg1.win 4).blk t).view.read (Elt Ideal) (outArr V c) := by
  obtain ⟨i, h, rfl⟩ := flush_point1 t ((flush1_4 t).mp hf)
  show (cfg1.win 4).cut (grid1.coords _) ((dat1 V c).after 4 _) = _
  rw [after1_4]
  rw [out1_last V c (4 * i.val + 1 + 1) h (by show (4 * i.val + 1 + 1 + 1) % 4 = 3; omega)]
  funext y
  obtain ⟨p, q, rfl⟩ : ∃ (p : Fin 1024) (q : Fin 256), y = ix2 p q := ⟨y 0, y 1, eq_ix2 y⟩
  refine (k1_pay3_apply (scr1 V c (4 * i.val + 1 + 1 + 1) h) (iblk1 V c 3 ⟨4 * i.val + 1 + 1 + 1, h⟩) (iblk1 V c 2 ⟨4 * i.val + 1 + 1 + 1, h⟩) (iblk1 V c 3 ⟨4 * i.val + 1 + 1 + 1, h⟩) p q).trans ?_
  have hi : (⟨4 * i.val + 1 + 1 + 1, h⟩ : Fin cfg1.N).val / 4 = i.val := by show (4 * i.val + 1 + 1 + 1) / 4 = i.val; omega
  rw [prod_at V c i h p q, d_entry V c ⟨4 * i.val + 1 + 1 + 1, h⟩ i hi p 0, h_entry V c ⟨4 * i.val + 1 + 1 + 1, h⟩ i hi p q]
  rw [View.read_apply]
  unfold outArr
  obtain ⟨-, -, -, -, -, -, -, -, e0, e1⟩ := idx1 ⟨4 * i.val + 1 + 1 + 1, h⟩
  show outG (adj1 V c) (hsOf V c) (hOf V c) (dOf V c) (rowF i p) q = _
  refine congrArg₂ (outG (adj1 V c) (hsOf V c) (hOf V c) (dOf V c)) (Fin.ext ?_) (Fin.ext ?_)
  · show i.val * 1024 + p.val = win1_4.index ⟨4 * i.val + 1 + 1 + 1, h⟩ (0 : Fin 2) * 1024 + 1 * p.val
    rw [e0]; show i.val * 1024 + p.val = (4 * i.val + 1 + 1 + 1) / 4 * 1024 + 1 * p.val; omega
  · show q.val = win1_4.index ⟨4 * i.val + 1 + 1 + 1, h⟩ (1 : Fin 2) * 256 + 1 * q.val
    rw [e1]; omega

theorem mem_blk1_4 (t : Fin cfg1.N) (i : S8192x256.Idx) :
    i ∈ ((cfg1.win 4).blk t).view.set ↔ ∀ a : Fin 2, win1_4.index t a * S1024x256.size a ≤ (i a).val ∧ (i a).val < win1_4.index t a * S1024x256.size a + S1024x256.size a := by
  show i ∈ ((View.whole main_v1).slice (win1_4.rect t)).set ↔ _
  rw [View.set_slice_whole, Rect.mem_set_unit]
  exact Iff.rfl

/-- The eight row blocks cover the result array, so it ends holding `outArr`. -/
theorem final1_4 (c : Dev nD) : (dat1 V c).arrAt 4 cfg1.N = outArr V c :=
  (dat1 V c).arrAt_eq_of_cover 4 (outArr V c) (flushed1_4_eq V c) fun i => by
    have hN : cfg1.N = 32 := N_1
    have hi0 : (i 0).val < 8192 := (i 0).isLt
    have hi1 : (i 1).val < 256 := (i 1).isLt
    have ht : 4 * ((i 0).val / 1024) + 3 < cfg1.N := by omega
    obtain ⟨-, -, -, -, -, -, -, -, e0, e1⟩ := idx1 ⟨4 * ((i 0).val / 1024) + 3, ht⟩
    refine ⟨⟨4 * ((i 0).val / 1024) + 3, ht⟩, (flush1_4 _).mpr (by show (4 * ((i 0).val / 1024) + 3) % 4 = 3; omega), ?_⟩
    rw [mem_blk1_4]
    intro a
    match a with
    | ⟨0, _⟩ =>
      show win1_4.index ⟨4 * ((i 0).val / 1024) + 3, ht⟩ (0 : Fin 2) * 1024 ≤ (i 0).val ∧ (i 0).val < win1_4.index ⟨4 * ((i 0).val / 1024) + 3, ht⟩ (0 : Fin 2) * 1024 + 1024
      rw [e0]; show (4 * ((i 0).val / 1024) + 3) / 4 * 1024 ≤ (i 0).val ∧ (i 0).val < (4 * ((i 0).val / 1024) + 3) / 4 * 1024 + 1024; omega
    | ⟨1, _⟩ =>
      show win1_4.index ⟨4 * ((i 0).val / 1024) + 3, ht⟩ (1 : Fin 2) * 256 ≤ (i 1).val ∧ (i 1).val < win1_4.index ⟨4 * ((i 0).val / 1024) + 3, ht⟩ (1 : Fin 2) * 256 + 256
      rw [e1]; omega

end

end Cert.KernelIdeal.Hand

end
-- ==== Proof.IdealValue.lean ====
/-
# The kernel's result array is the tiled formula of the three argument arrays

The product pass is entered with the adjacency matrix as launched and with the three arrays the degree
pass left: the scaled features, the features and the degree scale.  Substituting what those arrays hold
into the product pass's result gives, entry by entry, the tiled formula `Cert.Spec.K`.
-/
import proofs.«130060_j40785009443054_2_alg».proof.Proof.IdealRun
import proofs.«130060_j40785009443054_2_alg».proof.Proof.IdealR0Value
import proofs.«130060_j40785009443054_2_alg».proof.Proof.IdealR1Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt Ideal) ℓ)

/-- The three argument arrays as launched, over plain coordinates. -/
abbrev xOf (c : Dev nD) : Fin 8192 → Fin 256 → EReal := fun r e => m ((c : Thread nD τ).loc main_arg0) (ix2 r e)
abbrev aOf (c : Dev nD) : Fin 8192 → Fin 8192 → EReal := fun r k => m ((c : Thread nD τ).loc main_arg1) (ix2 r k)
abbrev wOf (c : Dev nD) : Fin 256 → Fin 256 → EReal := fun q e => m ((c : Thread nD τ).loc main_arg2) (ix2 q e)

/-- The tiled formula as contents of the result array. -/
def resultArr (c : Dev nD) : Buf (Elt Ideal) ((c : Thread nD τ).loc main_v1) :=
  fun i => Cert.Spec.K (xOf m c) (aOf m c) (wOf m c) ⟨(i 0).val, (i 0).isLt⟩ ⟨(i 1).val, (i 1).isLt⟩

theorem adj_entered (c : Dev nD) : adj1 (V1 m) c = aOf m c := by
  funext r k
  exact congrFun (W1_main_arg1 m c) (ix2 r k)

theorem hs_entered (c : Dev nD) : hsOf (V1 m) c = Cert.Spec.hs (xOf m c) (aOf m c) (wOf m c) := by
  funext r q
  show V1 m c main_v0_0 (ix2 r q) = _
  rw [show V1 m c main_v0_0 = hsArr (V0 m) c from (W1_arr m c 3).trans (final0_3 (V0 m) c)]
  rfl

theorem lin_entered (c : Dev nD) : hOf (V1 m) c = Cert.Spec.lin (xOf m c) (wOf m c) := by
  funext r q
  show V1 m c main_v0_2 (ix2 r q) = _
  rw [show V1 m c main_v0_2 = linArr (V0 m) c from (W1_arr m c 5).trans (final0_5 (V0 m) c)]
  rfl

theorem deg_entered (c : Dev nD) : dOf (V1 m) c = Cert.Spec.deg (aOf m c) := by
  funext r
  show V1 m c main_v0_1 (ix2 r (0 : Fin 1)) = _
  rw [show V1 m c main_v0_1 = degArr (V0 m) c from (W1_arr m c 4).trans (final0_4 (V0 m) c)]
  rfl

/-- What the product pass's write-backs leave is the tiled formula. -/
theorem result_eq (c : Dev nD) : (dat1 (V1 m) c).arrAt 4 cfg1.N = resultArr m c := by
  rw [final1_4]
  unfold outArr resultArr
  rw [adj_entered, hs_entered, lin_entered, deg_entered]
  rfl

/-- The program's run with the result array named: the tiled formula, the arguments as launched. -/
theorem run_K (ρ : Dev nD → PrngReg) : θ_run defs (onTc (τ := τ) (main (F := Ideal))) ⟨m, fun _ => 0, ρ⟩ (fun r => ∀ c : Dev nD,
      r.2.mem ((c.tc : Thread nD τ).loc main_v1) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m c), (h c).2⟩) (run_value m ρ)

end Cert.KernelIdeal.Hand

end
-- ==== Proof.RowAlgebra.lean ====
import Mathlib.Algebra.BigOperators.Ring.Finset
import Mathlib.Algebra.BigOperators.Group.Finset.Piecewise
import Mathlib.Data.Real.Basic
import Mathlib.Tactic.Ring
import Mathlib.Tactic.SplitIfs

/-!
# One row of the normalised product, in the reals

With `D = diag d`, row `r` of `(D (A + I) D) · h` is `∑ₖ (d r · (a k + δ r k) · d k) · h k`.
Splitting the sum at the unit matrix's one non-zero entry and taking the common factor `d r` out,

  `∑ₖ (d r · (a k + δ r k) · d k) · h k = d r · ∑ₖ a k · (h k · d k) + d r · (d r · h r)
                                       = ((∑ₖ a k · (h k · d k)) + d r · h r) · d r`,

which is the form that scales the features once, multiplies by the adjacency row, adds the node's own scaled
features and scales once more.
-/

namespace Cert.RefSide

open Finset

theorem normalised_row {ι : Type*} [Fintype ι] [DecidableEq ι] (d a h : ι → ℝ) (r : ι) :
    ∑ k, ((d r * (a k + (if r = k then 1 else 0))) * d k) * h k
      = ((∑ k, a k * (h k * d k)) + d r * h r) * d r := by
  have e : ∀ k, ((d r * (a k + (if r = k then (1 : ℝ) else 0))) * d k) * h k
      = d r * (a k * (h k * d k)) + (if r = k then d r * (d k * h k) else 0) := by
    intro k
    split_ifs <;> ring
  rw [Finset.sum_congr rfl (fun k _ => e k), Finset.sum_add_distrib, ← Finset.mul_sum,
    Finset.sum_ite_eq, if_pos (Finset.mem_univ r)]
  ring

end Cert.RefSide
-- ==== Proof.LibRealSums.lean ====
/-
  Finite sums of real numbers read in the extended reals.

  The extended reals are a commutative monoid under addition, so a finite sum may be regrouped and reordered at will, the
  infinities included; what fails at the infinities is distributivity, and with it the associativity of a product of three
  matrices. Here: the cast of a finite real sum is the sum of the casts; for REAL-valued factors the two ways of
  associating a triple product agree entry by entry; and a sum over `Fin (m + d)` whose last `d` terms vanish is the sum
  of its first `m` terms (a contraction padded with zeros, or cut by a mask, is the unpadded contraction).
-/
import Mathlib.Data.EReal.Operations
import Mathlib.Algebra.BigOperators.Fin
import Mathlib.Algebra.BigOperators.Ring.Finset

namespace Cert.RealSums

open Finset

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: `∑ₖ (∑ⱼ aⱼ bⱼₖ) cₖ = ∑ⱼ aⱼ (∑ₖ bⱼₖ cₖ)`, one row `a` of the left factor against one column `c`
    of the right one. -/
theorem assoc_row_col {J K : Type*} [Fintype J] [Fintype K] (a : J → ℝ) (b : J → K → ℝ) (c : K → ℝ) :
    (∑ k, (∑ j, a j * b j k) * c k) = ∑ j, a j * ∑ k, b j k * c k := by
  simp only [Finset.sum_mul, Finset.mul_sum]
  rw [Finset.sum_comm]
  exact Finset.sum_congr rfl fun j _ => Finset.sum_congr rfl fun k _ => by ring

/-- The same read in the extended reals, each factor the cast of a real: `(A·B)·C` and `A·(B·C)` have equal entries
    when `A`'s row, `B` and `C`'s column are finite. -/
theorem assoc_row_col_coe {J K : Type*} [Fintype J] [Fintype K] (a : J → ℝ) (b : J → K → ℝ) (c : K → ℝ) :
    (∑ k, (∑ j, (a j : EReal) * (b j k : EReal)) * (c k : EReal))
      = ∑ j, (a j : EReal) * ∑ k, (b j k : EReal) * (c k : EReal) := by
  simp only [← EReal.coe_mul, ← coe_sum]
  rw [assoc_row_col]

/-- A sum over `Fin (m + d)` whose last `d` terms vanish is the sum of its first `m` terms. -/
theorem sum_castAdd_of_tail_zero {M : Type*} [AddCommMonoid M] {m d : ℕ} (f : Fin (m + d) → M)
    (hz : ∀ i : Fin d, f (Fin.natAdd m i) = 0) : ∑ i, f i = ∑ i : Fin m, f (Fin.castAdd d i) := by
  rw [Fin.sum_univ_add, Finset.sum_eq_zero (fun i _ => hz i), add_zero]

/-- A sum over `Fin (m + d)` is the sum of its first `m` terms plus the sum of its last `d` (a contraction done as a head
    product and a tail product). -/
theorem sum_head_add_tail {M : Type*} [AddCommMonoid M] {m d : ℕ} (f : Fin (m + d) → M) :
    ∑ i, f i = (∑ i : Fin m, f (Fin.castAdd d i)) + ∑ i : Fin d, f (Fin.natAdd m i) :=
  Fin.sum_univ_add f

end Cert.RealSums
-- ==== Proof.LibTiles.lean ====
/-
  A sum over a range of `n * b` consecutive indices, cut into `n` consecutive tiles of width `b`:
  the index `k * b + j` is the `j`-th element of the `k`-th tile.
-/
import Mathlib.Algebra.BigOperators.Fin
import Mathlib.Logic.Equiv.Fin.Basic
import Mathlib.Data.EReal.Basic

open scoped BigOperators

namespace Cert.Lib.Tiles

/-- The `j`-th element of the `k`-th tile of width `b` lies below `n * b`. -/
theorem tile_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right b k.isLt

/-- A sum over `Fin (n * b)` is the sum over the `n` tiles of the sums over each tile's `b` elements. -/
theorem sum_tiles {M : Type*} [AddCommMonoid M] (n b : ℕ) (f : Fin (n * b) → M) :
    ∑ i : Fin (n * b), f i = ∑ k : Fin n, ∑ j : Fin b, f ⟨k.val * b + j.val, tile_lt k j⟩ := by
  rw [← Equiv.sum_comp finProdFinEquiv f, Fintype.sum_prod_type]
  refine Finset.sum_congr rfl fun k _ => Finset.sum_congr rfl fun j _ => ?_
  refine congrArg f (Fin.ext ?_)
  show j.val + b * k.val = k.val * b + j.val
  rw [Nat.mul_comm, Nat.add_comm]

/-- The inner width 11008 as 43 tiles of width 256. -/
theorem sum_11008 (f : Fin 11008 → EReal) :
    ∑ i : Fin 11008, f i = ∑ k : Fin 43, ∑ j : Fin 256, f ⟨k.val * 256 + j.val, by omega⟩ :=
  sum_tiles 43 256 f

end Cert.Lib.Tiles
-- ==== Proof.RefShape.lean ====
import proofs.«130060_j40785009443054_2_alg».proof.Proof.Spec
import proofs.«130060_j40785009443054_2_alg».proof.Proof.Consts
import proofs.«130060_j40785009443054_2_alg».proof.Proof.RowAlgebra
import proofs.«130060_j40785009443054_2_alg».proof.Proof.LibRealSums
import proofs.«130060_j40785009443054_2_alg».proof.Proof.LibTiles

/-!
# The reference's formula equals the tiled formula on real inputs

The reference computes, for node `r` and feature `q`,

  `max (∑ₖ (d r · (A r k + δ r k) · d k) · h k q) 0`,  `h = x · Wᵀ`,
  `d r = (1 + (0 + ∑ₖ sign (max (A r k - ε) 0))) ^ (-1/2)`,

and the tiled formula `Cert.Spec.K` computes `max ((∑ over four column tiles of A r k · (h k q · d k) + d r · h r q) · d r) 0`
with `d r = 1 / √(1 + count)`, the count collected four tiles at a time.

On the extended reals a sum may be regrouped freely, so the tile-by-tile collection is the plain sum over all 8192
columns with no hypothesis. The rest needs every entry to be a real number, because the two sides differ by the
distributive law, which fails at the infinities:
* for a real `a`, `sign (max (a - ε) 0)` is `1` when `ε < a` and `0` otherwise, the same indicator the tiled formula uses,
  so both counts are the same natural number `n`, as a real;
* `1 + n > 0`, where `(1 + n) ^ (-1/2) = ((1 + n) ^ (1/2))⁻¹ = (√(1 + n))⁻¹`, the reciprocal square root;
* the unit matrix's entries, the products and the sums are then casts of real numbers, and in the reals the two rows agree
  (`normalised_row`).
-/

noncomputable section

namespace Cert.RefSide

open Idealize.ShloMosaic

/-! ## The reference's formula over plain coordinates -/

/-- The reference's indicator of an edge: the sign of the positive part of `a - ε`. -/
def refMask (a : EReal) : EReal := Ideal.sign (max (a - Spec.epsV) 0)

/-- The reference's degree scale `(1 + (0 + ∑ₖ indicator (A r k))) ^ (-1/2)`. -/
def refDeg (A : Fin 8192 → Fin 8192 → EReal) (r : Fin 8192) : EReal :=
  Ideal.pow (1 + (0 + ∑ k : Fin 8192, refMask (A r k))) ((-(1 / 2) : ℝ) : EReal)

/-- The unit matrix. -/
def eye (r k : Fin 8192) : EReal := if r = k then 1 else 0

/-- The reference's result: the positive part of row `r` of `(D (A + I) D) · (x · Wᵀ)`. -/
def refOut (x : Fin 8192 → Fin 256 → EReal) (A : Fin 8192 → Fin 8192 → EReal) (W : Fin 256 → Fin 256 → EReal)
    (r : Fin 8192) (q : Fin 256) : EReal :=
  max (∑ k : Fin 8192, ((refDeg A r * (A r k + eye r k)) * refDeg A k) * Spec.lin x W k q) 0

/-! ## The same quantities in the reals -/

/-- The indicator of an edge, for a real threshold and a real weight. -/
def maskR (e a : ℝ) : ℝ := if e < a then 1 else 0

/-- The number of edges of row `r`. -/
def cntR (e : ℝ) (a : Fin 8192 → Fin 8192 → ℝ) (r : Fin 8192) : ℝ := ∑ k : Fin 8192, maskR e (a r k)

/-- The degree scale `1 / √(1 + count)`. -/
def degR (e : ℝ) (a : Fin 8192 → Fin 8192 → ℝ) (r : Fin 8192) : ℝ := (Real.sqrt (1 + cntR e a r))⁻¹

/-- The linear layer. -/
def linR (x : Fin 8192 → Fin 256 → ℝ) (w : Fin 256 → Fin 256 → ℝ) (r : Fin 8192) (q : Fin 256) : ℝ :=
  ∑ c : Fin 256, x r c * w q c

theorem cntR_nonneg (e : ℝ) (a : Fin 8192 → Fin 8192 → ℝ) (r : Fin 8192) : 0 ≤ cntR e a r :=
  Finset.sum_nonneg fun k _ => by unfold maskR; split_ifs <;> norm_num

theorem one_add_cntR_pos (e : ℝ) (a : Fin 8192 → Fin 8192 → ℝ) (r : Fin 8192) : 0 < 1 + cntR e a r := by
  have := cntR_nonneg e a r
  linarith

/-! ## The indicators -/

/-- The tiled formula's indicator at a real weight. -/
theorem mask_coe {e : ℝ} (he : Spec.epsV = (e : EReal)) (a : ℝ) : Spec.mask (a : EReal) = (maskR e a : EReal) := by
  unfold Spec.mask maskR
  rw [he]
  by_cases h : e < a
  · rw [if_pos h, if_pos (EReal.coe_lt_coe_iff.mpr h)]
    simp
  · rw [if_neg h, if_neg fun h' => h (EReal.coe_lt_coe_iff.mp h')]
    simp

/-- The reference's indicator at a real weight: `a - ε` is positive exactly when `ε < a`, and then its positive part has
    sign one; otherwise the positive part is zero, of sign zero. -/
theorem refMask_coe {e : ℝ} (he : Spec.epsV = (e : EReal)) (a : ℝ) : refMask (a : EReal) = (maskR e a : EReal) := by
  unfold refMask maskR
  rw [he, ← EReal.coe_sub]
  by_cases h : e < a
  · have hp : (0 : EReal) < ((a - e : ℝ) : EReal) := EReal.coe_pos.mpr (by linarith)
    rw [if_pos h, max_eq_left hp.le, Ideal.sign_of_pos hp]
    simp
  · have hn : ((a - e : ℝ) : EReal) ≤ 0 := EReal.coe_nonpos.mpr (by linarith [not_lt.mp h])
    rw [if_neg h, max_eq_right hn, Ideal.sign_zero]
    simp

/-! ## Four tiles are the whole row -/

/-- A sum over all 8192 columns, collected four tiles of 2048 columns at a time starting from zero. -/
theorem tiles4 (f : Fin 8192 → EReal) :
    (((0 + ∑ c : Fin 2048, f (Spec.col 0 c)) + ∑ c : Fin 2048, f (Spec.col 1 c)) + ∑ c : Fin 2048, f (Spec.col 2 c))
        + ∑ c : Fin 2048, f (Spec.col 3 c) = ∑ k : Fin 8192, f k := by
  have h : ∑ k : Fin 8192, f k = ∑ j : Fin 4, ∑ c : Fin 2048, f (Spec.col j c) := Cert.Lib.Tiles.sum_tiles 4 2048 f
  rw [h, Fin.sum_univ_four, zero_add]

/-! ## Counts, degree scales, the linear layer -/

theorem cnt_coe {e : ℝ} (he : Spec.epsV = (e : EReal)) (a : Fin 8192 → Fin 8192 → ℝ) (r : Fin 8192) :
    Spec.cnt (fun r k => (a r k : EReal)) r = (cntR e a r : EReal) := by
  unfold Spec.cnt Spec.tileCount
  refine (tiles4 (fun k => Spec.mask (a r k : EReal))).trans ?_
  unfold cntR
  rw [Cert.RealSums.coe_sum]
  exact Finset.sum_congr rfl fun k _ => mask_coe he _

theorem deg_coe {e : ℝ} (he : Spec.epsV = (e : EReal)) (a : Fin 8192 → Fin 8192 → ℝ) (r : Fin 8192) :
    Spec.deg (fun r k => (a r k : EReal)) r = (degR e a r : EReal) := by
  unfold Spec.deg
  rw [cnt_coe he, ← EReal.coe_one, ← EReal.coe_add, Ideal.rsqrt_coe,
    if_neg (not_lt.mpr (one_add_cntR_pos e a r).le), if_neg (one_add_cntR_pos e a r).ne']
  rfl

/-- The reference's power `(1 + n) ^ (-1/2)` is the reciprocal square root, `1 + n` being positive. -/
theorem refDeg_coe {e : ℝ} (he : Spec.epsV = (e : EReal)) (a : Fin 8192 → Fin 8192 → ℝ) (r : Fin 8192) :
    refDeg (fun r k => (a r k : EReal)) r = (degR e a r : EReal) := by
  unfold refDeg
  have hs : ∑ k : Fin 8192, refMask (a r k : EReal) = (cntR e a r : EReal) := by
    unfold cntR
    rw [Cert.RealSums.coe_sum]
    exact Finset.sum_congr rfl fun k _ => refMask_coe he _
  rw [hs, zero_add, ← EReal.coe_one, ← EReal.coe_add, Ideal.pow_coe_coe]
  refine congrArg _ ?_
  unfold degR
  show (1 + cntR e a r) ^ (-(1 / 2 : ℝ)) = _
  rw [Real.rpow_neg (one_add_cntR_pos e a r).le, Real.sqrt_eq_rpow]

theorem lin_coe (x : Fin 8192 → Fin 256 → ℝ) (w : Fin 256 → Fin 256 → ℝ) (r : Fin 8192) (q : Fin 256) :
    Spec.lin (fun r c => (x r c : EReal)) (fun q c => (w q c : EReal)) r q = (linR x w r q : EReal) := by
  unfold Spec.lin linR
  rw [Cert.RealSums.coe_sum]
  exact Finset.sum_congr rfl fun c _ => (EReal.coe_mul _ _).symm

theorem eye_coe (r k : Fin 8192) : eye r k = ((if r = k then (1 : ℝ) else 0 : ℝ) : EReal) := by
  unfold eye
  split_ifs <;> simp

/-! ## The two formulas agree -/

/-- On arrays of real numbers the reference's formula and the tiled formula give the same value. -/
theorem refOut_eq_K_coe (x : Fin 8192 → Fin 256 → ℝ) (a : Fin 8192 → Fin 8192 → ℝ) (w : Fin 256 → Fin 256 → ℝ)
    (r : Fin 8192) (q : Fin 256) :
    refOut (fun r c => (x r c : EReal)) (fun r k => (a r k : EReal)) (fun q c => (w q c : EReal)) r q
      = Spec.K (fun r c => (x r c : EReal)) (fun r k => (a r k : EReal)) (fun q c => (w q c : EReal)) r q := by
  obtain ⟨e, he⟩ := eps_real
  -- the tiled side: four tiles are the row, and every factor is the cast of a real
  have hacc : Spec.acc (fun r c => (x r c : EReal)) (fun r k => (a r k : EReal)) (fun q c => (w q c : EReal)) r q
      = ((∑ k : Fin 8192, a r k * (linR x w k q * degR e a k) : ℝ) : EReal) := by
    unfold Spec.acc Spec.tileDot Spec.hs
    refine (tiles4 (fun k => (a r k : EReal)
      * (Spec.lin (fun r c => (x r c : EReal)) (fun q c => (w q c : EReal)) k q
        * Spec.deg (fun r k => (a r k : EReal)) k))).trans ?_
    rw [Cert.RealSums.coe_sum]
    refine Finset.sum_congr rfl fun k _ => ?_
    rw [lin_coe, deg_coe he, ← EReal.coe_mul, ← EReal.coe_mul]
  have hK : Spec.K (fun r c => (x r c : EReal)) (fun r k => (a r k : EReal)) (fun q c => (w q c : EReal)) r q
      = max ((((∑ k : Fin 8192, a r k * (linR x w k q * degR e a k)) + degR e a r * linR x w r q) * degR e a r : ℝ) : EReal) 0 := by
    unfold Spec.K
    rw [hacc, lin_coe, deg_coe he, ← EReal.coe_mul, ← EReal.coe_add, ← EReal.coe_mul]
  -- the reference's side
  have hR : refOut (fun r c => (x r c : EReal)) (fun r k => (a r k : EReal)) (fun q c => (w q c : EReal)) r q
      = max ((∑ k : Fin 8192, ((degR e a r * (a r k + (if r = k then 1 else 0))) * degR e a k) * linR x w k q : ℝ) : EReal) 0 := by
    unfold refOut
    rw [Cert.RealSums.coe_sum]
    refine congrArg (max · 0) (Finset.sum_congr rfl fun k _ => ?_)
    rw [refDeg_coe he, refDeg_coe he, lin_coe, eye_coe, ← EReal.coe_add, ← EReal.coe_mul, ← EReal.coe_mul,
      ← EReal.coe_mul]
  rw [hR, hK, normalised_row]

/-- The same for arrays every entry of which is a real number. -/
theorem refOut_eq_K (x : Fin 8192 → Fin 256 → EReal) (A : Fin 8192 → Fin 8192 → EReal) (W : Fin 256 → Fin 256 → EReal)
    (hx : ∀ r c, ∃ t : ℝ, x r c = (t : EReal)) (hA : ∀ r k, ∃ t : ℝ, A r k = (t : EReal))
    (hW : ∀ q c, ∃ t : ℝ, W q c = (t : EReal)) (r : Fin 8192) (q : Fin 256) :
    refOut x A W r q = Spec.K x A W r q := by
  choose xr hxr using hx
  choose ar har using hA
  choose wr hwr using hW
  obtain rfl : x = fun r c => (xr r c : EReal) := funext fun r => funext fun c => hxr r c
  obtain rfl : A = fun r k => (ar r k : EReal) := funext fun r => funext fun k => har r k
  obtain rfl : W = fun q c => (wr q c : EReal) := funext fun q => funext fun c => hwr q c
  exact refOut_eq_K_coe xr ar wr r q

end Cert.RefSide

end
-- ==== Proof.LibSelectorSum.lean ====
/-
  A sum against a one-hot selector, and the identity matrix's entry as a host program builds it.

  Multiplying a row by a block-diagonal (or any one-hot weighted) matrix leaves a sum in which every term but one is a
  product with zero. On the extended reals `0 · a = 0`, `a · 0 = 0` and `1 · a = a` hold for every `a`, the infinities
  included, so the sum collapses to its one term with no finiteness hypothesis.

  `jnp.eye` prints as: the row number (plus a zero offset) compared for equality with the column number, both as 32-bit
  words, and the one-bit answer converted to a float. For numbers below 2³² the words are equal exactly when the numbers
  are, so at the ideal values the entry is one on the diagonal and zero off it.
-/
import Idealize.ShloMosaic.Lib.ValueIdx
import Idealize.ShloMosaic.Lib.Affine
import Idealize.ShloMosaic.PureOps.Ideal.Laws

noncomputable section

namespace Cert.Lib.SelectorSum

open Idealize.ShloMosaic Idealize.ShloMosaic.ValueIdx
open scoped BigOperators

/-- A sum against a selector: if `e` is one at `f` and zero elsewhere, `∑ c, xr c · (e c · w) = xr f · w` on the
    extended reals, whatever the values (finite or not) of `xr` and `w`. -/
theorem sum_select {n : ℕ} (f : Fin n) (xr e : Fin n → EReal) (w : EReal)
    (h1 : e f = 1) (h0 : ∀ c, c ≠ f → e c = 0) :
    ∑ c, xr c * (e c * w) = xr f * w := by
  rw [Finset.sum_eq_single f]
  · rw [h1, one_mul]
  · intro c _ hc
    rw [h0 c hc, zero_mul, mul_zero]
  · intro h
    exact absurd (Finset.mem_univ f) h

/-- The identity matrix's entry (k, f) as the host builds it — `uitofp (cmpi eq (k + 0) f)` on 32-bit words — is, at the
    ideal values, one when `k = f` and zero otherwise, for any extent that fits a 32-bit word. -/
theorem eye_entry {n : ℕ} (hn : n ≤ 2 ^ 32) (k f : Fin n) :
    (FloatOps.uitofp (F := Ideal) .f32
      (IntOp.cmpi .eq (IntOp.addi (BitVec.ofNat 32 k.val) 0#32) (BitVec.ofNat 32 f.val)) : EReal)
      = if k = f then 1 else 0 := by
  have hadd : IntOp.addi (BitVec.ofNat 32 k.val) 0#32 = BitVec.ofNat 32 k.val := by
    unfold IntOp.addi; exact BitVec.add_zero _
  rw [hadd]
  by_cases h : k = f
  · subst h
    rw [if_pos rfl, IntOp.cmpi_eq.mpr rfl]
    show (((1#1 : BitVec 1).toNat : ℝ) : EReal) = 1
    norm_num
  · rw [if_neg h]
    have hne : ¬ IntOp.cmpi .eq (BitVec.ofNat 32 k.val) (BitVec.ofNat 32 f.val) = 1#1 := fun e => h (Fin.ext (by
      have e2 := congrArg BitVec.toNat (IntOp.cmpi_eq.mp e)
      simp only [BitVec.toNat_ofNat] at e2
      have hk := k.isLt
      have hf := f.isLt
      omega))
    rw [eq_zero_of_ne_one hne]
    show (((0#1 : BitVec 1).toNat : ℝ) : EReal) = 0
    norm_num

end Cert.Lib.SelectorSum

end
-- ==== Proof.RefRead.lean ====
import proofs.«130060_j40785009443054_2_alg».proof.Proof.Gen.ReferenceIdeal.Read
import proofs.«130060_j40785009443054_2_alg».proof.Proof.RefShape
import proofs.«130060_j40785009443054_2_alg».proof.Proof.LibSelectorSum

/-!
# The reference program computes the reference's formula

Each stage of the reference program is read at explicit coordinates: entry `(r, k)` of an 8192 × 8192 array is the index
`ix2 r k`, entry `r` of a vector is `ix1 r`.

* the edge indicator is pointwise: `sign (max (A - ε) 0)`;
* the row sum of the indicators, started from the literal zero, at row `r` runs over the entries `(r, k)`;
* the degree scale is the literal one plus that sum, raised to the literal `-1/2`;
* the unit matrix's entry `(r, k)` compares the two coordinates as 32-bit words; both are below `2^32`, so it is one on
  the diagonal and zero off it;
* the linear layer contracts `x`'s second axis with the transposed `W`'s first: `∑ c, x (r, c) · W (q, c)`;
* the normalised matrix's entry `(r, k)` is `(d r · (A (r, k) + unit (r, k))) · d k`: the column vector `d` broadcast along
  the rows reads `d r`, the row vector broadcast along the columns reads `d k`;
* the result contracts the normalised matrix's second axis with the linear layer's first and takes the positive part.
-/

noncomputable section

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Where each stage reads its operand -/

theorem row_entry (r k : Fin 8192) : idx_main_v4 (ix1 r) k = ix2 r k :=
  funext fun a => Fin.ext (by match a with | ⟨0, _⟩ => rfl | ⟨1, _⟩ => rfl)

theorem lin_left (r : Fin 8192) (q c : Fin 256) : lidx_main_v17 (ix2 r q) c = ix2 r c :=
  funext fun a => Fin.ext (by match a with | ⟨0, _⟩ => rfl | ⟨1, _⟩ => rfl)

theorem lin_right (r : Fin 8192) (q c : Fin 256) : idx_main_v16 (ridx_main_v17 (ix2 r q) c) = ix2 q c :=
  funext fun a => Fin.ext (by match a with | ⟨0, _⟩ => rfl | ⟨1, _⟩ => rfl)

theorem column_scale (r k : Fin 8192) : idx_main_v18 (idx_main_v19 (ix2 r k)) = ix1 r :=
  funext fun a => Fin.ext (by match a with | ⟨0, _⟩ => rfl)

theorem row_scale (r k : Fin 8192) : idx_main_v21 (idx_main_v22 (ix2 r k)) = ix1 k :=
  funext fun a => Fin.ext (by match a with | ⟨0, _⟩ => rfl)

theorem out_left (r : Fin 8192) (q : Fin 256) (k : Fin 8192) : lidx_main_v24 (ix2 r q) k = ix2 r k :=
  funext fun a => Fin.ext (by match a with | ⟨0, _⟩ => rfl | ⟨1, _⟩ => rfl)

theorem out_right (r : Fin 8192) (q : Fin 256) (k : Fin 8192) : ridx_main_v24 (ix2 r q) k = ix2 k q :=
  funext fun a => Fin.ext (by match a with | ⟨0, _⟩ => rfl | ⟨1, _⟩ => rfl)

/-! ## The stages -/

/-- The edge indicator, entry by entry. -/
theorem mask_at (A : (⟨S8192x8192, .f32⟩ : BufTy).Contents (Elt Ideal)) (j : S8192x8192.Idx) :
    val_main_v3 (F := Ideal) A j = refMask (A j) := by
  rw [val_main_v3_apply, val_main_v2_apply, val_main_v1_apply, val_main_v0_apply, val_main_cst_apply,
    val_main_call0_v0_apply, val_main_call0_cst_apply]
  show Ideal.sign (max (A j - Spec.epsV) (Ideal.ofBits .f32 0x00000000#32)) = refMask (A j)
  rw [Ideal.ofBits_zero_f32]
  rfl

/-- The number of edges of row `r`, counted from the literal zero. -/
theorem cnt_at (A : (⟨S8192x8192, .f32⟩ : BufTy).Contents (Elt Ideal)) (r : Fin 8192) :
    val_main_v4 (F := Ideal) A (ix1 r) = 0 + ∑ k : Fin 8192, refMask (A (ix2 r k)) := by
  rw [val_main_v4_apply, val_main_cst_0_apply]
  show Ideal.ofBits .f32 0x00000000#32 + _ = _
  rw [Ideal.ofBits_zero_f32]
  refine congrArg (0 + ·) (Finset.sum_congr rfl fun k _ => ?_)
  rw [mask_at, row_entry]

/-- The degree scale of row `r`. -/
theorem deg_at (A : (⟨S8192x8192, .f32⟩ : BufTy).Contents (Elt Ideal)) (r : Fin 8192) :
    val_main_v8 (F := Ideal) A (ix1 r) = refDeg (fun r k => A (ix2 r k)) r := by
  rw [val_main_v8_apply, val_main_v6_apply, val_main_v5_apply, val_main_cst_1_apply, val_main_v7_apply,
    val_main_cst_2_apply, cnt_at]
  show Ideal.pow (Ideal.ofBits .f32 0x3F800000#32 + _) (Ideal.ofBits .f32 0xBF000000#32) = _
  rw [one_word, neg_half_word]
  rfl

/-- The unit matrix's entry. -/
theorem eye_at (r k : Fin 8192) : val_main_v14 (F := Ideal) (ix2 r k) = eye r k := by
  rw [val_main_v14_apply, val_main_v13_apply, val_main_v12_apply, val_main_v9_apply, val_main_v10_apply,
    val_main_v11_apply, val_main_c_apply]
  exact Cert.Lib.SelectorSum.eye_entry (by norm_num) r k

/-- The linear layer's entry. -/
theorem lin_at (x : (⟨S8192x256, .f32⟩ : BufTy).Contents (Elt Ideal)) (W : (⟨S256x256, .f32⟩ : BufTy).Contents (Elt Ideal))
    (r : Fin 8192) (q : Fin 256) :
    val_main_v17 (F := Ideal) x W (ix2 r q) = Spec.lin (fun r c => x (ix2 r c)) (fun q c => W (ix2 q c)) r q := by
  rw [val_main_v17_apply]
  unfold Spec.lin
  refine Finset.sum_congr rfl fun c _ => ?_
  rw [val_main_v16_apply, lin_left, lin_right]

/-- The normalised matrix's entry. -/
theorem anorm_at (A : (⟨S8192x8192, .f32⟩ : BufTy).Contents (Elt Ideal)) (r k : Fin 8192) :
    val_main_v23 (F := Ideal) A (ix2 r k)
      = (refDeg (fun r k => A (ix2 r k)) r * (A (ix2 r k) + eye r k)) * refDeg (fun r k => A (ix2 r k)) k := by
  rw [val_main_v23_apply, val_main_v20_apply, val_main_v19_apply, val_main_v18_apply, val_main_v22_apply,
    val_main_v21_apply, val_main_v15_apply, eye_at, column_scale, row_scale, deg_at, deg_at]
  rfl

/-- The result's entry. -/
theorem out_at (x : (⟨S8192x256, .f32⟩ : BufTy).Contents (Elt Ideal)) (A : (⟨S8192x8192, .f32⟩ : BufTy).Contents (Elt Ideal))
    (W : (⟨S256x256, .f32⟩ : BufTy).Contents (Elt Ideal)) (r : Fin 8192) (q : Fin 256) :
    val_main_v25 (F := Ideal) x A W (ix2 r q)
      = refOut (fun r c => x (ix2 r c)) (fun r k => A (ix2 r k)) (fun q c => W (ix2 q c)) r q := by
  rw [val_main_v25_apply, val_main_v24_apply, val_main_call1_v0_apply, val_main_call1_cst_apply]
  show max _ (Ideal.ofBits .f32 0x00000000#32) = _
  rw [Ideal.ofBits_zero_f32]
  unfold refOut
  refine congrArg (max · 0) (Finset.sum_congr rfl fun k _ => ?_)
  rw [out_left, out_right, anorm_at, lin_at]

/-- The reference program's result array is the reference's formula, entry by entry. -/
theorem ref_eq_refOut (x : (⟨S8192x256, .f32⟩ : BufTy).Contents (Elt Ideal))
    (A : (⟨S8192x8192, .f32⟩ : BufTy).Contents (Elt Ideal)) (W : (⟨S256x256, .f32⟩ : BufTy).Contents (Elt Ideal)) :
    val_main_v25 (F := Ideal) x A W
      = fun i => refOut (fun r c => x (ix2 r c)) (fun r k => A (ix2 r k)) (fun q c => W (ix2 q c)) (i 0) (i 1) := by
  funext i
  obtain ⟨r, q, rfl⟩ : ∃ (r : Fin 8192) (q : Fin 256), i = ix2 r q := ⟨i 0, i 1, eq_ix2 i⟩
  exact out_at x A W r q

end Cert.RefSide

end
-- ==== Proof.LibFinite.lean ====
/-
  Finite extended reals and the operations that keep them finite.

  An extended real is FINITE when it is the cast of a real number. The laws that fail at the infinities
  (distributivity, cancelling a subtraction, moving a factor across a sum) hold between finite values, so a proof that
  needs one of them first shows that the values it is applied to are finite. Finite values are closed under sums,
  differences, products, finite sums, maxima, the quotient by a nonzero finite value, and the reciprocal square root of
  a positive one; a scatter that ADDS finite updates into a finite array leaves it finite, whatever the indices say
  (an entry receives the sum of the updates that land on it, a finite sum, possibly empty).
-/
import Mathlib.Data.EReal.Operations
import Mathlib.Algebra.BigOperators.Ring.Finset
import Idealize.ShloMosaic.PureOps.Ideal

namespace Cert.Finite

open Idealize.ShloMosaic

/-- The extended real `x` is the cast of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Finite is: neither infinity. -/
theorem isReal_iff {x : EReal} : IsReal x ↔ x ≠ ⊤ ∧ x ≠ ⊥ := by
  refine ⟨fun h => ⟨h.ne_top, h.ne_bot⟩, fun ⟨ht, hb⟩ => ?_⟩
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero finite one is finite. -/
theorem IsReal.div_coe {x : EReal} (hx : IsReal x) {y : ℝ} (hy : y ≠ 0) : IsReal (Ideal.div x (y : EReal)) := by
  rw [Ideal.div_coe hy]; exact hx.mul (isReal_coe _)

/-- In particular by a finite value that is at least one (a count of neighbours clamped from below at one). -/
theorem IsReal.div_of_one_le {x y : EReal} (hx : IsReal x) (hy : IsReal y) (h1 : 1 ≤ y) : IsReal (Ideal.div x y) := by
  obtain ⟨b, rfl⟩ := hy
  have hb : (1 : ℝ) ≤ b := by exact_mod_cast h1
  exact hx.div_coe (by linarith : b ≠ 0)

/-- The reciprocal square root of a positive finite value is finite. -/
theorem isReal_rsqrt_of_pos {r : ℝ} (hr : 0 < r) : IsReal (Ideal.rsqrt (r : EReal)) := by
  rw [Ideal.rsqrt_coe, if_neg (not_lt.2 hr.le), if_neg hr.ne']
  exact isReal_coe _

/-- A row of a matrix product: the sum of the products of finite entries is finite. -/
theorem isReal_dot {K : Type*} [Fintype K] (a b : K → EReal) (ha : ∀ k, IsReal (a k)) (hb : ∀ k, IsReal (b k)) :
    IsReal (∑ k, a k * b k) :=
  IsReal.sum _ _ fun k _ => (ha k).mul (hb k)

/-- A scatter that adds finite updates into a finite array leaves every entry finite, whatever the indices are. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

end Cert.Finite
-- ==== Proof.LibAllFinite.lean ====
/-
  A precondition's "every entry is finite" test, read back at an entry.

  A printed precondition tests an array by comparing each entry's absolute value against the value of the word
  0x7F800000, which is +inf, and folding the comparisons with "and" into one bit. When that bit is 1 every comparison
  is 1; an extended real whose absolute value is strictly below +inf is neither infinity, so it is the cast of a
  real number. Stated for an array of any shape reduced over any axes into a single bit.
-/
import proofs.«130060_j40785009443054_2_alg».proof.Proof.LibFinite
import Idealize.ShloMosaic.Lib.ReduceAll
import Idealize.ShloMosaic.Lib.ValueIdx
import Idealize.ShloMosaic.Lib.Pipeline.Value
import Idealize.ShloMosaic.PureOps.Ideal.Laws

noncomputable section

namespace Cert.Lib.AllFinite

open Idealize.ShloMosaic Idealize.ShloMosaic.ValueIdx Cert.Finite

/-- The shape of a single bit has one index. -/
instance : Subsingleton (⟨0, ![]⟩ : Shape).Idx := ⟨fun a b => funext fun d => d.elim0⟩

/-- The word 0x7F800000 denotes +inf. -/
theorem inf_word : Ideal.ofBits .f32 0x7F800000#32 = ⊤ := by
  simp [Ideal.ofBits, Ideal.ieee]

/-- An extended real whose absolute value compares below +inf is the cast of a real. -/
theorem isReal_of_abs_lt (x : EReal) (h : Ideal.cmp .olt (max x (-x)) (Ideal.ofBits .f32 0x7F800000#32) = 1#1) :
    IsReal x := by
  rw [inf_word] at h
  induction x using EReal.rec with
  | bot => simp [Ideal.cmp] at h
  | coe r => exact ⟨r, rfl⟩
  | top => simp [Ideal.cmp] at h

/-- One array's test, read at an index: if the fold by "and" of the comparisons |a_i| < +inf, started from 1, is 1,
    then every entry of the array is the cast of a real. -/
theorem entry_of_all {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi
        (cmpf .olt (Host.absf a) (broadcastInDim s ![] hb (constant (F := Ideal) ⟨0, ![]⟩ .f32 0x7F800000#32)))
        (constantI ⟨0, ![]⟩ 1 1#1) hr hu j = 1#1) (i : s.Idx) : IsReal (a i) := by
  have h := Host.reduce_andi_all _ _ hr hu j e i
  refine isReal_of_abs_lt (a i) ?_
  rw [cmpf_apply, broadcastInDim_apply _ hb _ i (fun d => d.elim0) (fun d => d.elim0)] at h
  exact h

end Cert.Lib.AllFinite

end
-- ==== Proof.Finite.lean ====
import proofs.«130060_j40785009443054_2_alg».proof.Pre_finite_inputs
import proofs.«130060_j40785009443054_2_alg».proof.Proof.LibAllFinite

/-!
# The precondition makes every entry a real number

The precondition tests each of the three argument arrays — every entry's absolute value below `+∞` — folds each test with
"and" into one bit, and joins the three bits with "and". When the result is one, each of the three bits is one, and each
array's test read back at an entry says that entry is neither infinity: it is the cast of a real number.
-/

noncomputable section

namespace Cert.RefSide

open Idealize.ShloMosaic Idealize.ShloMosaic.ValueIdx

theorem finite_of_pre [hF : Cert.Pre_finite_inputs.Facts]
    (x : FVec Ideal Cert.Pre_finite_inputs.S8192x256 .f32) (A : FVec Ideal Cert.Pre_finite_inputs.S8192x8192 .f32)
    (W : FVec Ideal Cert.Pre_finite_inputs.S256x256 .f32)
    (h : Cert.Pre_finite_inputs.fn (F := Ideal) x A W = (fun _ => 1#1)) :
    (∀ i, ∃ r : ℝ, x i = (r : EReal)) ∧ (∀ i, ∃ r : ℝ, A i = (r : EReal)) ∧ (∀ i, ∃ r : ℝ, W i = (r : EReal)) := by
  have h0 := congrFun h ValueIdx.ix0
  dsimp only [Cert.Pre_finite_inputs.fn] at h0
  obtain ⟨h8, h12⟩ := IntOp.andi_eq_one.mp h0
  obtain ⟨h3, h7⟩ := IntOp.andi_eq_one.mp h8
  exact ⟨fun i => Cert.Lib.AllFinite.entry_of_all x _ _ _ _ h3 i,
    fun i => Cert.Lib.AllFinite.entry_of_all A _ _ _ _ h7 i,
    fun i => Cert.Lib.AllFinite.entry_of_all W _ _ _ _ h12 i⟩

end Cert.RefSide

end
-- ==== Proof.RefSide.lean ====
import proofs.«130060_j40785009443054_2_alg».proof.Proof.Gen.ReferenceIdeal.Read
import proofs.«130060_j40785009443054_2_alg».proof.Proof.Spec
import proofs.«130060_j40785009443054_2_alg».proof.Proof.RefRead
import proofs.«130060_j40785009443054_2_alg».proof.Proof.Finite

/-!
# The reference's result is the tiled formula, on finite inputs

The reference program's result array is, entry by entry, the reference's formula over plain coordinates
(`ref_eq_refOut`); on arrays whose entries are all real numbers that formula and the tiled formula `Cert.Spec.K` are the
same real number (`refOut_eq_K`: the two differ by regrouping sums, which is free on the extended reals, and by the
distributive law and `(1 + n) ^ (-1/2) = 1 / √(1 + n)`, which hold between real numbers). The precondition provides
exactly that every entry is a real number (`finite_of_pre`).
-/

noncomputable section

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- On arguments whose entries are all real numbers, the reference program's result is the tiled formula of the three
    argument arrays read over plain coordinates. -/
theorem ref_eq_K (x : (⟨S8192x256, .f32⟩ : BufTy).Contents (Elt Ideal))
    (A : (⟨S8192x8192, .f32⟩ : BufTy).Contents (Elt Ideal)) (W : (⟨S256x256, .f32⟩ : BufTy).Contents (Elt Ideal))
    (hx : ∀ i, ∃ r : ℝ, x i = (r : EReal)) (hA : ∀ i, ∃ r : ℝ, A i = (r : EReal))
    (hW : ∀ i, ∃ r : ℝ, W i = (r : EReal)) :
    Cert.ReferenceIdeal.Read.val_main_v25 (F := Ideal) x A W
      = fun i => Cert.Spec.K (fun r e => x (ValueIdx.ix2 r e)) (fun r k => A (ValueIdx.ix2 r k))
          (fun q e => W (ValueIdx.ix2 q e)) (i 0) (i 1) := by
  rw [ref_eq_refOut]
  funext i
  exact refOut_eq_K _ _ _ (fun r c => hx (ix2 r c)) (fun r k => hA (ix2 r k)) (fun q c => hW (ix2 q c)) (i 0) (i 1)

end Cert.RefSide

end
-- ==== Proof.RefOfPre.lean ====
import proofs.«130060_j40785009443054_2_alg».proof.Proof.RefSide

/-!
# The reference's result under the precondition

The precondition makes every entry of the three argument arrays a real number, and on such arrays the reference program's
result is the tiled formula; so under the precondition the reference program's result is the tiled formula.
-/

noncomputable section

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

theorem ref_eq_K_of_pre [hF : Cert.Pre_finite_inputs.Facts] (x : (⟨S8192x256, .f32⟩ : BufTy).Contents (Elt Ideal))
    (A : (⟨S8192x8192, .f32⟩ : BufTy).Contents (Elt Ideal)) (W : (⟨S256x256, .f32⟩ : BufTy).Contents (Elt Ideal))
    (h : Cert.Pre_finite_inputs.fn (F := Ideal) x A W = (fun _ => 1#1)) :
    Cert.ReferenceIdeal.Read.val_main_v25 (F := Ideal) x A W
      = fun i => Cert.Spec.K (fun r e => x (ValueIdx.ix2 r e)) (fun r k => A (ValueIdx.ix2 r k))
          (fun q e => W (ValueIdx.ix2 q e)) (i 0) (i 1) := by
  obtain ⟨hx, hA, hW⟩ := finite_of_pre x A W h
  exact ref_eq_K x A W hx hA hW

end Cert.RefSide

end
-- ==== Proof.lean ====
/-
The certificate of a degree-normalised graph convolution, `relu(D (A + I) D (x Wᵀ))` with
`D = diag((1 + #{k : A r k > ε})^(-1/2))`, computed by two tiled launches against a dense reference.

* Frames.  Each launch walks a grid of 8 row blocks by 4 column tiles and keeps a running total in a scratch
  buffer from one column tile to the next (an edge count in the first launch, a partial matrix product in the
  second); the launch invariant names the scratch contents after every grid point, the body is run once per
  branch pattern (first / middle / last column tile), and the two launches are chained through the contents of
  the unscoped buffers between them.  The same text proves the frame of the program as printed and of its
  reading on the extended reals.
* Values.  On the extended reals the running totals are the four tile sums added in order from zero, so the
  kernel's result array is the tiled formula `Cert.Spec.K` of the three argument arrays.
* The reference.  Its operations read index by index give a second formula; when every entry of the arguments is
  a real number (the precondition) the two formulas are the same real number: `d_r (Σ_k A r k · (h k · d k) +
  d_r · h r) = Σ_k (d_r (A r k + δ r k) d_k) · h k`, a ring identity that needs finiteness for distributivity.
* The idealisation rewrote nothing, so `preserves` is trivial.
-/
import proofs.«130060_j40785009443054_2_alg».proof.Defs
import proofs.«130060_j40785009443054_2_alg».proof.Proof.Gen.Kernel
import proofs.«130060_j40785009443054_2_alg».proof.Proof.Gen.KernelIdeal
import proofs.«130060_j40785009443054_2_alg».proof.Proof.Gen.ReferenceIdeal
import proofs.«130060_j40785009443054_2_alg».proof.Proof.Gen.Pre_finite_inputs
import proofs.«130060_j40785009443054_2_alg».proof.Proof.Gen.ReferenceIdeal.Run
import proofs.«130060_j40785009443054_2_alg».proof.Proof.Gen.ReferenceIdeal.Read
import proofs.«130060_j40785009443054_2_alg».proof.Proof.BitsRun
import proofs.«130060_j40785009443054_2_alg».proof.Proof.IdealValue
import proofs.«130060_j40785009443054_2_alg».proof.Proof.RefOfPre
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs end at the tiled formula of the (agreeing) arguments: the kernel by its two launches read back,
    the reference by its operations read index by index and the ring identity on real entries. -/
theorem algebraic : Cert.algebraic_KernelIdeal_ReferenceIdeal := by
  intro m ρ m' ρ' hpre hagree
  refine ⟨fun c => Cert.KernelIdeal.Hand.resultArr m c, fun c => m ((c.tc : Thread Cert.KernelIdeal.nD Cert.KernelIdeal.τ).loc Cert.KernelIdeal.main_arg1), ?_, ?_⟩
  · exact (θ_run Cert.KernelIdeal.defs _ _).mono (fun r h c => ⟨(h c).1, (h c).2.2.1, (h c).2.1, (h c).2.2.1, (h c).2.2.2⟩)
      (Cert.KernelIdeal.Hand.run_K m ρ)
  · refine (θ_run Cert.ReferenceIdeal.defs _ _).mono (fun r h c => ⟨?_, (h c).2.1.trans (hagree c).2.1, (h c).2.2⟩)
      (Cert.ReferenceIdeal.Value.run (F := Ideal) m' ρ')
    rw [(h c).1, Cert.ReferenceIdeal.Read.val_main_v25_eq, (hagree c).1, (hagree c).2.1, (hagree c).2.2,
      Cert.RefSide.ref_eq_K_of_pre _ _ _ (hpre c)]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
